-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S256x256 : Shape := ⟨2, ![256, 256]⟩
abbrev S256 : Shape := ⟨1, ![256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x8192x256 .f32) (main_arg1 : FVec F S256x256 .f32) (main_arg2 : FVec F S256x256 .f32) (main_arg3 : FVec F S256 .f32) (main_arg4 : FVec F S256x256 .f32) (main_arg5 : FVec F S256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x8192x256 : Shape := ⟨3, ![8, 8192, 256]⟩
abbrev S256x256 : Shape := ⟨2, ![256, 256]⟩
abbrev S256 : Shape := ⟨1, ![256]⟩
abbrev S65536x256 : Shape := ⟨2, ![65536, 256]⟩
abbrev S2x256x1 : Shape := ⟨3, ![2, 256, 1]⟩
abbrev S4096x256 : Shape := ⟨2, ![4096, 256]⟩
abbrev S1x256x1 : Shape := ⟨3, ![1, 256, 1]⟩
abbrev S256x4096 : Shape := ⟨2, ![256, 4096]⟩
abbrev S256x1 : Shape := ⟨2, ![256, 1]⟩
abbrev S2x256x256 : Shape := ⟨3, ![2, 256, 256]⟩
abbrev S1x256x256 : Shape := ⟨3, ![1, 256, 256]⟩
abbrev S_ : Shape := ⟨0, ![]⟩
abbrev S1x256 : Shape := ⟨2, ![1, 256]⟩
abbrev S65536x512 : Shape := ⟨2, ![65536, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩
abbrev S8x8192x512 : Shape := ⟨3, ![8, 8192, 512]⟩

abbrev nBuf : Space → Nat
  | .hbm => 71
  | .vmem => 23
  | .smem => 0
  | _ => 0

abbrev bufTy : (tb : Table) → Fin (tcTables nBuf tb) → BufTy
  | .hbm, ⟨0, _⟩ => ⟨S8x8192x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S65536x256, .f32⟩
  | .hbm, ⟨7, _⟩ => ⟨S2x256x1, .f32⟩
  | .hbm, ⟨8, _⟩ => ⟨S2x256x1, .f32⟩
  | .hbm, ⟨9, _⟩ => ⟨S1x256x1, .f32⟩
  | .hbm, ⟨10, _⟩ => ⟨S256x1, .f32⟩
  | .hbm, ⟨11, _⟩ => ⟨S1x256x1, .f32⟩
  | .hbm, ⟨12, _⟩ => ⟨S256x1, .f32⟩
  | .hbm, ⟨13, _⟩ => ⟨S1x256x1, .f32⟩
  | .hbm, ⟨14, _⟩ => ⟨S256x1, .f32⟩
  | .hbm, ⟨15, _⟩ => ⟨S1x256x1, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S256x1, .f32⟩
  | .hbm, ⟨25, _⟩ => ⟨S2x256x256, .f32⟩
  | .hbm, ⟨26, _⟩ => ⟨S2x256x1, .f32⟩
  | .hbm, ⟨27, _⟩ => ⟨S1x256x256, .f32⟩
  | .hbm, ⟨28, _⟩ => ⟨S256x256, .f32⟩
  | .hbm, ⟨29, _⟩ => ⟨S1x256x256, .f32⟩
  | .hbm, ⟨30, _⟩ => ⟨S256x256, .f32⟩
  | .hbm, ⟨31, _⟩ => ⟨S256x256, .f32⟩
  | .hbm, ⟨32, _⟩ => ⟨S1x256x1, .f32⟩
  | .hbm, ⟨33, _⟩ => ⟨S256x1, .f32⟩
  | .hbm, ⟨34, _⟩ => ⟨S1x256x1, .f32⟩
  | .hbm, ⟨35, _⟩ => ⟨S256x1, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S1x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S1x256, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S256x256, .f32⟩
  | .hbm, ⟨60, _⟩ => ⟨S256x256, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S65536x512, .f32⟩
  | .hbm, ⟨68, _⟩ => ⟨S65536x256, .f32⟩
  | .hbm, ⟨69, _⟩ => ⟨S8x8192x512, .f32⟩
  | .hbm, ⟨70, _⟩ => ⟨S8x8192x256, .f32⟩
  | .local _ .vmem, ⟨0, _⟩ => ⟨S256x256, .f32⟩
  | .local _ .vmem, ⟨1, _⟩ => ⟨S4096x256, .f32⟩
  | .local _ .vmem, ⟨2, _⟩ => ⟨S4096x256, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S256x256, .f32⟩
  | .local _ .vmem, ⟨8, _⟩ => ⟨S4096x256, .f32⟩
  | .local _ .vmem, ⟨9, _⟩ => ⟨S4096x256, .f32⟩
  | .local _ .vmem, ⟨10, _⟩ => ⟨S256x1, .f32⟩
  | .local _ .vmem, ⟨11, _⟩ => ⟨S256x1, .f32⟩
  | .local _ .vmem, ⟨12, _⟩ => ⟨S1x256x256, .f32⟩
  | .local _ .vmem, ⟨13, _⟩ => ⟨S1x256x256, .f32⟩
  | .local _ .vmem, ⟨14, _⟩ => ⟨S1x256x1, .f32⟩
  | .local _ .vmem, ⟨15, _⟩ => ⟨S1x256x1, .f32⟩
  | .local _ .vmem, ⟨16, _⟩ => ⟨S2048x256, .f32⟩
  | .local _ .vmem, ⟨17, _⟩ => ⟨S2048x256, .f32⟩
  | .local _ .vmem, ⟨18, _⟩ => ⟨S256x256, .f32⟩
  | .local _ .vmem, ⟨19, _⟩ => ⟨S2048x512, .f32⟩
  | .local _ .vmem, ⟨20, _⟩ => ⟨S2048x512, .f32⟩
  | .local _ .vmem, ⟨21, _⟩ => ⟨S2048x256, .f32⟩
  | .local _ .vmem, ⟨22, _⟩ => ⟨S2048x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55_0 : Ref sig .tc := ⟨.hbm, 67, rfl⟩
abbrev main_v55_1 : Ref sig .tc := ⟨.hbm, 68, rfl⟩
abbrev main_v56 : Ref sig .tc := ⟨.hbm, 69, rfl⟩
abbrev main_v57 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x8192x256_S65536x256 : S8x8192x256.ShapeCasts S65536x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S256x4096_S256 : S256x4096.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  broadcasts_S256x1_S256x4096 : S256x1.Broadcasts S256x4096
  slices_S2x256x1_S1x256x1_0_0_0 : S2x256x1.Slices ![0, 0, 0] S1x256x1
  slices_S2x256x1_S1x256x1_1_0_0 : S2x256x1.Slices ![1, 0, 0] S1x256x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  slices_S2x256x256_S1x256x256_0_0_0 : S2x256x256.Slices ![0, 0, 0] S1x256x256
  slices_S2x256x256_S1x256x256_1_0_0 : S2x256x256.Slices ![1, 0, 0] S1x256x256
  bcast_S_S256x1 : S_.BroadcastsInDim S256x1 (![] : Fin 0 → Fin S256x1.rank)
  bcast_S256x1_S256x256_0_1 : S256x1.BroadcastsInDim S256x256 (![0, 1] : Fin 2 → Fin S256x256.rank)
  transposes_S256x256_S256x256_1_0 : S256x256.Transposes [1, 0] S256x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S256x256_S256x256 : S256x256.ShapeCasts S256x256
  reduces_S2048x256_S2048 : S2048x256.Reduces [1] S2048
  shapeCasts_S2048_S2048x1 : S2048.ShapeCasts S2048x1
  broadcasts_S2048x1_S2048x256 : S2048x1.Broadcasts S2048x256
  inb_S2048x512_S2048x256_0_0 : ∀ a, (![0, 0] : Fin 2 → Nat) a + S2048x256.size a ≤ S2048x512.size a
  inb_S2048x512_S2048x256_0_256 : ∀ a, (![0, 256] : Fin 2 → Nat) a + S2048x256.size a ≤ S2048x512.size a
  shapeCasts_S65536x512_S8x8192x512 : S65536x512.ShapeCasts S8x8192x512
  shapeCasts_S65536x256_S8x8192x256 : S65536x256.ShapeCasts S8x8192x256
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S2048x256_S256x256_S2048x256_1_1_0_0_n_n_wf : DotDims.WF S2048x256 S256x256 S2048x256 [1] [1] [0] [0] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x256x1.size a
  hwx0_2 : ∀ i : grid0.Coords, EltTy.bits .f32 = 32 ∨ (Rect.block (s := S2x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x256x1.size a
  hwx0_3 : ∀ i : grid0.Coords, EltTy.bits .f32 = 32 ∨ (Rect.block (s := S2x256x1) S1x256x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S65536x256.size a
  hwx1_1 : ∀ i : grid1.Coords, EltTy.bits .f32 = 32 ∨ (Rect.block (s := S65536x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S2x256x256.size a
  hwx1_4 : ∀ i : grid1.Coords, EltTy.bits .f32 = 32 ∨ (Rect.block (s := S2x256x256) S1x256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1.size a ≤ S2x256x1.size a
  hwx1_5 : ∀ i : grid1.Coords, EltTy.bits .f32 = 32 ∨ (Rect.block (s := S2x256x1) S1x256x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S65536x512.size a
  hwx2_2 : ∀ i : grid2.Coords, EltTy.bits .f32 = 32 ∨ (Rect.block (s := S65536x512) S2048x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S65536x256.size a
  hwx2_3 : ∀ i : grid2.Coords, EltTy.bits .f32 = 32 ∨ (Rect.block (s := S65536x256) S2048x256.size (cc2_transform_3 i) (hinb2_3 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg1) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18_0) S1x256x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18_1) S1x256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55_0) S2048x512.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55_1) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x8192x256 : Shape := ⟨3, ![8, 8192, 256]⟩
abbrev S256x256 : Shape := ⟨2, ![256, 256]⟩
abbrev S256 : Shape := ⟨1, ![256]⟩
abbrev S65536x256 : Shape := ⟨2, ![65536, 256]⟩
abbrev S256x65536 : Shape := ⟨2, ![256, 65536]⟩
abbrev S_ : Shape := ⟨0, ![]⟩
abbrev S256x1 : Shape := ⟨2, ![256, 1]⟩
abbrev S1x256 : Shape := ⟨2, ![1, 256]⟩
abbrev S65536 : Shape := ⟨1, ![65536]⟩
abbrev S65536x1 : Shape := ⟨2, ![65536, 1]⟩
abbrev S65536x512 : Shape := ⟨2, ![65536, 512]⟩
abbrev S8x8192x512 : Shape := ⟨3, ![8, 8192, 512]⟩

abbrev nBuf : Space → Nat
  | .hbm => 117
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S65536x256, .f32⟩
  | .hbm, ⟨7, _⟩ => ⟨S256x65536, .f32⟩
  | .hbm, ⟨8, _⟩ => ⟨S256x65536, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x65536, .f32⟩
  | .hbm, ⟨16, _⟩ => ⟨S256x65536, .f32⟩
  | .hbm, ⟨17, _⟩ => ⟨S256x65536, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S256x65536, .f32⟩
  | .hbm, ⟨22, _⟩ => ⟨S256x65536, .f32⟩
  | .hbm, ⟨23, _⟩ => ⟨S_, .f32⟩
  | .hbm, ⟨24, _⟩ => ⟨S256x65536, .f32⟩
  | .hbm, ⟨25, _⟩ => ⟨S256x65536, .f32⟩
  | .hbm, ⟨26, _⟩ => ⟨S_, .f32⟩
  | .hbm, ⟨27, _⟩ => ⟨S256x65536, .f32⟩
  | .hbm, ⟨28, _⟩ => ⟨S256x65536, .f32⟩
  | .hbm, ⟨29, _⟩ => ⟨S256x65536, .f32⟩
  | .hbm, ⟨30, _⟩ => ⟨S_, .f32⟩
  | .hbm, ⟨31, _⟩ => ⟨S256x65536, .f32⟩
  | .hbm, ⟨32, _⟩ => ⟨S256x65536, .f32⟩
  | .hbm, ⟨33, _⟩ => ⟨S256x65536, .f32⟩
  | .hbm, ⟨34, _⟩ => ⟨S_, .f32⟩
  | .hbm, ⟨35, _⟩ => ⟨S256x65536, .f32⟩
  | .hbm, ⟨36, _⟩ => ⟨S256x65536, .f32⟩
  | .hbm, ⟨37, _⟩ => ⟨S256x65536, .f32⟩
  | .hbm, ⟨38, _⟩ => ⟨S256x65536, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x65536, .f32⟩
  | .hbm, ⟨46, _⟩ => ⟨S256x65536, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S1x256, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S1x256, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S65536x256, .f32⟩
  | .hbm, ⟨75, _⟩ => ⟨S_, .f32⟩
  | .hbm, ⟨76, _⟩ => ⟨S65536, .f32⟩
  | .hbm, ⟨77, _⟩ => ⟨S_, .f32⟩
  | .hbm, ⟨78, _⟩ => ⟨S65536, .f32⟩
  | .hbm, ⟨79, _⟩ => ⟨S65536, .f32⟩
  | .hbm, ⟨80, _⟩ => ⟨S65536x1, .f32⟩
  | .hbm, ⟨81, _⟩ => ⟨S65536x256, .f32⟩
  | .hbm, ⟨82, _⟩ => ⟨S65536x256, .f32⟩
  | .hbm, ⟨83, _⟩ => ⟨S65536x256, .f32⟩
  | .hbm, ⟨84, _⟩ => ⟨S_, .f32⟩
  | .hbm, ⟨85, _⟩ => ⟨S65536, .f32⟩
  | .hbm, ⟨86, _⟩ => ⟨S65536x1, .f32⟩
  | .hbm, ⟨87, _⟩ => ⟨S65536x256, .f32⟩
  | .hbm, ⟨88, _⟩ => ⟨S65536x256, .f32⟩
  | .hbm, ⟨89, _⟩ => ⟨S_, .f32⟩
  | .hbm, ⟨90, _⟩ => ⟨S65536x256, .f32⟩
  | .hbm, ⟨91, _⟩ => ⟨S65536x256, .f32⟩
  | .hbm, ⟨92, _⟩ => ⟨S_, .f32⟩
  | .hbm, ⟨93, _⟩ => ⟨S65536x256, .f32⟩
  | .hbm, ⟨94, _⟩ => ⟨S65536x256, .f32⟩
  | .hbm, ⟨95, _⟩ => ⟨S65536x256, .f32⟩
  | .hbm, ⟨96, _⟩ => ⟨S_, .f32⟩
  | .hbm, ⟨97, _⟩ => ⟨S65536x256, .f32⟩
  | .hbm, ⟨98, _⟩ => ⟨S65536x256, .f32⟩
  | .hbm, ⟨99, _⟩ => ⟨S65536x256, .f32⟩
  | .hbm, ⟨100, _⟩ => ⟨S_, .f32⟩
  | .hbm, ⟨101, _⟩ => ⟨S65536x256, .f32⟩
  | .hbm, ⟨102, _⟩ => ⟨S65536x256, .f32⟩
  | .hbm, ⟨103, _⟩ => ⟨S65536x256, .f32⟩
  | .hbm, ⟨104, _⟩ => ⟨S65536x256, .f32⟩
  | .hbm, ⟨105, _⟩ => ⟨S_, .f32⟩
  | .hbm, ⟨106, _⟩ => ⟨S65536, .f32⟩
  | .hbm, ⟨107, _⟩ => ⟨S65536x1, .f32⟩
  | .hbm, ⟨108, _⟩ => ⟨S_, .f32⟩
  | .hbm, ⟨109, _⟩ => ⟨S65536x1, .f32⟩
  | .hbm, ⟨110, _⟩ => ⟨S65536x1, .f32⟩
  | .hbm, ⟨111, _⟩ => ⟨S65536x256, .f32⟩
  | .hbm, ⟨112, _⟩ => ⟨S65536x256, .f32⟩
  | .hbm, ⟨113, _⟩ => ⟨S65536x256, .f32⟩
  | .hbm, ⟨114, _⟩ => ⟨S65536x512, .f32⟩
  | .hbm, ⟨115, _⟩ => ⟨S8x8192x512, .f32⟩
  | .hbm, ⟨116, _⟩ => ⟨S8x8192x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  shapeCasts_S8x8192x256_S65536x256 : S8x8192x256.ShapeCasts S65536x256
  transposes_S65536x256_S256x65536_1_0 : S65536x256.Transposes [1, 0] S256x65536
  reducesTo_S256x65536_S256_d1 : S256x65536.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x65536_0_1 : S256x1.BroadcastsInDim S256x65536 (![0, 1] : Fin 2 → Fin S256x65536.rank)
  bcast_S_S256x65536 : S_.BroadcastsInDim S256x65536 (![] : Fin 0 → Fin S256x65536.rank)
  bcast_S_S256x1 : S_.BroadcastsInDim S256x1 (![] : Fin 0 → Fin S256x1.rank)
  transposes_S256x256_S256x256_1_0 : S256x256.Transposes [1, 0] S256x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S65536x256_S65536_d1 : S65536x256.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  bcast_S_S65536x256 : S_.BroadcastsInDim S65536x256 (![] : Fin 0 → Fin S65536x256.rank)
  bcast_S_S65536x1 : S_.BroadcastsInDim S65536x1 (![] : Fin 0 → Fin S65536x1.rank)
  concatenates_S65536x256_S65536x256_S65536x512_d1 : Shape.Concatenates [S65536x256, S65536x256] S65536x512 1
  shapeCasts_S65536x512_S8x8192x512 : S65536x512.ShapeCasts S8x8192x512
  shapeCasts_S65536x256_S8x8192x256 : S65536x256.ShapeCasts S8x8192x256
  dot_S256x256_S256x65536_S256x65536_1_0_0_1_n_n_wf : DotDims.WF S256x256 S256x65536 S256x65536 [1] [0] [0] [1] [] []
  dot_S256x65536_S65536x256_S256x256_1_0_0_1_n_n_wf : DotDims.WF S256x65536 S65536x256 S256x256 [1] [0] [0] [1] [] []
  dot_S256x256_S256x256_S256x256_1_0_0_1_n_n_wf : DotDims.WF S256x256 S256x256 S256x256 [1] [0] [0] [1] [] []
  dot_S65536x256_S256x256_S65536x256_1_0_0_1_n_n_wf : DotDims.WF S65536x256 S256x256 S65536x256 [1] [0] [0] [1] [] []

variable [Facts₀]

def dot_S256x256_S256x65536_S256x65536_1_0_0_1_n_n : DotDims S256x256 S256x65536 S256x65536 where
  lhsContracting := [1]
  rhsContracting := [0]
  lhsNonContracting := [0]
  rhsNonContracting := [1]
  lhsBatch := []
  rhsBatch := []
  wf := dot_S256x256_S256x65536_S256x65536_1_0_0_1_n_n_wf
def dot_S256x65536_S65536x256_S256x256_1_0_0_1_n_n : DotDims S256x65536 S65536x256 S256x256 where
  lhsContracting := [1]
  rhsContracting := [0]
  lhsNonContracting := [0]
  rhsNonContracting := [1]
  lhsBatch := []
  rhsBatch := []
  wf := dot_S256x65536_S65536x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Spec.lean ====
/-
  The mathematics both programs compute, stated once, over coordinate functions on the extended reals.

  A memory of 256 rows of 256 features is updated from 65536 query rows and then read by them.
  * score a t      = ⟨mem a, q t⟩, the inner product of memory row a and query row t.
  * For a row of scores s : the softmax weights exp(s i - max s) / Σ exp(s j - max s); each weight p is
    hard-shrunk, relu(p - λ) · p / (|p - λ| + ε); the shrunk row is divided by max(Σ |·|, ε).  That is attn.
  * update:  addMem a j = Σ_t attn(score a ·) t · q t j.
  * read:    attnR t a = attn(⟨q t, nm ·⟩) a  and  addMemory t j = Σ_a attnR t a · nm a j  for the new memory nm.
  The blocked computation walks the 65536 query rows in 16 tiles of 4096 (tiles 0..7 on one core, 8..15 on the
  other, each core starting afresh), keeping per memory row a running maximum m and a running sum l of
  exp(s - m), rescaled whenever m grows (mlAt); with the cores' (m, l) merged into one (m, l) it walks the
  tiles again accumulating Σ g · q and Σ |g| of the shrunk weights g (accAt, l1At).
-/
import Idealize.ShloMosaic.PureOps.Ideal
import Idealize.ShloMosaic.Lib.ValueIdx

noncomputable section

open scoped BigOperators

namespace Cert.MemSpec

open Idealize.ShloMosaic Idealize.ShloMosaic.ValueIdx

/-- A rank-2 array read by its two coordinates. -/
def mat {n0 n1 : Nat} (x : (⟨2, ![n0, n1]⟩ : Shape).Idx → EReal) : Fin n0 → Fin n1 → EReal := fun a b => x (ix2 a b)
/-- An [n, 1] column read by its row coordinate. -/
def col {n : Nat} (x : (⟨2, ![n, 1]⟩ : Shape).Idx → EReal) : Fin n → EReal := fun a => x (ix2 a 0)

/-- The shrink threshold: the extended real the f32 word of 0.0025 denotes. -/
def lam : EReal := Ideal.ofBits .f32 0x3B23D70A#32
/-- The guard ε: the extended real the f32 word of 1e-12 denotes. -/
def eps : EReal := Ideal.ofBits .f32 0x2B8CBCCC#32

/-- |x| on the extended reals. -/
def eabs (x : EReal) : EReal := max x (-x)

/-- Hard shrink of a weight p: relu(p - λ) · p / (|p - λ| + ε). -/
def shrink (p : EReal) : EReal := Ideal.div (max (p - lam) 0 * p) (eabs (p - lam) + eps)

section Row
variable {ι : Type} [Fintype ι]

/-- The largest entry of a row (⊥ for an empty row). -/
def rowMax (s : ι → EReal) : EReal := Finset.univ.sup s
/-- The softmax weight of entry i. -/
def soft (s : ι → EReal) (i : ι) : EReal :=
  Ideal.div (Ideal.exp (s i - rowMax s)) (∑ j, Ideal.exp (s j - rowMax s))
/-- The shrunk softmax weight. -/
def shr (s : ι → EReal) (i : ι) : EReal := shrink (soft s i)
/-- The clamped L1 norm of the shrunk row. -/
def l1 (s : ι → EReal) : EReal := max (∑ j, eabs (shr s j)) eps
/-- The normalised shrunk softmax weight. -/
def attn (s : ι → EReal) (i : ι) : EReal := Ideal.div (shr s i) (l1 s)

end Row

/-! ## The update -/

/-- ⟨mem a, q t⟩. -/
def score (mem : Fin 256 → Fin 256 → EReal) (q : Fin 65536 → Fin 256 → EReal) (a : Fin 256) (t : Fin 65536) : EReal :=
  ∑ k : Fin 256, mem a k * q t k

/-- The memory's addition, row a feature j: Σ_t attn(score a ·) t · q t j. -/
def addMem (mem : Fin 256 → Fin 256 → EReal) (q : Fin 65536 → Fin 256 → EReal) (a j : Fin 256) : EReal :=
  ∑ t : Fin 65536, attn (score mem q a) t * q t j

/-- Query row number p of tile n (tiles of 4096 rows; the remainder keeps the function total). -/
def prow (n : ℕ) (p : Fin 4096) : Fin 65536 := ⟨(n * 4096 + p.val) % 65536, Nat.mod_lt _ (by norm_num)⟩

/-- One step of the running (maximum, rescaled sum of exponentials) over a tile's scores s. -/
def mlStep (ml : EReal × EReal) (s : Fin 4096 → EReal) : EReal × EReal :=
  (max ml.1 (rowMax s),
   ml.2 * Ideal.exp (ml.1 - max ml.1 (rowMax s)) + ∑ p, Ideal.exp (s p - max ml.1 (rowMax s)))

/-- The running (m, l) of memory row a after tile n; tiles 0 and 8 start afresh from (⊥, 0). -/
def mlAt (mem : Fin 256 → Fin 256 → EReal) (q : Fin 65536 → Fin 256 → EReal) (a : Fin 256) : ℕ → EReal × EReal
  | 0 => mlStep (⊥, 0) (fun p => score mem q a (prow 0 p))
  | n + 1 =>
    if (n + 1) % 8 = 0 then mlStep (⊥, 0) (fun p => score mem q a (prow (n + 1) p))
    else mlStep (mlAt mem q a n) (fun p => score mem q a (prow (n + 1) p))

/-- The shrunk weight of query row t for memory row a, from a given maximum m a and normaliser l a. -/
def gU (mem : Fin 256 → Fin 256 → EReal) (q : Fin 65536 → Fin 256 → EReal) (m l : Fin 256 → EReal)
    (a : Fin 256) (t : Fin 65536) : EReal :=
  shrink (Ideal.div (Ideal.exp (score mem q a t - m a)) (l a))

/-- The running Σ g · q (row a, feature j) after tile n; tiles 0 and 8 start afresh from 0. -/
def accAt (mem : Fin 256 → Fin 256 → EReal) (q : Fin 65536 → Fin 256 → EReal) (m l : Fin 256 → EReal)
    (a j : Fin 256) : ℕ → EReal
  | 0 => 0 + ∑ p : Fin 4096, gU mem q m l a (prow 0 p) * q (prow 0 p) j
  | n + 1 =>
    (if (n + 1) % 8 = 0 then 0 else accAt mem q m l a j n)
      + ∑ p : Fin 4096, gU mem q m l a (prow (n + 1) p) * q (prow (n + 1) p) j

/-- The running Σ |g| (row a) after tile n; tiles 0 and 8 start afresh from 0. -/
def l1At (mem : Fin 256 → Fin 256 → EReal) (q : Fin 65536 → Fin 256 → EReal) (m l : Fin 256 → EReal)
    (a : Fin 256) : ℕ → EReal
  | 0 => 0 + ∑ p : Fin 4096, eabs (gU mem q m l a (prow 0 p))
  | n + 1 =>
    (if (n + 1) % 8 = 0 then 0 else l1At mem q m l a n)
      + ∑ p : Fin 4096, eabs (gU mem q m l a (prow (n + 1) p))

/-- The two cores' running maxima merged. -/
def mMerged (mem : Fin 256 → Fin 256 → EReal) (q : Fin 65536 → Fin 256 → EReal) (a : Fin 256) : EReal :=
  max (mlAt mem q a 7).1 (mlAt mem q a 15).1

/-- The two cores' running sums rescaled to the merged maximum and added. -/
def lMerged (mem : Fin 256 → Fin 256 → EReal) (q : Fin 65536 → Fin 256 → EReal) (a : Fin 256) : EReal :=
  (mlAt mem q a 7).2 * Ideal.exp ((mlAt mem q a 7).1 - mMerged mem q a)
    + (mlAt mem q a 15).2 * Ideal.exp ((mlAt mem q a 15).1 - mMerged mem q a)

/-- The memory's addition as the blocked computation forms it: the two cores' Σ g · q added, over the clamped
    sum of the two cores' Σ |g|. -/
def addMemBlocked (mem : Fin 256 → Fin 256 → EReal) (q : Fin 65536 → Fin 256 → EReal) (a j : Fin 256) : EReal :=
  Ideal.div
    (accAt mem q (mMerged mem q) (lMerged mem q) a j 7 + accAt mem q (mMerged mem q) (lMerged mem q) a j 15)
    (max (l1At mem q (mMerged mem q) (lMerged mem q) a 7 + l1At mem q (mMerged mem q) (lMerged mem q) a 15) eps)

/-! ## The read -/

/-- ⟨q t, nm a⟩. -/
def rscore (q : Fin 65536 → Fin 256 → EReal) (nm : Fin 256 → Fin 256 → EReal) (t : Fin 65536) (a : Fin 256) : EReal :=
  ∑ k : Fin 256, q t k * nm a k

/-- The read weights of query row t. -/
def attnR (q : Fin 65536 → Fin 256 → EReal) (nm : Fin 256 → Fin 256 → EReal) (t : Fin 65536) (a : Fin 256) : EReal :=
  attn (rscore q nm t) a

/-- What query row t reads from the memory, feature j. -/
def addMemory (q : Fin 65536 → Fin 256 → EReal) (nm : Fin 256 → Fin 256 → EReal) (t : Fin 65536) (j : Fin 256) : EReal :=
  ∑ a : Fin 256, attnR q nm t a * nm a j

/-- The query row beside what it read: features 0..255 the row itself, 256..511 the read. -/
def readQuery (q : Fin 65536 → Fin 256 → EReal) (nm : Fin 256 → Fin 256 → EReal) (t : Fin 65536) (j : Fin 512) : EReal :=
  if h : j.val < 256 then q t ⟨j.val, h⟩ else addMemory q nm t ⟨j.val - 256, by omega⟩

end Cert.MemSpec

end
-- ==== Proof.HostA.lean ====
/-
  The host operations before the first region and between the first two regions, read at an index.
  * Before the first region the query array [8, 8192, 256] is viewed as the 65536 x 256 matrix q.
  * Between the first two regions the two cores' rows of running maxima (array m_parts [2, 256, 1]) and of running sums
    (array l_parts [2, 256, 1]) are merged: m a = max(m_parts 0 a, m_parts 1 a),
    l a = l_parts 0 a · exp(m_parts 0 a − m a) + l_parts 1 a · exp(m_parts 1 a − m a).
  Neither stretch writes the memory array or, after the first, the matrix q.
-/
import proofs.«171355_j541165879332_2_alg».proof.Proof.Gen.KernelIdeal.Frame
import proofs.«171355_j541165879332_2_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.ValueIdx Idealize.ShloMosaic.StableHlo

/-- Row o of a [2, n, k] array, cut out as a [1, n, k] slice and viewed [n, k], read at (a, b), is the array at (o, a, b). -/
theorem slice_row_apply {n k : Nat} (o : Nat) (ho : o < 2) (X : (⟨3, ![2, n, k]⟩ : Shape).Idx → EReal)
    (hs : (⟨3, ![2, n, k]⟩ : Shape).Slices ![o, 0, 0] ⟨3, ![1, n, k]⟩)
    (hc : (⟨3, ![1, n, k]⟩ : Shape).ShapeCasts ⟨2, ![n, k]⟩) (a : Fin n) (b : Fin k) :
    shapeCast ⟨2, ![n, k]⟩ (extractStridedSlice ⟨3, ![1, n, k]⟩ ![o, 0, 0] X hs) hc (ix2 a b)
      = X (ix3 ⟨o, ho⟩ a b) := by
  rw [shapeCast_apply _ hc (ix2 a b) (ix3 (0 : Fin 1) a b)
    (by rw [Shape.rowMajor_val_three, Shape.rowMajor_val_two]; show (0 * n + a.val) * k + b.val = a.val * k + b.val; simp)]
  exact extractStridedSlice_apply _ X hs (ix3 (0 : Fin 1) a b) (ix3 ⟨o, ho⟩ a b)
    (fun d => by match d with | ⟨0, _⟩ => rfl | ⟨1, _⟩ => exact (Nat.zero_add _).symm | ⟨2, _⟩ => exact (Nat.zero_add _).symm)

/-- An array of extended reals as a plain function of its index. -/
abbrev rd (S : Shape) (x : S.Idx → EReal) : S.Idx → EReal := x

variable (m : (ℓ : Loc nD τ sig) → Buf (Elt Ideal) ℓ) (ρ : Dev nD → PrngReg)

/-! ## Before the first region -/

/-- The matrix q the first region finds is the query array viewed 65536 x 256. -/
theorem V1_v0 (c : Dev nD) : (V1 m ρ c main_v0 : S65536x256.Idx → EReal)
    = shapeCast S65536x256 (m ((c : Thread nD τ).loc main_arg0)) shapeCasts_S8x8192x256_S65536x256 := by
  show StableHlo.after hostOps0 (W0 m ρ c) (Proc.devRef .tc main_v0) = _
  after_results <;> rfl

/-- The memory array the first region finds is the launched one. -/
theorem V1_arg1 (c : Dev nD) : V1 m ρ c main_arg1 = m ((c : Thread nD τ).loc main_arg1) := by
  show StableHlo.after hostOps0 (W0 m ρ c) (Proc.devRef .tc main_arg1) = _
  after_results <;> rfl

/-! ## Across the first region, and between the first two regions -/

/-- The first region leaves the memory array as it found it. -/
theorem V2_arg1 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (V1_arg1 m ρ c)

/-- The first region leaves the matrix q as it found it. -/
theorem V2_v0 (c : Dev nD) : V2 m ρ c main_v0 = V1 m ρ c main_v0 :=
  (W2_arr m ρ c 1).trans (((dat0 (V1 m ρ) c).arrAt_in 1 rfl _).trans (A_eq0 (V1 m ρ) c 1))

/-- The second region finds the memory array as launched. -/
theorem V3_arg1 (c : Dev nD) : V3 m ρ c main_arg1 = m ((c : Thread nD τ).loc main_arg1) := by
  show StableHlo.after hostOps1 (W2 m ρ c) (Proc.devRef .tc main_arg1) = _
  after_results
  exact V2_arg1 m ρ c

/-- The second region finds the matrix q the first found. -/
theorem V3_v0 (c : Dev nD) : V3 m ρ c main_v0 = V1 m ρ c main_v0 := by
  show StableHlo.after hostOps1 (W2 m ρ c) (Proc.devRef .tc main_v0) = _
  after_results
  exact V2_v0 m ρ c

/-- The merged maximum of memory row a: the larger of the two cores' running maxima. -/
theorem V3_v10_apply (c : Dev nD) (a : Fin 256) :
    rd S256x1 (V3 m ρ c main_v10) (ix2 a 0)
      = max (rd S2x256x1 (V2 m ρ c main_v1_0) (ix3 0 a 0)) (rd S2x256x1 (V2 m ρ c main_v1_0) (ix3 1 a 0)) := by
  have e : rd S256x1 (V3 m ρ c main_v10)
      = maximumf (F := Ideal) (φ := .f32) (shapeCast S256x1 (extractStridedSlice S1x256x1 ![0, 0, 0] (rd S2x256x1 (W2 m ρ c (Proc.devRef .tc main_v1_0))) slices_S2x256x1_S1x256x1_0_0_0) shapeCasts_S1x256x1_S256x1)
          (shapeCast S256x1 (extractStridedSlice S1x256x1 ![1, 0, 0] (rd S2x256x1 (W2 m ρ c (Proc.devRef .tc main_v1_0))) slices_S2x256x1_S1x256x1_1_0_0) shapeCasts_S1x256x1_S256x1) := by
    show StableHlo.after hostOps1 (W2 m ρ c) (Proc.devRef .tc main_v10) = _
    after_results <;> rfl
  rw [e]
  show max _ _ = _
  rw [slice_row_apply 0 (by norm_num), slice_row_apply 1 (by norm_num)]
  rfl

/-- The merged sum of memory row a: each core's running sum rescaled from its own maximum to the merged one, added. -/
theorem V3_v17_apply (c : Dev nD) (a : Fin 256) :
    rd S256x1 (V3 m ρ c main_v17) (ix2 a 0)
      = rd S2x256x1 (V2 m ρ c main_v1_1) (ix3 0 a 0)
          * Ideal.exp (rd S2x256x1 (V2 m ρ c main_v1_0) (ix3 0 a 0)
              - max (rd S2x256x1 (V2 m ρ c main_v1_0) (ix3 0 a 0)) (rd S2x256x1 (V2 m ρ c main_v1_0) (ix3 1 a 0)))
        + rd S2x256x1 (V2 m ρ c main_v1_1) (ix3 1 a 0)
          * Ideal.exp (rd S2x256x1 (V2 m ρ c main_v1_0) (ix3 1 a 0)
              - max (rd S2x256x1 (V2 m ρ c main_v1_0) (ix3 0 a 0)) (rd S2x256x1 (V2 m ρ c main_v1_0) (ix3 1 a 0))) := by
  have e : rd S256x1 (V3 m ρ c main_v17)
      = addf (F := Ideal) (φ := .f32)
          (mulf (F := Ideal) (φ := .f32) (shapeCast S256x1 (extractStridedSlice S1x256x1 ![0, 0, 0] (rd S2x256x1 (W2 m ρ c (Proc.devRef .tc main_v1_1))) slices_S2x256x1_S1x256x1_0_0_0) shapeCasts_S1x256x1_S256x1)
            (Host.exp (F := Ideal) (φ := .f32) (subf (F := Ideal) (φ := .f32) (shapeCast S256x1 (extractStridedSlice S1x256x1 ![0, 0, 0] (rd S2x256x1 (W2 m ρ c (Proc.devRef .tc main_v1_0))) slices_S2x256x1_S1x256x1_0_0_0) shapeCasts_S1x256x1_S256x1) (maximumf (F := Ideal) (φ := .f32) (shapeCast S256x1 (extractStridedSlice S1x256x1 ![0, 0, 0] (rd S2x256x1 (W2 m ρ c (Proc.devRef .tc main_v1_0))) slices_S2x256x1_S1x256x1_0_0_0) shapeCasts_S1x256x1_S256x1) (shapeCast S256x1 (extractStridedSlice S1x256x1 ![1, 0, 0] (rd S2x256x1 (W2 m ρ c (Proc.devRef .tc main_v1_0))) slices_S2x256x1_S1x256x1_1_0_0) shapeCasts_S1x256x1_S256x1)))))
          (mulf (F := Ideal) (φ := .f32) (shapeCast S256x1 (extractStridedSlice S1x256x1 ![1, 0, 0] (rd S2x256x1 (W2 m ρ c (Proc.devRef .tc main_v1_1))) slices_S2x256x1_S1x256x1_1_0_0) shapeCasts_S1x256x1_S256x1)
            (Host.exp (F := Ideal) (φ := .f32) (subf (F := Ideal) (φ := .f32) (shapeCast S256x1 (extractStridedSlice S1x256x1 ![1, 0, 0] (rd S2x256x1 (W2 m ρ c (Proc.devRef .tc main_v1_0))) slices_S2x256x1_S1x256x1_1_0_0) shapeCasts_S1x256x1_S256x1) (maximumf (F := Ideal) (φ := .f32) (shapeCast S256x1 (extractStridedSlice S1x256x1 ![0, 0, 0] (rd S2x256x1 (W2 m ρ c (Proc.devRef .tc main_v1_0))) slices_S2x256x1_S1x256x1_0_0_0) shapeCasts_S1x256x1_S256x1) (shapeCast S256x1 (extractStridedSlice S1x256x1 ![1, 0, 0] (rd S2x256x1 (W2 m ρ c (Proc.devRef .tc main_v1_0))) slices_S2x256x1_S1x256x1_1_0_0) shapeCasts_S1x256x1_S256x1))))) := by
    show StableHlo.after hostOps1 (W2 m ρ c) (Proc.devRef .tc main_v17) = _
    after_results <;> rfl
  rw [e]
  show _ * Ideal.exp (_ - max _ _) + _ * Ideal.exp (_ - max _ _) = _
  simp only [slice_row_apply 0 (by norm_num : 0 < 2), slice_row_apply 1 (by norm_num : 1 < 2)]
  rfl

end Cert.KernelIdeal.HostValue

end
-- ==== Proof.HostB.lean ====
/-
  The host operations between the second and third regions and after the third, named as functions.
  * addMemOf acc l1: the two cores' accumulators (array acc [2, 256, 256]) added, divided row by row by the two cores'
    norm sums (array l1 [2, 256, 1]) added and clamped below by ε.
  * newMemOf am mem U_w U_b W_w W_b: gate = 1 / (1 + exp(−(mem · U_wᵀ + U_b + am · W_wᵀ + W_b))) and the new memory
    (1 − gate) · mem + gate · am, as the chain of operations that computes it.
  * After the third region its two outputs are viewed [8, 8192, ·].
-/
import proofs.«171355_j541165879332_2_alg».proof.Proof.HostA

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.ValueIdx Idealize.ShloMosaic.StableHlo

/-- Row o of a [2, n, k] array as an [n, k] array. -/
abbrev rowOf0 (X : S2x256x256.Idx → EReal) : S256x256.Idx → EReal :=
  shapeCast S256x256 (extractStridedSlice S1x256x256 ![0, 0, 0] X slices_S2x256x256_S1x256x256_0_0_0) shapeCasts_S1x256x256_S256x256
abbrev rowOf1 (X : S2x256x256.Idx → EReal) : S256x256.Idx → EReal :=
  shapeCast S256x256 (extractStridedSlice S1x256x256 ![1, 0, 0] X slices_S2x256x256_S1x256x256_1_0_0) shapeCasts_S1x256x256_S256x256
abbrev colOf0 (X : S2x256x1.Idx → EReal) : S256x1.Idx → EReal :=
  shapeCast S256x1 (extractStridedSlice S1x256x1 ![0, 0, 0] X slices_S2x256x1_S1x256x1_0_0_0) shapeCasts_S1x256x1_S256x1
abbrev colOf1 (X : S2x256x1.Idx → EReal) : S256x1.Idx → EReal :=
  shapeCast S256x1 (extractStridedSlice S1x256x1 ![1, 0, 0] X slices_S2x256x1_S1x256x1_1_0_0) shapeCasts_S1x256x1_S256x1

/-- The memory's addition from the two cores' accumulators and norm sums. -/
def addMemOf (acc : S2x256x256.Idx → EReal) (l1 : S2x256x1.Idx → EReal) : S256x256.Idx → EReal :=
  Host.divf (F := Ideal) (φ := .f32) (addf (F := Ideal) (φ := .f32) (rowOf0 acc) (rowOf1 acc))
    (broadcastInDim S256x256 ![0, 1] bcast_S256x1_S256x256_0_1
      (maximumf (F := Ideal) (φ := .f32) (addf (F := Ideal) (φ := .f32) (colOf0 l1) (colOf1 l1))
        (broadcastInDim S256x1 ![] bcast_S_S256x1 (constant (F := Ideal) S_ .f32 0x2B8CBCCC#32))))

/-- The linear part of the gate. -/
def gateLin (am mem uw : S256x256.Idx → EReal) (ub : S256.Idx → EReal) (ww : S256x256.Idx → EReal) (wb : S256.Idx → EReal) :
    S256x256.Idx → EReal :=
  addf (F := Ideal) (φ := .f32)
    (addf (F := Ideal) (φ := .f32)
      (addf (F := Ideal) (φ := .f32)
        (Host.dotGeneral (F := Ideal) (φ₁ := .f32) (φ₂ := .f32) dot_S256x256_S256x256_S256x256_1_0_0_1_n_n (some .fp32) mem
          (transpose S256x256 [1, 0] uw transposes_S256x256_S256x256_1_0))
        (broadcastInDim S256x256 ![0, 1] bcast_S1x256_S256x256_0_1 (broadcastInDim S1x256 ![1] bcast_S256_S1x256_1 ub)))
      (Host.dotGeneral (F := Ideal) (φ₁ := .f32) (φ₂ := .f32) dot_S256x256_S256x256_S256x256_1_0_0_1_n_n (some .fp32) am
        (transpose S256x256 [1, 0] ww transposes_S256x256_S256x256_1_0)))
    (broadcastInDim S256x256 ![0, 1] bcast_S1x256_S256x256_0_1 (broadcastInDim S1x256 ![1] bcast_S256_S1x256_1 wb))

/-- The array of ones. -/
abbrev ones : S256x256.Idx → EReal := broadcastInDim S256x256 ![] bcast_S_S256x256 (constant (F := Ideal) S_ .f32 0x3F800000#32)

/-- The gate: 1 / (1 + exp(−lin)). -/
def gateOf (lin : S256x256.Idx → EReal) : S256x256.Idx → EReal :=
  Host.divf (F := Ideal) (φ := .f32) ones
    (addf (F := Ideal) (φ := .f32) ones (Host.exp (F := Ideal) (φ := .f32) (Host.negf (F := Ideal) (φ := .f32) lin)))

/-- The new memory: (1 − gate) · mem + gate · am. -/
def newMemOf (am mem uw : S256x256.Idx → EReal) (ub : S256.Idx → EReal) (ww : S256x256.Idx → EReal) (wb : S256.Idx → EReal) :
    S256x256.Idx → EReal :=
  addf (F := Ideal) (φ := .f32)
    (mulf (F := Ideal) (φ := .f32) (subf (F := Ideal) (φ := .f32) ones (gateOf (gateLin am mem uw ub ww wb))) mem)
    (mulf (F := Ideal) (φ := .f32) (gateOf (gateLin am mem uw ub ww wb)) am)

variable (m : (ℓ : Loc nD τ sig) → Buf (Elt Ideal) ℓ) (ρ : Dev nD → PrngReg)

set_option maxHeartbeats 8000000 in
/-- What the third region finds as the new memory: the chain applied to the second region's outputs and the launched
    arguments (the stretch's operands, as the second region leaves them). -/
theorem V5_v54 (c : Dev nD) :
    rd S256x256 (V5 m ρ c main_v54)
      = newMemOf (addMemOf (rd S2x256x256 (W4 m ρ c (Proc.devRef .tc main_v18_0))) (rd S2x256x1 (W4 m ρ c (Proc.devRef .tc main_v18_1))))
          (rd S256x256 (W4 m ρ c (Proc.devRef .tc main_arg1))) (rd S256x256 (W4 m ρ c (Proc.devRef .tc main_arg2)))
          (rd S256 (W4 m ρ c (Proc.devRef .tc main_arg3))) (rd S256x256 (W4 m ρ c (Proc.devRef .tc main_arg4)))
          (rd S256 (W4 m ρ c (Proc.devRef .tc main_arg5))) := by
  show StableHlo.after hostOps2 (W4 m ρ c) (Proc.devRef .tc main_v54) = _
  after_results_simp <;> rfl

end Cert.KernelIdeal.HostValue

end
-- ==== Proof.HostC.lean ====
/-
  The host operations between the second and third regions read at an index, and the buffers the later stretches and
  regions leave as they found them.
  * addMemOf at (a, j): the two cores' accumulators added, over the two cores' norm sums added and clamped below by ε.
  * The second region leaves the memory array and the four gate arguments as launched, and the matrix q as the first
    region found it; the third region leaves the new memory as it found it; after it the two outputs are viewed
    [8, 8192, ·].
-/
import proofs.«171355_j541165879332_2_alg».proof.Proof.HostB

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.ValueIdx Idealize.ShloMosaic.StableHlo

/-- The memory's addition at row a, feature j. -/
theorem addMemOf_apply (acc : S2x256x256.Idx → EReal) (l1 : S2x256x1.Idx → EReal) (a j : Fin 256) :
    addMemOf acc l1 (ix2 a j)
      = Ideal.div (acc (ix3 0 a j) + acc (ix3 1 a j)) (max (l1 (ix3 0 a 0) + l1 (ix3 1 a 0)) MemSpec.eps) := by
  unfold addMemOf
  show Ideal.div (rowOf0 acc (ix2 a j) + rowOf1 acc (ix2 a j))
    (broadcastInDim S256x256 ![0, 1] bcast_S256x1_S256x256_0_1
      (maximumf (F := Ideal) (φ := .f32) (addf (F := Ideal) (φ := .f32) (colOf0 l1) (colOf1 l1))
        (broadcastInDim S256x1 ![] bcast_S_S256x1 (constant (F := Ideal) S_ .f32 0x2B8CBCCC#32))) (ix2 a j)) = _
  rw [broadcastInDim_apply ![0, 1] bcast_S256x1_S256x256_0_1 _ (ix2 a j) (ix2 a (0 : Fin 1)) (fun ax => by
    match ax with
    | ⟨0, _⟩ => show a.val = if (256 : ℕ) = 1 then 0 else a.val; rw [if_neg (by decide)]
    | ⟨1, _⟩ => rfl)]
  show Ideal.div (rowOf0 acc (ix2 a j) + rowOf1 acc (ix2 a j))
    (max (colOf0 l1 (ix2 a (0 : Fin 1)) + colOf1 l1 (ix2 a (0 : Fin 1)))
      (broadcastInDim S256x1 ![] bcast_S_S256x1 (constant (F := Ideal) S_ .f32 0x2B8CBCCC#32) (ix2 a (0 : Fin 1)))) = _
  rw [broadcastInDim_apply ![] bcast_S_S256x1 _ (ix2 a (0 : Fin 1)) ix0 (fun ax => ax.elim0)]
  exact congrArg₂ Ideal.div
    (congrArg₂ (· + ·) (slice_row_apply 0 (by norm_num) acc _ _ a j) (slice_row_apply 1 (by norm_num) acc _ _ a j))
    (congrArg₂ max
      (congrArg₂ (· + ·) (slice_row_apply 0 (by norm_num) l1 _ _ a (0 : Fin 1)) (slice_row_apply 1 (by norm_num) l1 _ _ a (0 : Fin 1)))
      rfl)

variable (m : (ℓ : Loc nD τ sig) → Buf (Elt Ideal) ℓ) (ρ : Dev nD → PrngReg)

/-! ## Across the second region -/

/-- The second region leaves the memory array as launched (it reads it through an input window). -/
theorem W4_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (V3_arg1 m ρ c)

/-! The gate's four arguments are no window's array and no stretch writes them. -/

theorem W4_arg2 (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results <;> rfl

theorem W4_arg3 (c : Dev nD) : W4 m ρ c (Proc.devRef .tc main_arg3) = m ((c : Thread nD τ).loc main_arg3) := by
  rw [W4_of_ne m ρ c main_arg3 (by decide)]
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results <;> rfl

theorem W4_arg4 (c : Dev nD) : W4 m ρ c (Proc.devRef .tc main_arg4) = m ((c : Thread nD τ).loc main_arg4) := by
  rw [W4_of_ne m ρ c main_arg4 (by decide)]
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results <;> rfl

theorem W4_arg5 (c : Dev nD) : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results <;> rfl

/-- The third region finds the matrix q the first found. -/
theorem V5_v0 (c : Dev nD) : V5 m ρ c main_v0 = V1 m ρ c main_v0 := by
  show StableHlo.after hostOps2 (W4 m ρ c) (Proc.devRef .tc main_v0) = _
  after_results
  exact ((W4_arr m ρ c 1).trans (((dat1 (V3 m ρ) c).arrAt_in 1 rfl _).trans (A_eq1 (V3 m ρ) c 1))).trans (V3_v0 m ρ c)

/-! ## Across the third region, and after it -/

/-- The new memory ends as the third region found it. -/
theorem W7_v54 (c : Dev nD) : W7 m ρ c (Proc.devRef .tc main_v54) = V5 m ρ c main_v54 := by
  show StableHlo.after hostOps3 (W6 m ρ c) (Proc.devRef .tc main_v54) = _
  after_results
  exact (W6_arr m ρ c 1).trans (((dat2 (V5 m ρ) c).arrAt_in 1 rfl _).trans (A_eq2 (V5 m ρ) c 1))

/-- The first result: the third region's first output viewed [8, 8192, 512]. -/
theorem W7_v56 (c : Dev nD) :
    rd S8x8192x512 (W7 m ρ c (Proc.devRef .tc main_v56))
      = shapeCast S8x8192x512 (rd S65536x512 ((dat2 (F := Ideal) (V5 m ρ) c).arrAt 2 cfg2.N)) shapeCasts_S65536x512_S8x8192x512 := by
  have e : rd S8x8192x512 (W7 m ρ c (Proc.devRef .tc main_v56))
      = shapeCast S8x8192x512 (rd S65536x512 (W6 m ρ c (Proc.devRef .tc main_v55_0))) shapeCasts_S65536x512_S8x8192x512 := by
    show StableHlo.after hostOps3 (W6 m ρ c) (Proc.devRef .tc main_v56) = _
    after_results <;> rfl
  rw [e, ← W6_arr m ρ c 2]

/-- The second result: the third region's second output viewed [8, 8192, 256]. -/
theorem W7_v57 (c : Dev nD) :
    rd S8x8192x256 (W7 m ρ c (Proc.devRef .tc main_v57))
      = shapeCast S8x8192x256 (rd S65536x256 ((dat2 (F := Ideal) (V5 m ρ) c).arrAt 3 cfg2.N)) shapeCasts_S65536x256_S8x8192x256 := by
  have e : rd S8x8192x256 (W7 m ρ c (Proc.devRef .tc main_v57))
      = shapeCast S8x8192x256 (rd S65536x256 (W6 m ρ c (Proc.devRef .tc main_v55_1))) shapeCasts_S65536x256_S8x8192x256 := by
    show StableHlo.after hostOps3 (W6 m ρ c) (Proc.devRef .tc main_v57) = _
    after_results <;> rfl
  rw [e, ← W6_arr m ρ c 3]

end Cert.KernelIdeal.HostValue

end
-- ==== Proof.StatsPieces.lean ====
import proofs.«171355_j541165879332_2_alg».proof.Proof.Gen.KernelIdeal.Frame
import proofs.«171355_j541165879332_2_alg».proof.Proof.Spec
import Idealize.ShloMosaic.Lib.Pipeline.Value
import Idealize.ShloMosaic.Lib.Tactic

noncomputable section

namespace Cert.KernelIdeal.StatsValue

open Cert.KernelIdeal Cert.KernelIdeal.Gen Idealize.ShloMosaic Idealize.ShloMosaic.TcCoe Idealize.SL.Sem Idealize.ShloMosaic.ValueIdx Cert
open Idealize.ShloMosaic.Pipeline (Dat)

/-! # What each case of the running-statistics body leaves in its two output blocks

  One step of the body reads the memory block `x0`, the query tile `x1` and the two running columns, and stores the new
  running maximum (payload 6) and the new rescaled running sum (payload 7).  At a core's first tile it first stores the
  neutral columns (payload 2: every entry the f32 word of -inf; payload 3: every entry zero) and reads those back. -/

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A continuing tile: the maximum's block is the step's maximum over the carried column. -/
theorem out_B_2 (c : Dev nD) (i : grid0.Coords) (a2 : Memref sig .tc .vmem S256x256 .f32) (h2 : a2.IsWhole)
    (a3 : Memref sig .tc .vmem S4096x256 .f32) (h3 : a3.IsWhole) (a4 : Memref sig .tc .vmem S1x256x1 .f32) (h4 : a4.IsWhole)
    (a5 : Memref sig .tc .vmem S1x256x1 .f32) (h5 : a5.IsWhole) (hc : ¬cond0_0 i)
    (x0 : Vec F S256x256 .f32) (x1 : Vec F S4096x256 .f32) (xo2 xo3 : Vec F S1x256x1 .f32) :
    out0_B_2 c i a2 h2 a3 h3 a4 h4 a5 h5 hc x0 x1 xo2 xo3 = k0_pay6 x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h3.read_unread, h4.read_unread, View.ld_unit_zero (S := S256x256) hz2,
    View.ld_unit_zero (S := S4096x256) hz2, View.ld_unit_zero (S := S1x256x1) hz3]

/-- A continuing tile: the sum's block is the step's rescaled sum over the two carried columns. -/
theorem out_B_3 (c : Dev nD) (i : grid0.Coords) (a2 : Memref sig .tc .vmem S256x256 .f32) (h2 : a2.IsWhole)
    (a3 : Memref sig .tc .vmem S4096x256 .f32) (h3 : a3.IsWhole) (a4 : Memref sig .tc .vmem S1x256x1 .f32) (h4 : a4.IsWhole)
    (a5 : Memref sig .tc .vmem S1x256x1 .f32) (h5 : a5.IsWhole) (hc : ¬cond0_0 i)
    (x0 : Vec F S256x256 .f32) (x1 : Vec F S4096x256 .f32) (xo2 xo3 : Vec F S1x256x1 .f32) :
    out0_B_3 c i a2 h2 a3 h3 a4 h4 a5 h5 hc x0 x1 xo2 xo3 = k0_pay7 x0 x1 xo2 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz3]
  simp only [View.readAt_eq_ld, h2.read_unread, h3.read_unread, h4.read_unread, h5.read_unread, View.ld_unit_zero (S := S256x256) hz2,
    View.ld_unit_zero (S := S4096x256) hz2, View.ld_unit_zero (S := S1x256x1) hz3]

/-- A core's first tile: the same step over the neutral maximum column, whatever the block held. -/
theorem out_A_2 (c : Dev nD) (i : grid0.Coords) (a2 : Memref sig .tc .vmem S256x256 .f32) (h2 : a2.IsWhole)
    (a3 : Memref sig .tc .vmem S4096x256 .f32) (h3 : a3.IsWhole) (a4 : Memref sig .tc .vmem S1x256x1 .f32) (h4 : a4.IsWhole)
    (a5 : Memref sig .tc .vmem S1x256x1 .f32) (h5 : a5.IsWhole) (hc : cond0_0 i)
    (x0 : Vec F S256x256 .f32) (x1 : Vec F S4096x256 .f32) :
    out0_A_2 c i a2 h2 a3 h3 a4 h4 a5 h5 hc x0 x1 = k0_pay6 x0 x1 k0_pay2 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x256x1) hz3, View.readCov_unit_zero (S := S1x256x1) _ hz3]
  simp only [View.readAt_eq_ld, h2.read_unread, h3.read_unread, View.ld_unit_zero (S := S256x256) hz2,
    View.ld_unit_zero (S := S4096x256) hz2]

/-- A core's first tile: the same step over the neutral maximum and sum columns. -/
theorem out_A_3 (c : Dev nD) (i : grid0.Coords) (a2 : Memref sig .tc .vmem S256x256 .f32) (h2 : a2.IsWhole)
    (a3 : Memref sig .tc .vmem S4096x256 .f32) (h3 : a3.IsWhole) (a4 : Memref sig .tc .vmem S1x256x1 .f32) (h4 : a4.IsWhole)
    (a5 : Memref sig .tc .vmem S1x256x1 .f32) (h5 : a5.IsWhole) (hc : cond0_0 i)
    (x0 : Vec F S256x256 .f32) (x1 : Vec F S4096x256 .f32) :
    out0_A_3 c i a2 h2 a3 h3 a4 h4 a5 h5 hc x0 x1 = k0_pay7 x0 x1 k0_pay2 k0_pay3 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x256x1) hz3, View.readCov_unit_zero (S := S1x256x1) _ hz3,
    View.readCov_unit_zero (S := S1x256x1) _ hz3]
  simp only [View.readAt_eq_ld, h2.read_unread, h3.read_unread, View.ld_unit_zero (S := S256x256) hz2,
    View.ld_unit_zero (S := S4096x256) hz2]

end Cert.KernelIdeal.StatsValue
end
-- ==== Proof.StatsOps.lean ====
import proofs.«171355_j541165879332_2_alg».proof.Proof.Gen.KernelIdeal.Skeleton
import proofs.«171355_j541165879332_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.StatsValue

open Cert.KernelIdeal Cert.KernelIdeal.Gen Idealize.ShloMosaic Idealize.ShloMosaic.TcCoe Idealize.SL.Sem Idealize.ShloMosaic.ValueIdx Cert

/-! # One step of the running statistics, read at a memory row

  Over the extended reals the body's step is: the tile's scores `s p = ∑ k, mem a k · q p k` (the product contracts the
  feature axis of both blocks), the new maximum `max m (sup_p s p)` and the new sum
  `l · exp (m − m') + ∑ p, exp (s p − m')`. -/

/-- The f32 word of -inf denotes the bottom of the extended reals. -/
theorem ofBits_ninf : Ideal.ofBits .f32 0xFF800000#32 = ⊥ := by simp [Ideal.ofBits, Ideal.ieee]

/-- A fold of `max` from the bottom over every index is the supremum. -/
theorem fold_max_bot {ι : Type} [Fintype ι] (f g : ι → EReal) (b : EReal) (hb : b = ⊥) (hfg : ∀ i, f i = g i) :
    Finset.univ.fold max b f = Finset.univ.sup g := by
  subst hb
  rw [show f = g from funext hfg]
  rfl

/-! ## The layout operations of the step at an index -/

/-- A lane reduction's inserted index at row `a`, lane `p`. -/
theorem lift_eq (a : Fin 256) (p : Fin 4096) : reduces_S256x4096_S256.lift (ix1 a) p = ix2 a p :=
  funext fun b => Fin.ext (by
    match b with
    | ⟨0, _⟩ => rfl
    | ⟨1, _⟩ => rfl)

/-- A [256] vector cast to a [256,1] column reads, at `(a, z)`, the vector at `a`. -/
theorem cast_vec_col (v : S256.Idx → EReal) (a : Fin 256) (z : Fin 1) :
    shapeCast S256x1 v shapeCasts_S256_S256x1 (ix2 a z) = v (ix1 a) :=
  shapeCast_apply v shapeCasts_S256_S256x1 _ _ (by
    have hz : z.val = 0 := by omega
    rw [Shape.rowMajor_val_one, Shape.rowMajor_val_two]
    show a.val = a.val * 1 + z.val
    rw [hz, Nat.mul_one, Nat.add_zero])

/-- A [256,1] column broadcast along the lanes reads, at `(a, p)`, the column at `a`. -/
theorem bcast_col (v : S256x1.Idx → EReal) (a : Fin 256) (p : Fin 4096) :
    broadcastTo S256x4096 v broadcasts_S256x1_S256x4096 (ix2 a p) = v (ix2 a (0 : Fin 1)) := by
  refine broadcastTo_apply v broadcasts_S256x1_S256x4096 (ix2 a p) (ix2 a (0 : Fin 1)) fun ax => ?_
  match ax with
  | ⟨0, _⟩ =>
    show a.val = if (256 : ℕ) = 1 then 0 else a.val
    rw [if_neg (by decide)]
  | ⟨1, _⟩ => rfl

/-- The lane maximum from -inf at row `a` is the supremum over the lanes. -/
theorem lane_max (src : FVec Ideal S256x4096 .f32) (a : Fin 256) :
    multiReduction (F := Ideal) .maximumf [1] S256 src 0xFF800000#32 reduces_S256x4096_S256 (.inl rfl) rfl (ix1 a)
      = Finset.univ.sup fun p : Fin 4096 => src (ix2 a p) := by
  refine (Ideal.multiReduction_maximumf_single (φ := .f32) src 0xFF800000#32 reduces_S256x4096_S256 (.inl rfl) rfl (ix1 a)).trans ?_
  exact fold_max_bot _ _ _ ofBits_ninf (fun p => congrArg src (lift_eq a p))

/-- The lane sum at row `a`. -/
theorem lane_sum (src : FVec Ideal S256x4096 .f32) (a : Fin 256) :
    multiReduction (F := Ideal) .add [1] S256 src 0x00000000#32 reduces_S256x4096_S256 (.inl rfl) rfl (ix1 a)
      = ∑ p : Fin 4096, src (ix2 a p) := by
  refine (Ideal.multiReduction_add_single (φ := .f32) src 0x00000000#32 reduces_S256x4096_S256 (.inl rfl) rfl (ix1 a)).trans ?_
  exact Finset.sum_congr rfl fun p _ => congrArg src (lift_eq a p)

/-! ## The block product at an index -/

theorem lhs_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide),
    dif_pos (show (0 : Fin S256x256.rank) ∈ dot_S256x256_S4096x256_S256x4096_1_1_0_0_n_n.lhsNonContracting by decide)]
  rfl
theorem lhs_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
theorem rhs_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide),
    dif_pos (show (0 : Fin S4096x256.rank) ∈ dot_S256x256_S4096x256_S256x4096_1_1_0_0_n_n.rhsNonContracting by decide)]
  rfl
theorem rhs_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q

/-- The scores of a tile: memory row `a` against the tile's row `p`, over the 256 features. -/
def tsc (x0 : S256x256.Idx → EReal) (x1 : S4096x256.Idx → EReal) (a : Fin 256) (p : Fin 4096) : EReal :=
  ∑ k : Fin 256, x0 (ix2 a k) * x1 (ix2 p k)

/-- The block product read at `(a, p)` is that score (the roundings to bf16 are the identity on the extended reals). -/
theorem pay1_apply (x0 : S256x256.Idx → EReal) (x1 : S4096x256.Idx → EReal) (a : Fin 256) (p : Fin 4096) :
    k0_pay1 (F := Ideal) x0 x1 (ix2 a p) = tsc x0 x1 a p := by
  unfold k0_pay1 tsc
  refine (Ideal.matmul_constant_zero_apply (φ₁ := .bf16) (φ₂ := .bf16) dot_S256x256_S4096x256_S256x4096_1_1_0_0_n_n none _ _ (ix2 a p)).trans ?_
  rw [← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 a p)
      ((contrEquiv1 dot_S256x256_S4096x256_S256x4096_1_1_0_0_n_n 256 rfl rfl).symm k) = ix2 a k := funext fun b => Fin.ext (by
    match b with
    | ⟨0, _⟩ => exact lhs_0 _ _
    | ⟨1, _⟩ => exact (lhs_1 _ _).trans hk)
  have er : dot_S256x256_S4096x256_S256x4096_1_1_0_0_n_n.rhsIdx (ix2 a p)
      ((contrEquiv1 dot_S256x256_S4096x256_S256x4096_1_1_0_0_n_n 256 rfl rfl).symm k) = ix2 p k := funext fun b => Fin.ext (by
    match b with
    | ⟨0, _⟩ => exact rhs_0 _ _
    | ⟨1, _⟩ => exact (rhs_1 _ _).trans hk)
  rw [el, er, shapeCast_self]
  rfl

/-! ## The payloads at a memory row -/

/-- The neutral maximum column is -inf everywhere. -/
theorem pay2_apply (u : Fin 1) (a : Fin 256) (z : Fin 1) : k0_pay2 (F := Ideal) (ix3 u a z) = ⊥ := by
  unfold k0_pay2
  refine (shapeCast_ab_1ab_apply _ shapeCasts_S256x1_S1x256x1 u a z).trans ?_
  exact ofBits_ninf

/-- The neutral sum column is zero everywhere. -/
theorem pay3_apply (u : Fin 1) (a : Fin 256) (z : Fin 1) : k0_pay3 (F := Ideal) (ix3 u a z) = 0 := by
  unfold k0_pay3
  refine (shapeCast_ab_1ab_apply _ shapeCasts_S256x1_S1x256x1 u a z).trans ?_
  exact Ideal.ofBits_zero_f32

/-- The step's maximum at row `a`: the carried maximum against the supremum of the tile's scores. -/
theorem pay5_apply (x0 : S256x256.Idx → EReal) (x1 : S4096x256.Idx → EReal) (v11 : S1x256x1.Idx → EReal) (a : Fin 256) (z : Fin 1) :
    k0_pay5 (F := Ideal) x0 x1 v11 (ix2 a z)
      = max (v11 (ix3 (0 : Fin 1) a z)) (Finset.univ.sup fun p : Fin 4096 => tsc x0 x1 a p) := by
  unfold k0_pay5 k0_pay4
  refine congrArg₂ max (shapeCast_1ab_ab_apply v11 shapeCasts_S1x256x1_S256x1 a z) ?_
  refine (cast_vec_col _ a z).trans ((lane_max _ a).trans ?_)
  exact congrArg (Finset.univ.sup) (funext fun p => pay1_apply x0 x1 a p)

/-- The stored maximum block at row `a`. -/
theorem pay6_apply (x0 : S256x256.Idx → EReal) (x1 : S4096x256.Idx → EReal) (v11 : S1x256x1.Idx → EReal) (a : Fin 256) :
    k0_pay6 (F := Ideal) x0 x1 v11 (ix3 (0 : Fin 1) a (0 : Fin 1))
      = (MemSpec.mlStep (v11 (ix3 (0 : Fin 1) a (0 : Fin 1)), (0 : EReal)) (tsc x0 x1 a)).1 := by
  unfold k0_pay6
  refine (shapeCast_ab_1ab_apply _ shapeCasts_S256x1_S1x256x1 (0 : Fin 1) a (0 : Fin 1)).trans ?_
  exact pay5_apply x0 x1 v11 a 0

/-- The stored sum block at row `a`: the carried sum rescaled to the new maximum plus the tile's exponentials. -/
theorem pay7_apply (x0 : S256x256.Idx → EReal) (x1 : S4096x256.Idx → EReal) (v11 v13 : S1x256x1.Idx → EReal) (a : Fin 256) :
    k0_pay7 (F := Ideal) x0 x1 v11 v13 (ix3 (0 : Fin 1) a (0 : Fin 1))
      = (MemSpec.mlStep (v11 (ix3 (0 : Fin 1) a (0 : Fin 1)), v13 (ix3 (0 : Fin 1) a (0 : Fin 1))) (tsc x0 x1 a)).2 := by
  unfold k0_pay7 k0_pay4
  refine (shapeCast_ab_1ab_apply _ shapeCasts_S256x1_S1x256x1 (0 : Fin 1) a (0 : Fin 1)).trans ?_
  have hM := pay5_apply x0 x1 v11 a 0
  have h11 := shapeCast_1ab_ab_apply v11 shapeCasts_S1x256x1_S256x1 a (0 : Fin 1)
  have h13 := shapeCast_1ab_ab_apply v13 shapeCasts_S1x256x1_S256x1 a (0 : Fin 1)
  refine congrArg₂ (· + ·) (congrArg₂ (· * ·) h13 (congrArg Ideal.exp (congrArg₂ (· - ·) h11 hM))) ?_
  refine (cast_vec_col _ a 0).trans ((lane_sum _ a).trans ?_)
  refine Finset.sum_congr rfl fun p _ => congrArg Ideal.exp (congrArg₂ (· - ·) (pay1_apply x0 x1 a p) ?_)
  exact (bcast_col _ a p).trans hM

end Cert.KernelIdeal.StatsValue
end
-- ==== Proof.StatsInv.lean ====
import proofs.«171355_j541165879332_2_alg».proof.Proof.Gen.KernelIdeal.Frame
import proofs.«171355_j541165879332_2_alg».proof.Proof.Spec
import proofs.«171355_j541165879332_2_alg».proof.Proof.StatsPieces
import proofs.«171355_j541165879332_2_alg».proof.Proof.StatsOps
import Idealize.ShloMosaic.Lib.Pipeline.Value
import Idealize.ShloMosaic.Lib.Tactic

set_option maxRecDepth 16384

noncomputable section

open scoped BigOperators

namespace Cert.KernelIdeal.StatsValue

open Cert.KernelIdeal Cert.KernelIdeal.Gen Idealize.ShloMosaic Idealize.ShloMosaic.TcCoe Idealize.SL.Sem Idealize.ShloMosaic.ValueIdx Cert
open Idealize.ShloMosaic.Pipeline (Dat)

/-! # The running statistics after every tile

  After tile `n` the two carried blocks hold, at memory row `a`, the running maximum and the running rescaled sum of
  the specification (`MemSpec.mlAt`), the tiles 0 and 8 starting afresh: by induction on the tile. -/

variable (V : (c : Dev nD) → (b : Ref sig .tc) → Buf (Elt Ideal) ((c : Thread nD τ).loc b))

/-- The input windows' block indices over the grid: the memory block never moves, the query tile is the point's. -/
theorem idx_in : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- The memory block at any point is the memory. -/
theorem iblk_mem (c : Dev nD) (t : Fin cfg0.N) (a k : Fin 256) :
    (iblk0 V c 0 t : S256x256.Idx → EReal) (ix2 a k) = MemSpec.mat (V c main_arg1) a k := by
  obtain ⟨e0, e1, -, -⟩ := idx_in t
  unfold iblk0
  rw [View.read_apply]
  show V c main_arg1 _ = V c main_arg1 (ix2 a k)
  refine congrArg (V c main_arg1) (funext fun b => Fin.ext ?_)
  match b with
  | ⟨0, _⟩ => show win0_0.index t (0 : Fin 2) * 256 + 1 * a.val = a.val; rw [e0]; omega
  | ⟨1, _⟩ => show win0_0.index t (1 : Fin 2) * 256 + 1 * k.val = k.val; rw [e1]; omega

/-- The query block at point `t` is tile `t` of the queries. -/
theorem iblk_q (c : Dev nD) (t : Fin cfg0.N) (p : Fin 4096) (k : Fin 256) :
    (iblk0 V c 1 t : S4096x256.Idx → EReal) (ix2 p k) = MemSpec.mat (V c main_v0) (MemSpec.prow t.val p) k := by
  obtain ⟨-, -, e0, e1⟩ := idx_in t
  have hN : t.val < 16 := lt_of_lt_of_eq t.isLt (show cfg0.N = 16 from N_0)
  unfold iblk0
  rw [View.read_apply]
  show V c main_v0 _ = V c main_v0 (ix2 (MemSpec.prow t.val p) k)
  refine congrArg (V c main_v0) (funext fun b => Fin.ext ?_)
  match b with
  | ⟨0, _⟩ =>
    show win0_1.index t (0 : Fin 2) * 4096 + 1 * p.val = (t.val * 4096 + p.val) % 65536
    rw [e0]; omega
  | ⟨1, _⟩ => show win0_1.index t (1 : Fin 2) * 256 + 1 * k.val = k.val; rw [e1]; omega

/-- So the tile's scores at point `t` are the specification's scores of tile `t`. -/
theorem tsc_iblk (c : Dev nD) (t : Fin cfg0.N) (a : Fin 256) (p : Fin 4096) :
    tsc (iblk0 V c 0 t) (iblk0 V c 1 t) a p
      = MemSpec.score (MemSpec.mat (V c main_arg1)) (MemSpec.mat (V c main_v0)) a (MemSpec.prow t.val p) := by
  unfold tsc MemSpec.score
  exact Finset.sum_congr rfl fun k _ => congrArg₂ (· * ·) (iblk_mem V c t a k) (iblk_q V c t p k)

/-- The two stored blocks at row `a` are one step of the specification over the carried pair. -/
theorem step_pair (x0 : S256x256.Idx → EReal) (x1 : S4096x256.Idx → EReal) (v11 v13 : S1x256x1.Idx → EReal) (a : Fin 256) :
    (k0_pay6 (F := Ideal) x0 x1 v11 (ix3 (0 : Fin 1) a (0 : Fin 1)), k0_pay7 (F := Ideal) x0 x1 v11 v13 (ix3 (0 : Fin 1) a (0 : Fin 1)))
      = MemSpec.mlStep (v11 (ix3 (0 : Fin 1) a (0 : Fin 1)), v13 (ix3 (0 : Fin 1) a (0 : Fin 1))) (tsc x0 x1 a) :=
  Prod.ext (pay6_apply x0 x1 v11 a) (pay7_apply x0 x1 v11 v13 a)

theorem mlStep_congr {m m' l l' : EReal} {s s' : Fin 4096 → EReal} (hm : m = m') (hl : l = l') (hs : ∀ p, s p = s' p) :
    MemSpec.mlStep (m, l) s = MemSpec.mlStep (m', l') s' := by
  subst hm hl
  rw [show s = s' from funext hs]

/-- A core's first tile: one step from the neutral pair. -/
theorem step_A (c : Dev nD) (t : Fin cfg0.N) (h0 : t.val % 8 = 0) (a : Fin 256) :
    ((outsAt0 V c t.val t.isLt).1 (ix3 (0 : Fin 1) a (0 : Fin 1)), (outsAt0 V c t.val t.isLt).2 (ix3 (0 : Fin 1) a (0 : Fin 1)))
      = MemSpec.mlStep (⊥, 0) (fun p => MemSpec.score (MemSpec.mat (V c main_arg1)) (MemSpec.mat (V c main_v0)) a (MemSpec.prow t.val p)) := by
  rw [outsAt0_A V c t h0]
  dsimp only
  rw [out_A_2 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t),
    out_A_3 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)]
  refine (step_pair (iblk0 V c 0 t) (iblk0 V c 1 t) (k0_pay2 (F := Ideal)) (k0_pay3 (F := Ideal)) a).trans ?_
  exact mlStep_congr (pay2_apply 0 a 0) (pay3_apply 0 a 0) (fun p => tsc_iblk V c t a p)

/-- A continuing tile: one step from what the tile before left. -/
theorem step_B (c : Dev nD) (t : Fin cfg0.N) (h0 : ¬t.val % 8 = 0) (a : Fin 256) :
    ((outsAt0 V c t.val t.isLt).1 (ix3 (0 : Fin 1) a (0 : Fin 1)), (outsAt0 V c t.val t.isLt).2 (ix3 (0 : Fin 1) a (0 : Fin 1)))
      = MemSpec.mlStep
          ((outsAt0 V c (t.val - 1) (Nat.lt_of_le_of_lt (Nat.sub_le _ _) t.isLt)).1 (ix3 (0 : Fin 1) a (0 : Fin 1)),
           (outsAt0 V c (t.val - 1) (Nat.lt_of_le_of_lt (Nat.sub_le _ _) t.isLt)).2 (ix3 (0 : Fin 1) a (0 : Fin 1)))
          (fun p => MemSpec.score (MemSpec.mat (V c main_arg1)) (MemSpec.mat (V c main_v0)) a (MemSpec.prow t.val p)) := by
  rw [outsAt0_B V c t h0]
  dsimp only
  rw [out_B_2 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
      (outsAt0 V c (t.val - 1) (Nat.lt_of_le_of_lt (Nat.sub_le _ _) t.isLt)).1 (outsAt0 V c (t.val - 1) (Nat.lt_of_le_of_lt (Nat.sub_le _ _) t.isLt)).2,
    out_B_3 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
      (outsAt0 V c (t.val - 1) (Nat.lt_of_le_of_lt (Nat.sub_le _ _) t.isLt)).1 (outsAt0 V c (t.val - 1) (Nat.lt_of_le_of_lt (Nat.sub_le _ _) t.isLt)).2]
  refine (step_pair (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2 a).trans ?_
  exact mlStep_congr rfl rfl (fun p => tsc_iblk V c t a p)

theorem mlAt_reset (mem : Fin 256 → Fin 256 → EReal) (q : Fin 65536 → Fin 256 → EReal) (a : Fin 256) (n : ℕ) (h : n % 8 = 0) :
    MemSpec.mlAt mem q a n = MemSpec.mlStep (⊥, 0) (fun p => MemSpec.score mem q a (MemSpec.prow n p)) := by
  cases n with
  | zero => rfl
  | succ n => rw [MemSpec.mlAt, if_pos h]

theorem mlAt_cont (mem : Fin 256 → Fin 256 → EReal) (q : Fin 65536 → Fin 256 → EReal) (a : Fin 256) (n : ℕ) (h : ¬(n + 1) % 8 = 0) :
    MemSpec.mlAt mem q a (n + 1)
      = MemSpec.mlStep (MemSpec.mlAt mem q a n) (fun p => MemSpec.score mem q a (MemSpec.prow (n + 1) p)) := by
  rw [MemSpec.mlAt, if_neg h]

/-- THE INVARIANT: after tile `n` the carried blocks hold the specification's running pair at every memory row. -/
theorem outs_eq (c : Dev nD) (a : Fin 256) : ∀ (n : ℕ) (h : n < cfg0.N),
    ((outsAt0 V c n h).1 (ix3 (0 : Fin 1) a (0 : Fin 1)), (outsAt0 V c n h).2 (ix3 (0 : Fin 1) a (0 : Fin 1)))
      = MemSpec.mlAt (MemSpec.mat (V c main_arg1)) (MemSpec.mat (V c main_v0)) a n
  | 0, h => (step_A V c ⟨0, h⟩ rfl a).trans (mlAt_reset _ _ a 0 rfl).symm
  | n + 1, h => by
    by_cases h0 : (n + 1) % 8 = 0
    · exact (step_A V c ⟨n + 1, h⟩ h0 a).trans (mlAt_reset _ _ a (n + 1) h0).symm
    · refine (step_B V c ⟨n + 1, h⟩ h0 a).trans ?_
      rw [mlAt_cont _ _ a n h0]
      exact congrArg (fun ml => MemSpec.mlStep ml _) (outs_eq c a n (Nat.lt_of_succ_lt h))

end Cert.KernelIdeal.StatsValue
end
-- ==== Proof.Stats.lean ====
import proofs.«171355_j541165879332_2_alg».proof.Proof.Gen.KernelIdeal.Frame
import proofs.«171355_j541165879332_2_alg».proof.Proof.Spec
import proofs.«171355_j541165879332_2_alg».proof.Proof.StatsInv
import Idealize.ShloMosaic.Lib.Pipeline.Value
import Idealize.ShloMosaic.Lib.Tactic

noncomputable section

open scoped BigOperators

namespace Cert.KernelIdeal.StatsValue

open Cert.KernelIdeal Cert.KernelIdeal.Gen Idealize.ShloMosaic Idealize.ShloMosaic.TcCoe Idealize.SL.Sem Idealize.ShloMosaic.ValueIdx Cert
open Idealize.ShloMosaic.Pipeline (Dat)

/-! # The two statistics arrays after the region

  Each core writes its pair of blocks back once, after its eighth tile; block `cc` of either array then holds the
  running pair after tile `8·cc + 7`, and the two blocks cover the array. -/

variable (V : (c : Dev nD) → (b : Ref sig .tc) → Buf (Elt Ideal) ((c : Thread nD τ).loc b))

/-- The running pair after tile `n` at row number `r` (zero pair outside the rows: never read). -/
def mlN (c : Dev nD) (r n : ℕ) : EReal × EReal :=
  if h : r < 256 then MemSpec.mlAt (MemSpec.mat (V c main_arg1)) (MemSpec.mat (V c main_v0)) ⟨r, h⟩ n else (0, 0)

/-- What the array of maxima ends holding: at (core, row, 0) the running maximum after the core's last tile. -/
def Gm (c : Dev nD) : S2x256x1.Idx → EReal := fun i => (mlN V c (i 1).val (8 * (i 0).val + 7)).1
/-- What the array of sums ends holding: at (core, row, 0) the running sum after the core's last tile. -/
def Gl (c : Dev nD) : S2x256x1.Idx → EReal := fun i => (mlN V c (i 1).val (8 * (i 0).val + 7)).2

/-- The output windows' block indices over the grid: the point's core, and nothing else. -/
theorem idx_out : ∀ t : Fin cfg0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0 :=
  (by decide +kernel : ∀ t : Fin grid0.N, _)

/-- What a writing-back point writes to the maxima is its block of `Gm`. -/
theorem flushed_m (c : Dev nD) (t : Fin cfg0.N) (hf : (cfg0.win 2).flush t = true) :
    (dat0 V c).flushed 2 t = ((cfg0.win 2).blk t).view.read (Elt Ideal) (Gm V c) := by
  have hN : t.val < 16 := lt_of_lt_of_eq t.isLt (show cfg0.N = 16 from N_0)
  have h7 : t.val % 8 = 7 := (flush0_2 t).mp hf
  obtain ⟨e0, e1, -, -, -, -⟩ := idx_out t
  show (cfg0.win 2).cut (grid0.coords t) ((dat0 V c).after 2 t) = _
  rw [after0_2]
  funext j
  obtain ⟨u, a, z, rfl⟩ : ∃ (u : Fin 1) (a : Fin 256) (z : Fin 1), j = ix3 u a z := ⟨j 0, j 1, j 2, eq_ix3 j⟩
  obtain rfl : u = 0 := Subsingleton.elim _ _
  obtain rfl : z = 0 := Subsingleton.elim _ _
  refine (congrArg Prod.fst (outs_eq V c a t.val t.isLt)).trans ?_
  show _ = (mlN V c ((((cfg0.win 2).blk t).view.emb (ix3 (0 : Fin 1) a (0 : Fin 1))) 1).val
    (8 * ((((cfg0.win 2).blk t).view.emb (ix3 (0 : Fin 1) a (0 : Fin 1))) 0).val + 7)).1
  have c0 : ((((cfg0.win 2).blk t).view.emb (ix3 (0 : Fin 1) a (0 : Fin 1))) 0).val = t.val / 8 := by
    show win0_2.index t (0 : Fin 3) * 1 + 1 * 0 = t.val / 8
    rw [e0]; omega
  have c1 : ((((cfg0.win 2).blk t).view.emb (ix3 (0 : Fin 1) a (0 : Fin 1))) 1).val = a.val := by
    show win0_2.index t (1 : Fin 3) * 256 + 1 * a.val = a.val
    rw [e1]; omega
  rw [c0, c1, show 8 * (t.val / 8) + 7 = t.val from by omega]
  unfold mlN
  rw [dif_pos a.isLt]

/-- What a writing-back point writes to the sums is its block of `Gl`. -/
theorem flushed_l (c : Dev nD) (t : Fin cfg0.N) (hf : (cfg0.win 3).flush t = true) :
    (dat0 V c).flushed 3 t = ((cfg0.win 3).blk t).view.read (Elt Ideal) (Gl V c) := by
  have hN : t.val < 16 := lt_of_lt_of_eq t.isLt (show cfg0.N = 16 from N_0)
  have h7 : t.val % 8 = 7 := (flush0_3 t).mp hf
  obtain ⟨-, -, -, e0, e1, -⟩ := idx_out t
  show (cfg0.win 3).cut (grid0.coords t) ((dat0 V c).after 3 t) = _
  rw [after0_3]
  funext j
  obtain ⟨u, a, z, rfl⟩ : ∃ (u : Fin 1) (a : Fin 256) (z : Fin 1), j = ix3 u a z := ⟨j 0, j 1, j 2, eq_ix3 j⟩
  obtain rfl : u = 0 := Subsingleton.elim _ _
  obtain rfl : z = 0 := Subsingleton.elim _ _
  refine (congrArg Prod.snd (outs_eq V c a t.val t.isLt)).trans ?_
  show _ = (mlN V c ((((cfg0.win 3).blk t).view.emb (ix3 (0 : Fin 1) a (0 : Fin 1))) 1).val
    (8 * ((((cfg0.win 3).blk t).view.emb (ix3 (0 : Fin 1) a (0 : Fin 1))) 0).val + 7)).2
  have c0 : ((((cfg0.win 3).blk t).view.emb (ix3 (0 : Fin 1) a (0 : Fin 1))) 0).val = t.val / 8 := by
    show win0_3.index t (0 : Fin 3) * 1 + 1 * 0 = t.val / 8
    rw [e0]; omega
  have c1 : ((((cfg0.win 3).blk t).view.emb (ix3 (0 : Fin 1) a (0 : Fin 1))) 1).val = a.val := by
    show win0_3.index t (1 : Fin 3) * 256 + 1 * a.val = a.val
    rw [e1]; omega
  rw [c0, c1, show 8 * (t.val / 8) + 7 = t.val from by omega]
  unfold mlN
  rw [dif_pos a.isLt]

/-- An index of the maxima is in point `t`'s block iff each coordinate is in the block's range on its axis. -/
theorem mem_blk_m (t : Fin cfg0.N) (i : S2x256x1.Idx) :
    i ∈ ((cfg0.win 2).blk t).view.set ↔ ∀ a : Fin 3, win0_2.index t a * S1x256x1.size a ≤ (i a).val
      ∧ (i a).val < win0_2.index t a * S1x256x1.size a + S1x256x1.size a := by
  show i ∈ ((View.whole main_v1_0).slice (win0_2.rect t)).set ↔ _
  rw [View.set_slice_whole, Rect.mem_set_unit]
  exact Iff.rfl

/-- The same for the sums. -/
theorem mem_blk_l (t : Fin cfg0.N) (i : S2x256x1.Idx) :
    i ∈ ((cfg0.win 3).blk t).view.set ↔ ∀ a : Fin 3, win0_3.index t a * S1x256x1.size a ≤ (i a).val
      ∧ (i a).val < win0_3.index t a * S1x256x1.size a + S1x256x1.size a := by
  show i ∈ ((View.whole main_v1_1).slice (win0_3.rect t)).set ↔ _
  rw [View.set_slice_whole, Rect.mem_set_unit]
  exact Iff.rfl

/-- Core `cc`'s last point. -/
def lastPt (i : S2x256x1.Idx) : Fin cfg0.N :=
  ⟨8 * (i 0).val + 7, by
    have h0 : (i 0).val < 2 := (i 0).isLt
    rw [show cfg0.N = 16 from N_0]; omega⟩

/-- The maxima end at `Gm`: the two cores' last points write back blocks that cover the array. -/
theorem final_m (c : Dev nD) : (dat0 V c).arrAt 2 cfg0.N = Gm V c :=
  (dat0 V c).arrAt_eq_of_cover 2 (Gm V c) (flushed_m V c) fun i => by
    have h0 : (i 0).val < 2 := (i 0).isLt
    have h1 : (i 1).val < 256 := (i 1).isLt
    have h2 : (i 2).val < 1 := (i 2).isLt
    have hv : (lastPt i).val = 8 * (i 0).val + 7 := rfl
    obtain ⟨e0, e1, e2, -, -, -⟩ := idx_out (lastPt i)
    refine ⟨lastPt i, (flush0_2 (lastPt i)).mpr (by rw [hv]; omega), ?_⟩
    rw [mem_blk_m]
    intro a
    match a with
    | ⟨0, _⟩ =>
      show win0_2.index (lastPt i) (0 : Fin 3) * 1 ≤ (i 0).val ∧ (i 0).val < win0_2.index (lastPt i) (0 : Fin 3) * 1 + 1
      rw [e0, hv]; omega
    | ⟨1, _⟩ =>
      show win0_2.index (lastPt i) (1 : Fin 3) * 256 ≤ (i 1).val ∧ (i 1).val < win0_2.index (lastPt i) (1 : Fin 3) * 256 + 256
      rw [e1]; omega
    | ⟨2, _⟩ =>
      show win0_2.index (lastPt i) (2 : Fin 3) * 1 ≤ (i 2).val ∧ (i 2).val < win0_2.index (lastPt i) (2 : Fin 3) * 1 + 1
      rw [e2]; omega

/-- The sums end at `Gl`. -/
theorem final_l (c : Dev nD) : (dat0 V c).arrAt 3 cfg0.N = Gl V c :=
  (dat0 V c).arrAt_eq_of_cover 3 (Gl V c) (flushed_l V c) fun i => by
    have h0 : (i 0).val < 2 := (i 0).isLt
    have h1 : (i 1).val < 256 := (i 1).isLt
    have h2 : (i 2).val < 1 := (i 2).isLt
    have hv : (lastPt i).val = 8 * (i 0).val + 7 := rfl
    obtain ⟨-, -, -, e0, e1, e2⟩ := idx_out (lastPt i)
    refine ⟨lastPt i, (flush0_3 (lastPt i)).mpr (by rw [hv]; omega), ?_⟩
    rw [mem_blk_l]
    intro a
    match a with
    | ⟨0, _⟩ =>
      show win0_3.index (lastPt i) (0 : Fin 3) * 1 ≤ (i 0).val ∧ (i 0).val < win0_3.index (lastPt i) (0 : Fin 3) * 1 + 1
      rw [e0, hv]; omega
    | ⟨1, _⟩ =>
      show win0_3.index (lastPt i) (1 : Fin 3) * 256 ≤ (i 1).val ∧ (i 1).val < win0_3.index (lastPt i) (1 : Fin 3) * 256 + 256
      rw [e1]; omega
    | ⟨2, _⟩ =>
      show win0_3.index (lastPt i) (2 : Fin 3) * 1 ≤ (i 2).val ∧ (i 2).val < win0_3.index (lastPt i) (2 : Fin 3) * 1 + 1
      rw [e2]; omega

/-- THE MAXIMA: at (core, row) the running maximum of the specification after the core's last tile. -/
theorem stats_m_apply (c : Dev nD) (cc : Fin 2) (a : Fin 256) :
    (dat0 (F := Ideal) V c).arrAt 2 cfg0.N (ix3 cc a (0 : Fin 1))
      = (MemSpec.mlAt (MemSpec.mat (V c main_arg1)) (MemSpec.mat (V c main_v0)) a (8 * cc.val + 7)).1 := by
  rw [final_m V c]
  show (mlN V c a.val (8 * cc.val + 7)).1 = _
  unfold mlN
  rw [dif_pos a.isLt]

/-- THE SUMS: at (core, row) the running rescaled sum of the specification after the core's last tile. -/
theorem stats_l_apply (c : Dev nD) (cc : Fin 2) (a : Fin 256) :
    (dat0 (F := Ideal) V c).arrAt 3 cfg0.N (ix3 cc a (0 : Fin 1))
      = (MemSpec.mlAt (MemSpec.mat (V c main_arg1)) (MemSpec.mat (V c main_v0)) a (8 * cc.val + 7)).2 := by
  rw [final_l V c]
  show (mlN V c a.val (8 * cc.val + 7)).2 = _
  unfold mlN
  rw [dif_pos a.isLt]

end Cert.KernelIdeal.StatsValue
end
-- ==== Proof.UpdateA.lean ====
/-
  The merged maximum and the merged sum the second region is given are the specification's: the first region leaves, for
  core cc and memory row a, the running (maximum, sum) after that core's last tile (tile 8·cc + 7), and the host
  operations between the regions merge the two cores' pairs exactly as mMerged and lMerged do.
-/
import proofs.«171355_j541165879332_2_alg».proof.Proof.HostA
import proofs.«171355_j541165879332_2_alg».proof.Proof.Stats

set_option maxRecDepth 16384

noncomputable section

namespace Cert.KernelIdeal.UpdateValue

open Cert.KernelIdeal Cert.KernelIdeal.Gen Idealize.ShloMosaic Idealize.ShloMosaic.TcCoe Idealize.SL.Sem
open Idealize.ShloMosaic.ValueIdx Cert Cert.KernelIdeal.HostValue

variable (m : (ℓ : Loc nD τ sig) → Buf (Elt Ideal) ℓ) (ρ : Dev nD → PrngReg)

/-- The memory matrix, by coordinates. -/
abbrev Mk (c : Dev nD) : Fin 256 → Fin 256 → EReal := MemSpec.mat (rd S256x256 (m ((c : Thread nD τ).loc main_arg1)))
/-- The query matrix the regions find, by coordinates. -/
abbrev Qk (c : Dev nD) : Fin 65536 → Fin 256 → EReal := MemSpec.mat (rd S65536x256 (V1 m ρ c main_v0))

/-- Core cc's running maximum of memory row a, as the first region leaves it. -/
theorem v1_0_apply (c : Dev nD) (cc : Fin 2) (a : Fin 256) :
    rd S2x256x1 (V2 m ρ c main_v1_0) (ix3 cc a 0) = (MemSpec.mlAt (Mk m c) (Qk m ρ c) a (8 * cc.val + 7)).1 := by
  have h := StatsValue.stats_m_apply (V1 m ρ) c cc a
  rw [V1_arg1 m ρ c] at h
  exact (congrFun (hF0 m ρ c 2) (ix3 cc a 0)).symm.trans h

/-- Core cc's running sum of memory row a, as the first region leaves it. -/
theorem v1_1_apply (c : Dev nD) (cc : Fin 2) (a : Fin 256) :
    rd S2x256x1 (V2 m ρ c main_v1_1) (ix3 cc a 0) = (MemSpec.mlAt (Mk m c) (Qk m ρ c) a (8 * cc.val + 7)).2 := by
  have h := StatsValue.stats_l_apply (V1 m ρ) c cc a
  rw [V1_arg1 m ρ c] at h
  exact (congrFun (hF0 m ρ c 3) (ix3 cc a 0)).symm.trans h

/-- The merged maxima the second region is given. -/
theorem merged_m (c : Dev nD) : MemSpec.col (rd S256x1 (V3 m ρ c main_v10)) = MemSpec.mMerged (Mk m c) (Qk m ρ c) := by
  funext a
  show rd S256x1 (V3 m ρ c main_v10) (ix2 a 0) = _
  rw [V3_v10_apply, v1_0_apply, v1_0_apply]
  rfl

/-- The merged sums the second region is given. -/
theorem merged_l (c : Dev nD) : MemSpec.col (rd S256x1 (V3 m ρ c main_v17)) = MemSpec.lMerged (Mk m c) (Qk m ρ c) := by
  funext a
  show rd S256x1 (V3 m ρ c main_v17) (ix2 a 0) = _
  rw [V3_v17_apply, v1_0_apply, v1_0_apply, v1_1_apply, v1_1_apply]
  rfl

end Cert.KernelIdeal.UpdateValue

end
-- ==== Proof.AccumBlocks.lean ====
/-
  The accumulation pass: what its four input windows hold at grid point t (t = 8 · core + step, 16 points).

  The memory [256,256], the merged maximum [256,1] and the merged normaliser [256,1] are each one block, the whole
  array, at every point. The queries [65536,256] are walked in 16 tiles of 4096 rows: the block at point t, read at
  (p, k), is row 4096 · t + p of the array, feature k. The two outputs' blocks sit at block row t / 8 (the core).
-/
import proofs.«171355_j541165879332_2_alg».proof.Proof.Gen.KernelIdeal.Frame
import proofs.«171355_j541165879332_2_alg».proof.Proof.Spec
import Idealize.ShloMosaic.Lib.Pipeline.Value

noncomputable section

open Idealize.ShloMosaic Idealize.ShloMosaic.TcCoe Idealize.SL.Sem
open Idealize.ShloMosaic.Pipeline (Dat)
open scoped BigOperators

namespace Cert.KernelIdeal.AccumValue

open Cert.KernelIdeal Cert.KernelIdeal.Gen Idealize.ShloMosaic.ValueIdx Cert

variable {F : FTy → Type} [FloatOps F]
variable (V : (c : Dev nD) → (b : Ref sig .tc) → Buf (Elt F) ((c : Thread nD τ).loc b))

/-! ## Which block of its array each window holds at a grid point -/

theorem idx_mem : ∀ t : Fin cfg1.N, win1_0.index t 0 = 0 ∧ win1_0.index t 1 = 0 :=
  (by decide +kernel : ∀ t : Fin grid1.N, win1_0.index t 0 = 0 ∧ win1_0.index t 1 = 0)
theorem idx_q : ∀ t : Fin cfg1.N, win1_1.index t 0 = t.val ∧ win1_1.index t 1 = 0 :=
  (by decide +kernel : ∀ t : Fin grid1.N, win1_1.index t 0 = t.val ∧ win1_1.index t 1 = 0)
theorem idx_m : ∀ t : Fin cfg1.N, win1_2.index t 0 = 0 ∧ win1_2.index t 1 = 0 :=
  (by decide +kernel : ∀ t : Fin grid1.N, win1_2.index t 0 = 0 ∧ win1_2.index t 1 = 0)
theorem idx_l : ∀ t : Fin cfg1.N, win1_3.index t 0 = 0 ∧ win1_3.index t 1 = 0 :=
  (by decide +kernel : ∀ t : Fin grid1.N, win1_3.index t 0 = 0 ∧ win1_3.index t 1 = 0)
theorem idx_acc : ∀ t : Fin cfg1.N, win1_4.index t 0 = t.val / 8 ∧ win1_4.index t 1 = 0 ∧ win1_4.index t 2 = 0 :=
  (by decide +kernel : ∀ t : Fin grid1.N, win1_4.index t 0 = t.val / 8 ∧ win1_4.index t 1 = 0 ∧ win1_4.index t 2 = 0)
theorem idx_l1 : ∀ t : Fin cfg1.N, win1_5.index t 0 = t.val / 8 ∧ win1_5.index t 1 = 0 ∧ win1_5.index t 2 = 0 :=
  (by decide +kernel : ∀ t : Fin grid1.N, win1_5.index t 0 = t.val / 8 ∧ win1_5.index t 1 = 0 ∧ win1_5.index t 2 = 0)

/-! ## The input blocks read by coordinates -/

/-- The memory's window is the whole [256,256] array at every point. -/
theorem iblk_mem_apply (c : Dev nD) (t : Fin cfg1.N) (a k : Fin 256) :
    (iblk1 V c 0 t : Vec F S256x256 .f32) (ix2 a k) = (V c main_arg1 : S256x256.Idx → Elt F .f32) (ix2 a k) := by
  unfold iblk1
  rw [View.read_apply]
  show V c main_arg1 _ = V c main_arg1 _
  refine congrArg (V c main_arg1) (funext fun b => Fin.ext ?_)
  match b with
  | ⟨0, _⟩ => show win1_0.index t 0 * 256 + 1 * a.val = a.val; rw [(idx_mem t).1]; omega
  | ⟨1, _⟩ => show win1_0.index t 1 * 256 + 1 * k.val = k.val; rw [(idx_mem t).2]; omega

/-- The queries' window at point t is rows 4096·t … 4096·t + 4095 of the [65536,256] array. -/
theorem iblk_q_apply (c : Dev nD) (t : Fin cfg1.N) (p : Fin 4096) (k : Fin 256) :
    (iblk1 V c 1 t : Vec F S4096x256 .f32) (ix2 p k) = (V c main_v0 : S65536x256.Idx → Elt F .f32) (ix2 (MemSpec.prow t.val p) k) := by
  have hN : t.val < 16 := lt_of_lt_of_eq t.isLt (show cfg1.N = 16 from N_1)
  unfold iblk1
  rw [View.read_apply]
  show V c main_v0 _ = V c main_v0 _
  refine congrArg (V c main_v0) (funext fun b => Fin.ext ?_)
  match b with
  | ⟨0, _⟩ =>
    show win1_1.index t 0 * 4096 + 1 * p.val = (t.val * 4096 + p.val) % 65536
    rw [(idx_q t).1]; have := p.isLt; omega
  | ⟨1, _⟩ => show win1_1.index t 1 * 256 + 1 * k.val = k.val; rw [(idx_q t).2]; omega

/-- The merged maximum's window is the whole [256,1] column at every point. -/
theorem iblk_m_apply (c : Dev nD) (t : Fin cfg1.N) (a : Fin 256) :
    (iblk1 V c 2 t : Vec F S256x1 .f32) (ix2 a (0 : Fin 1)) = (V c main_v10 : S256x1.Idx → Elt F .f32) (ix2 a (0 : Fin 1)) := by
  unfold iblk1
  rw [View.read_apply]
  show V c main_v10 _ = V c main_v10 _
  refine congrArg (V c main_v10) (funext fun b => Fin.ext ?_)
  match b with
  | ⟨0, _⟩ => show win1_2.index t 0 * 256 + 1 * a.val = a.val; rw [(idx_m t).1]; omega
  | ⟨1, _⟩ => show win1_2.index t 1 * 1 + 1 * 0 = 0; rw [(idx_m t).2]

/-- The merged normaliser's window is the whole [256,1] column at every point. -/
theorem iblk_l_apply (c : Dev nD) (t : Fin cfg1.N) (a : Fin 256) :
    (iblk1 V c 3 t : Vec F S256x1 .f32) (ix2 a (0 : Fin 1)) = (V c main_v17 : S256x1.Idx → Elt F .f32) (ix2 a (0 : Fin 1)) := by
  unfold iblk1
  rw [View.read_apply]
  show V c main_v17 _ = V c main_v17 _
  refine congrArg (V c main_v17) (funext fun b => Fin.ext ?_)
  match b with
  | ⟨0, _⟩ => show win1_3.index t 0 * 256 + 1 * a.val = a.val; rw [(idx_l t).1]; omega
  | ⟨1, _⟩ => show win1_3.index t 1 * 1 + 1 * 0 = 0; rw [(idx_l t).2]

end Cert.KernelIdeal.AccumValue

end
-- ==== Proof.AccumPieces.lean ====
/-
  The accumulation pass, one tile at a time: what a grid point leaves in the two carried blocks, as the body's
  arithmetic applied to the point's four input blocks and to what the blocks held before.

  The Σ g·q block [1,256,256] and the Σ |g| column [1,256,1] of a core are revisited over its 8 tiles. At the
  core's first tile both are zeroed and then read back, so the step runs from the zero block; at a later tile
  it runs from what the tile before left. In both cases the new Σ |g| column is the old one plus the lane sums
  of |g| over the tile's 4096 query rows, and the new Σ g·q block is the old one plus the product of the
  [256,4096] weights g with the tile's [4096,256] query rows.
-/
import proofs.«171355_j541165879332_2_alg».proof.Proof.Gen.KernelIdeal.Frame
import proofs.«171355_j541165879332_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AccumValue

open Cert.KernelIdeal Cert.KernelIdeal.Gen Idealize.ShloMosaic.ValueIdx Cert

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile of a core: the Σ g·q block is what the buffer held plus this tile's product. -/
theorem out_B_4 (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x256 .f32) (harg6 : arg6.IsWhole) (arg7 : Memref sig .tc .vmem S1x256x1 .f32) (harg7 : arg7.IsWhole) (hc0 : ¬cond1_0 i)
    (x0 : Vec F S256x256 .f32) (x1 : Vec F S4096x256 .f32) (x2 : Vec F S256x1 .f32) (x3 : Vec F S256x1 .f32) (xo4 : Vec F S1x256x256 .f32) (xo5 : Vec F S1x256x1 .f32) :
    out1_B_4 c i arg2 harg2 arg3 harg3 arg4 harg4 arg5 harg5 arg6 harg6 arg7 harg7 hc0 x0 x1 x2 x3 xo4 xo5
      = k1_pay2 (k1_pay5 x1) (k1_pay6 x0 x1 x2 x3) xo4 := by
  unfold out1_B_4
  rw [View.read_writes_eq_canon _ _ _ (cover1_B_4 c i arg2 harg2 arg3 harg3 arg4 harg4 arg5 harg5 arg6 harg6 arg7 harg7 hc0 x0 x1 x2 x3 xo4 xo5)]
  unfold kernelRun1_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x256x256) hz3, View.ld_unit_zero (S := S1x256x1) hz3, View.ld_unit_zero (S := S256x256) hz2, View.ld_unit_zero (S := S4096x256) hz2, View.ld_unit_zero (S := S256x1) hz2]

/-- A later tile of a core: the Σ |g| column is what the buffer held plus this tile's lane sums. -/
theorem out_B_5 (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x256 .f32) (harg6 : arg6.IsWhole) (arg7 : Memref sig .tc .vmem S1x256x1 .f32) (harg7 : arg7.IsWhole) (hc0 : ¬cond1_0 i)
    (x0 : Vec F S256x256 .f32) (x1 : Vec F S4096x256 .f32) (x2 : Vec F S256x1 .f32) (x3 : Vec F S256x1 .f32) (xo4 : Vec F S1x256x256 .f32) (xo5 : Vec F S1x256x1 .f32) :
    out1_B_5 c i arg2 harg2 arg3 harg3 arg4 harg4 arg5 harg5 arg6 harg6 arg7 harg7 hc0 x0 x1 x2 x3 xo4 xo5
      = k1_pay1 (k1_pay7 x0 x1 x2 x3 xo5) := by
  unfold out1_B_5
  rw [View.read_writes_eq_canon _ _ _ (cover1_B_5 c i arg2 harg2 arg3 harg3 arg4 harg4 arg5 harg5 arg6 harg6 arg7 harg7 hc0 x0 x1 x2 x3 xo4 xo5)]
  unfold kernelRun1_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x256x256) hz3, View.ld_unit_zero (S := S1x256x1) hz3, View.ld_unit_zero (S := S256x256) hz2, View.ld_unit_zero (S := S4096x256) hz2, View.ld_unit_zero (S := S256x1) hz2]

/-- A core's first tile: the buffer is zeroed first, so the Σ g·q block is the zero block plus this tile's product. -/
theorem out_A_4 (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x256 .f32) (harg6 : arg6.IsWhole) (arg7 : Memref sig .tc .vmem S1x256x1 .f32) (harg7 : arg7.IsWhole) (hc0 : cond1_0 i)
    (x0 : Vec F S256x256 .f32) (x1 : Vec F S4096x256 .f32) (x2 : Vec F S256x1 .f32) (x3 : Vec F S256x1 .f32) :
    out1_A_4 c i arg2 harg2 arg3 harg3 arg4 harg4 arg5 harg5 arg6 harg6 arg7 harg7 hc0 x0 x1 x2 x3
      = k1_pay2 (k1_pay5 x1) (k1_pay6 x0 x1 x2 x3) (k1_pay3 (F := F)) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg6.read_unread, harg7.read_unread,
    View.ld_unit_zero (S := S1x256x256) hz3, View.ld_unit_zero (S := S1x256x1) hz3, View.ld_unit_zero (S := S256x256) hz2, View.ld_unit_zero (S := S4096x256) hz2, View.ld_unit_zero (S := S256x1) hz2]

/-- A core's first tile: the Σ |g| column is the zero column plus this tile's lane sums. -/
theorem out_A_5 (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x256 .f32) (harg6 : arg6.IsWhole) (arg7 : Memref sig .tc .vmem S1x256x1 .f32) (harg7 : arg7.IsWhole) (hc0 : cond1_0 i)
    (x0 : Vec F S256x256 .f32) (x1 : Vec F S4096x256 .f32) (x2 : Vec F S256x1 .f32) (x3 : Vec F S256x1 .f32) :
    out1_A_5 c i arg2 harg2 arg3 harg3 arg4 harg4 arg5 harg5 arg6 harg6 arg7 harg7 hc0 x0 x1 x2 x3
      = k1_pay1 (k1_pay7 x0 x1 x2 x3 (k1_pay4 (F := F))) := by
  unfold out1_A_5
  rw [View.read_writes_eq_canon _ _ _ (cover1_A_5 c i arg2 harg2 arg3 harg3 arg4 harg4 arg5 harg5 arg6 harg6 arg7 harg7 hc0 x0 x1 x2 x3)]
  unfold kernelRun1_A
  dsimp only
  sl_unfold_words
  rw [View.canon_cons_unit_zero (S := S1x256x1) hz3, View.readCov_unit_zero (S := S1x256x1) _ hz3]
  simp only [View.readAt_eq_ld, harg2.read_unread, harg3.read_unread, harg4.read_unread, harg5.read_unread, harg6.read_unread, harg7.read_unread,
    View.ld_unit_zero (S := S1x256x256) hz3, View.ld_unit_zero (S := S1x256x1) hz3, View.ld_unit_zero (S := S256x256) hz2, View.ld_unit_zero (S := S4096x256) hz2, View.ld_unit_zero (S := S256x1) hz2]

end Cert.KernelIdeal.AccumValue
end
-- ==== Proof.AccumLayout.lean ====
/-
  The accumulation pass: the operations of its body that move or combine entries across indices, each read at one
  index over the extended reals.

  * a [256,1] column broadcast along 4096 lanes reads its row's entry; the casts [256] → [256,1],
    [256,1] ↔ [1,256,1] and [256,256] ↔ [1,256,256] keep the row-major position, so they read the entry with the
    same row and column;
  * the scores' product contracts the feature axis of both operands, entry (a, p) = Σ_k l (a, k) · r (p, k);
  * the product of the weights with the tile's query rows contracts the tile's row axis,
    entry (a, j) = Σ_p l (a, p) · r (p, j);
  * the lane sum of a [256,4096] block, entry a = Σ_p src (a, p).
-/
import proofs.«171355_j541165879332_2_alg».proof.Proof.Gen.KernelIdeal.Frame
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open scoped BigOperators

namespace Cert.KernelIdeal.AccumValue

open Cert.KernelIdeal Cert.KernelIdeal.Gen Idealize.ShloMosaic.ValueIdx Cert

/-! ## Layout operations of the body, read at an index -/

/-- A [256,1] column broadcast along the lanes reads, at (a, p), the column's entry a. -/
theorem bcast_col_apply {α : Type} (v : S256x1.Idx → α) (h : S256x1.Broadcasts S256x4096) (a : Fin 256) (p : Fin 4096) :
    broadcastTo S256x4096 v h (ix2 a p) = v (ix2 a (0 : Fin 1)) :=
  broadcastTo_apply v h (ix2 a p) (ix2 a (0 : Fin 1)) fun b => match b with
    | ⟨0, _⟩ => rfl
    | ⟨1, _⟩ => rfl

/-- A [256] vector viewed as a [256,1] column reads, at (a, 0), the vector's entry a. -/
theorem cast_vec_col_apply {α : Type} (v : S256.Idx → α) (h : S256.ShapeCasts S256x1) (a : Fin 256) (u : Fin 1) :
    shapeCast S256x1 v h (ix2 a u) = v (ix1 a) :=
  shapeCast_apply v h _ _ (by
    have hu : u.val = 0 := by omega
    rw [Shape.rowMajor_val_two, Shape.rowMajor_val_one]
    show a.val = a.val * 1 + u.val
    omega)

/-- A [256,1] column viewed as a [1,256,1] block and back. -/
theorem cast_col_blk_apply {α : Type} (v : S256x1.Idx → α) (h : S256x1.ShapeCasts S1x256x1) (a : Fin 256) :
    shapeCast S1x256x1 v h (ix3 (0 : Fin 1) a (0 : Fin 1)) = v (ix2 a (0 : Fin 1)) :=
  shapeCast_ab_1ab_apply v h 0 a 0
theorem cast_blk_col_apply {α : Type} (v : S1x256x1.Idx → α) (h : S1x256x1.ShapeCasts S256x1) (a : Fin 256) :
    shapeCast S256x1 v h (ix2 a (0 : Fin 1)) = v (ix3 (0 : Fin 1) a (0 : Fin 1)) :=
  shapeCast_1ab_ab_apply v h a 0

/-- A [256,256] matrix viewed as a [1,256,256] block and back. -/
theorem cast_mat_blk_apply {α : Type} (v : S256x256.Idx → α) (h : S256x256.ShapeCasts S1x256x256) (a j : Fin 256) :
    shapeCast S1x256x256 v h (ix3 (0 : Fin 1) a j) = v (ix2 a j) :=
  shapeCast_ab_1ab_apply v h 0 a j
theorem cast_blk_mat_apply {α : Type} (v : S1x256x256.Idx → α) (h : S1x256x256.ShapeCasts S256x256) (a j : Fin 256) :
    shapeCast S256x256 v h (ix2 a j) = v (ix3 (0 : Fin 1) a j) :=
  shapeCast_1ab_ab_apply v h a j

/-! ## The two products and the lane sum -/

/-- Coordinates of the operand indices of the two products on their free axes. -/
theorem scores_l0 (i : S256x4096.Idx) (q : dot_S256x256_S4096x256_S256x4096_1_1_0_0_n_n.contr.Idx) : (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem scores_r0 (i : S256x4096.Idx) (q : dot_S256x256_S4096x256_S256x4096_1_1_0_0_n_n.contr.Idx) : (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem gq_l0 (i : S256x256.Idx) (q : dot_S256x4096_S4096x256_S256x256_1_0_0_1_n_n.contr.Idx) : (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem gq_r1 (i : S256x256.Idx) (q : dot_S256x4096_S4096x256_S256x256_1_0_0_1_n_n.contr.Idx) : (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The scores' product contracts the feature axis of both operands: entry (a, p) is Σ_k l (a, k) · r (p, k). -/
theorem scores_apply (l : FVec Ideal S256x256 .bf16) (r : FVec Ideal S4096x256 .bf16) (a : Fin 256) (p : Fin 4096) :
    matmul dot_S256x256_S4096x256_S256x4096_1_1_0_0_n_n none l r (constant (F := Ideal) S256x4096 .f32 0x00000000#32) (ix2 a p)
      = ∑ k : Fin 256, l (ix2 a k) * r (ix2 p k) := by
  simp only [matmul]
  rw [Ideal.matmul_constant_zero_apply, ← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 a p) ((contrEquiv1 dot_S256x256_S4096x256_S256x4096_1_1_0_0_n_n 256 rfl rfl).symm k) = ix2 a k := funext fun b => Fin.ext (by
    match b with
    | ⟨0, _⟩ => exact scores_l0 _ _
    | ⟨1, _⟩ => exact (dot_S256x256_S4096x256_S256x4096_1_1_0_0_n_n.lhsIdx_val_of_single rfl _ _).trans hk)
  have er : dot_S256x256_S4096x256_S256x4096_1_1_0_0_n_n.rhsIdx (ix2 a p) ((contrEquiv1 dot_S256x256_S4096x256_S256x4096_1_1_0_0_n_n 256 rfl rfl).symm k) = ix2 p k := funext fun b => Fin.ext (by
    match b with
    | ⟨0, _⟩ => exact scores_r0 _ _
    | ⟨1, _⟩ => exact (dot_S256x256_S4096x256_S256x4096_1_1_0_0_n_n.rhsIdx_val_of_single rfl _ _).trans hk)
  rw [el, er]

/-- The weights' product with the query rows contracts the tile's row axis: entry (a, j) is Σ_p l (a, p) · r (p, j). -/
theorem gq_apply (l : FVec Ideal S256x4096 .bf16) (r : FVec Ideal S4096x256 .bf16) (a j : Fin 256) :
    matmul dot_S256x4096_S4096x256_S256x256_1_0_0_1_n_n none l r (constant (F := Ideal) S256x256 .f32 0x00000000#32) (ix2 a j)
      = ∑ p : Fin 4096, l (ix2 a p) * r (ix2 p j) := by
  simp only [matmul]
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 a j) ((contrEquiv1 dot_S256x4096_S4096x256_S256x256_1_0_0_1_n_n 4096 rfl rfl).symm k) = ix2 a k := funext fun b => Fin.ext (by
    match b with
    | ⟨0, _⟩ => exact gq_l0 _ _
    | ⟨1, _⟩ => exact (dot_S256x4096_S4096x256_S256x256_1_0_0_1_n_n.lhsIdx_val_of_single rfl _ _).trans hk)
  have er : dot_S256x4096_S4096x256_S256x256_1_0_0_1_n_n.rhsIdx (ix2 a j) ((contrEquiv1 dot_S256x4096_S4096x256_S256x256_1_0_0_1_n_n 4096 rfl rfl).symm k) = ix2 k j := funext fun b => Fin.ext (by
    match b with
    | ⟨0, _⟩ => exact (dot_S256x4096_S4096x256_S256x256_1_0_0_1_n_n.rhsIdx_val_of_single rfl _ _).trans hk
    | ⟨1, _⟩ => exact gq_r1 _ _)
  rw [el, er]

/-- The lane sum of a [256,4096] block: entry a is Σ_p src (a, p). -/
theorem lanesum_apply (src : FVec Ideal S256x4096 .f32) (h : S256x4096.Reduces [1] S256) (hφ : FKind.Formats .f32)
    (hacc : (0x00000000#32 : BitVec 32) = 0x00000000#32) (a : Fin 256) :
    multiReduction .add [1] S256 src 0x00000000#32 h hφ hacc (ix1 a) = ∑ p : Fin 4096, src (ix2 a p) := by
  refine (Ideal.multiReduction_add_single src 0x00000000#32 h hφ hacc (ix1 a)).trans ?_
  refine Finset.sum_congr rfl fun p _ => congrArg src ?_
  funext b
  match b with
  | ⟨0, _⟩ => rfl
  | ⟨1, _⟩ => rfl

end Cert.KernelIdeal.AccumValue

end
-- ==== Proof.AccumPay.lean ====
/-
  The accumulation pass: the body's arithmetic at one tile, entry by entry, over the extended reals.

  With x0 the memory block, x1 the tile's query rows, x2 the merged maximum and x3 the merged normaliser:
  * the score of memory row a and tile row p is s = Σ_k x0 (a, k) · x1 (p, k); the weight is w = exp(s − x2 a) / x3 a; the
    shrunk weight is g (a, p) = max (w − λ) 0 · w / (|w − λ| + ε), with |x| = max x (−x);
  * the Σ |g| column becomes its old entry plus Σ_p |g (a, p)|;
  * the Σ g·q block becomes its old entry plus Σ_p g (a, p) · x1 (p, j);
  * a core's first tile starts both from zero.
  The narrowing of an operand before a product changes nothing over the extended reals.
-/
import proofs.«171355_j541165879332_2_alg».proof.Proof.Gen.KernelIdeal.Frame
import proofs.«171355_j541165879332_2_alg».proof.Proof.Spec
import Idealize.ShloMosaic.Lib.Pipeline.Value
import Idealize.ShloMosaic.Lib.ValueLayout
import Idealize.ShloMosaic.PureOps.Ideal.Laws
import proofs.«171355_j541165879332_2_alg».proof.Proof.AccumLayout

noncomputable section

open Idealize.ShloMosaic Idealize.ShloMosaic.TcCoe Idealize.SL.Sem
open Idealize.ShloMosaic.Pipeline (Dat)
open scoped BigOperators

namespace Cert.KernelIdeal.AccumValue

open Cert.KernelIdeal Cert.KernelIdeal.Gen Idealize.ShloMosaic.ValueIdx Cert

/-- The exponential and the absolute value of a block, read at an index. -/
theorem exp_apply {s : Shape} {φ : FTy} (v : FVec Ideal s φ) (i : s.Idx) : exp v i = Ideal.exp (v i) := rfl
theorem absf_apply {s : Shape} {φ : FTy} (v : FVec Ideal s φ) (i : s.Idx) : absf v i = max (v i) (-(v i)) := rfl

/-! ## The body's arithmetic, entry by entry, over the extended reals -/

/-- The narrowed copy of the query tile reads the tile: a format change is the identity on extended reals. -/
theorem pay5_apply (x1 : Vec Ideal S4096x256 .f32) (j : S4096x256.Idx) : k1_pay5 (F := Ideal) x1 j = x1 j := by
  unfold k1_pay5
  show shapeCast S4096x256 x1 shapeCasts_S4096x256_S4096x256 j = x1 j
  rw [shapeCast_self]

/-- The shrunk weight of memory row a for the tile's query row p. -/
theorem pay6_apply (x0 : Vec Ideal S256x256 .f32) (x1 : Vec Ideal S4096x256 .f32) (x2 x3 : Vec Ideal S256x1 .f32)
    (a : Fin 256) (p : Fin 4096) :
    k1_pay6 (F := Ideal) x0 x1 x2 x3 (ix2 a p)
      = MemSpec.shrink (Ideal.div (Ideal.exp ((∑ k : Fin 256, x0 (ix2 a k) * x1 (ix2 p k)) - x2 (ix2 a (0 : Fin 1))))
          (x3 (ix2 a (0 : Fin 1)))) := by
  have hs : matmul dot_S256x256_S4096x256_S256x4096_1_1_0_0_n_n none (truncf .bf16 x0 bitsLt_bf16_f32 : FVec Ideal S256x256 .bf16) (k1_pay5 (F := Ideal) x1)
        (constant (F := Ideal) S256x4096 .f32 0x00000000#32) (ix2 a p) = ∑ k : Fin 256, x0 (ix2 a k) * x1 (ix2 p k) :=
    (scores_apply _ _ a p).trans (Finset.sum_congr rfl fun k _ => by rw [pay5_apply]; rfl)
  have h2 : broadcastTo S256x4096 (shapeCast S256x1 x2 shapeCasts_S256x1_S256x1) broadcasts_S256x1_S256x4096 (ix2 a p)
      = x2 (ix2 a (0 : Fin 1)) :=
    (bcast_col_apply _ _ a p).trans (by rw [shapeCast_self])
  have h3 : broadcastTo S256x4096 (shapeCast S256x1 x3 shapeCasts_S256x1_S256x1) broadcasts_S256x1_S256x4096 (ix2 a p)
      = x3 (ix2 a (0 : Fin 1)) :=
    (bcast_col_apply _ _ a p).trans (by rw [shapeCast_self])
  unfold k1_pay6
  simp only [divf_apply, mulf_apply, subf_apply, addf_apply, maximumf_apply, broadcast_apply, exp_apply, absf_apply, hs, h2, h3,
    Ideal.ofBits_def, Ideal.ofBits_zero_f32]
  rfl

/-- The running Σ |g| column after a tile: what it held plus the lane sums of |g| over the tile's query rows. -/
theorem pay7_apply (x0 : Vec Ideal S256x256 .f32) (x1 : Vec Ideal S4096x256 .f32) (x2 x3 : Vec Ideal S256x1 .f32)
    (xo : Vec Ideal S1x256x1 .f32) (a : Fin 256) :
    k1_pay7 (F := Ideal) x0 x1 x2 x3 xo (ix2 a (0 : Fin 1))
      = xo (ix3 (0 : Fin 1) a (0 : Fin 1)) + ∑ p : Fin 4096, MemSpec.eabs (k1_pay6 (F := Ideal) x0 x1 x2 x3 (ix2 a p)) := by
  unfold k1_pay7
  show shapeCast S256x1 xo shapeCasts_S1x256x1_S256x1 (ix2 a (0 : Fin 1))
      + shapeCast S256x1 (multiReduction .add [1] S256 (absf (k1_pay6 (F := Ideal) x0 x1 x2 x3)) 0x00000000#32
          reduces_S256x4096_S256 (.inl rfl) rfl) shapeCasts_S256_S256x1 (ix2 a (0 : Fin 1)) = _
  rw [cast_blk_col_apply, cast_vec_col_apply, lanesum_apply]
  rfl

/-- The Σ |g| column stored as a [1,256,1] block. -/
theorem pay1_apply (v : FVec Ideal S256x1 .f32) (a : Fin 256) :
    k1_pay1 (F := Ideal) v (ix3 (0 : Fin 1) a (0 : Fin 1)) = v (ix2 a (0 : Fin 1)) := by
  unfold k1_pay1
  exact cast_col_blk_apply v _ a

/-- The running Σ g·q block after a tile: what it held plus the weights' product with the tile's query rows. -/
theorem pay2_apply (v7 : FVec Ideal S4096x256 .bf16) (v28 : FVec Ideal S256x4096 .f32) (xo : Vec Ideal S1x256x256 .f32)
    (a j : Fin 256) :
    k1_pay2 (F := Ideal) v7 v28 xo (ix3 (0 : Fin 1) a j)
      = xo (ix3 (0 : Fin 1) a j) + ∑ p : Fin 4096, v28 (ix2 a p) * v7 (ix2 p j) := by
  unfold k1_pay2
  refine (cast_mat_blk_apply _ _ a j).trans ?_
  show shapeCast S256x256 xo shapeCasts_S1x256x256_S256x256 (ix2 a j)
      + matmul dot_S256x4096_S4096x256_S256x256_1_0_0_1_n_n none (truncf .bf16 v28 bitsLt_bf16_f32 : FVec Ideal S256x4096 .bf16) v7
          (constant (F := Ideal) S256x256 .f32 0x00000000#32) (ix2 a j) = _
  rw [cast_blk_mat_apply, gq_apply]
  rfl

/-- The zero block and the zero column a core's first tile starts from. -/
theorem pay3_apply (a j : Fin 256) : k1_pay3 (F := Ideal) (ix3 (0 : Fin 1) a j) = 0 := by
  unfold k1_pay3
  refine (cast_mat_blk_apply _ _ a j).trans ?_
  show Ideal.ofBits .f32 0x00000000#32 = 0
  exact Ideal.ofBits_zero_f32
theorem pay4_apply (a : Fin 256) : k1_pay4 (F := Ideal) (ix3 (0 : Fin 1) a (0 : Fin 1)) = 0 := by
  unfold k1_pay4
  refine (cast_col_blk_apply _ _ a).trans ?_
  show Ideal.ofBits .f32 0x00000000#32 = 0
  exact Ideal.ofBits_zero_f32

end Cert.KernelIdeal.AccumValue

end
-- ==== Proof.AccumInv.lean ====
/-
  The accumulation pass: what its two carried blocks hold after every grid point.

  Writing M for the memory, Q for the queries, m and l for the merged maximum and normaliser, the shrunk weight of
  memory row a and query row r is g a r = shrink (exp (⟨M a, Q r⟩ − m a) / l a). Tile n covers query rows
  4096·n … 4096·n + 4095. The step at tile n adds Σ_p g a (4096·n + p) · Q (4096·n + p) j to entry (a, j) of the
  Σ g·q block and Σ_p |g a (4096·n + p)| to entry a of the Σ |g| column; tiles 0 and 8 (a core's first) start from
  zero. By induction on the point the blocks hold the specification's running sums accAt and l1At at tile n.
-/
import proofs.«171355_j541165879332_2_alg».proof.Proof.Gen.KernelIdeal.Frame
import proofs.«171355_j541165879332_2_alg».proof.Proof.Spec
import Idealize.ShloMosaic.Lib.Pipeline.Value
import proofs.«171355_j541165879332_2_alg».proof.Proof.AccumPieces
import proofs.«171355_j541165879332_2_alg».proof.Proof.AccumBlocks
import proofs.«171355_j541165879332_2_alg».proof.Proof.AccumPay

noncomputable section

open Idealize.ShloMosaic Idealize.ShloMosaic.TcCoe Idealize.SL.Sem
open Idealize.ShloMosaic.Pipeline (Dat)
open scoped BigOperators

namespace Cert.KernelIdeal.AccumValue

open Cert.KernelIdeal Cert.KernelIdeal.Gen Idealize.ShloMosaic.ValueIdx Cert

variable (V : (c : Dev nD) → (b : Ref sig .tc) → Buf (Elt Ideal) ((c : Thread nD τ).loc b))

/-- The four arrays the pass reads, as coordinate functions: the memory, the queries, the merged maximum and the
    merged normaliser. -/
abbrev memM (c : Dev nD) : Fin 256 → Fin 256 → EReal := MemSpec.mat (V c main_arg1)
abbrev qryM (c : Dev nD) : Fin 65536 → Fin 256 → EReal := MemSpec.mat (V c main_v0)
abbrev mCol (c : Dev nD) : Fin 256 → EReal := MemSpec.col (V c main_v10)
abbrev lCol (c : Dev nD) : Fin 256 → EReal := MemSpec.col (V c main_v17)

/-! ## One tile's step over the arrays -/

/-- The body's shrunk weight is the specification's, once the four blocks are read as the arrays' entries. -/
theorem gU_of_blocks (x0 : Vec Ideal S256x256 .f32) (x1 : Vec Ideal S4096x256 .f32) (x2 x3 : Vec Ideal S256x1 .f32)
    (M : Fin 256 → Fin 256 → EReal) (Q : Fin 65536 → Fin 256 → EReal) (mm ll : Fin 256 → EReal) (n : ℕ) (a : Fin 256) (p : Fin 4096)
    (h0 : ∀ k : Fin 256, x0 (ix2 a k) = M a k) (h1 : ∀ k : Fin 256, x1 (ix2 p k) = Q (MemSpec.prow n p) k)
    (h2 : x2 (ix2 a (0 : Fin 1)) = mm a) (h3 : x3 (ix2 a (0 : Fin 1)) = ll a) :
    k1_pay6 (F := Ideal) x0 x1 x2 x3 (ix2 a p) = MemSpec.gU M Q mm ll a (MemSpec.prow n p) := by
  refine (pay6_apply x0 x1 x2 x3 a p).trans ?_
  have e : (∑ k : Fin 256, x0 (ix2 a k) * x1 (ix2 p k)) = MemSpec.score M Q a (MemSpec.prow n p) :=
    Finset.sum_congr rfl fun k _ => by rw [h0 k, h1 k]
  rw [e, h2, h3]
  rfl

/-- At tile t the body's shrunk weight of memory row a and tile row p is the specification's, of query row 4096·t + p. -/
theorem g_eq (c : Dev nD) (t : Fin cfg1.N) (a : Fin 256) (p : Fin 4096) :
    k1_pay6 (F := Ideal) (iblk1 V c 0 t) (iblk1 V c 1 t) (iblk1 V c 2 t) (iblk1 V c 3 t) (ix2 a p)
      = MemSpec.gU (memM V c) (qryM V c) (mCol V c) (lCol V c) a (MemSpec.prow t.val p) :=
  gU_of_blocks (iblk1 V c 0 t) (iblk1 V c 1 t) (iblk1 V c 2 t) (iblk1 V c 3 t) (memM V c) (qryM V c) (mCol V c) (lCol V c) t.val a p
    (fun k => iblk_mem_apply V c t a k) (fun k => iblk_q_apply V c t p k) (iblk_m_apply V c t a) (iblk_l_apply V c t a)

/-- The Σ g·q block after tile t, from what it held. -/
theorem step_acc (c : Dev nD) (t : Fin cfg1.N) (xo : Vec Ideal S1x256x256 .f32) (a j : Fin 256) :
    k1_pay2 (F := Ideal) (k1_pay5 (iblk1 V c 1 t)) (k1_pay6 (iblk1 V c 0 t) (iblk1 V c 1 t) (iblk1 V c 2 t) (iblk1 V c 3 t)) xo (ix3 (0 : Fin 1) a j)
      = xo (ix3 (0 : Fin 1) a j) + ∑ p : Fin 4096, MemSpec.gU (memM V c) (qryM V c) (mCol V c) (lCol V c) a (MemSpec.prow t.val p) * qryM V c (MemSpec.prow t.val p) j := by
  refine (pay2_apply (k1_pay5 (iblk1 V c 1 t)) (k1_pay6 (iblk1 V c 0 t) (iblk1 V c 1 t) (iblk1 V c 2 t) (iblk1 V c 3 t)) xo a j).trans ?_
  refine congrArg (xo (ix3 (0 : Fin 1) a j) + ·) (Finset.sum_congr rfl fun p _ => ?_)
  rw [g_eq V c t a p, pay5_apply (iblk1 V c 1 t) (ix2 p j), iblk_q_apply V c t p j]
  rfl

/-- The Σ |g| column after tile t, from what it held. -/
theorem step_l1 (c : Dev nD) (t : Fin cfg1.N) (xo : Vec Ideal S1x256x1 .f32) (a : Fin 256) :
    k1_pay1 (F := Ideal) (k1_pay7 (iblk1 V c 0 t) (iblk1 V c 1 t) (iblk1 V c 2 t) (iblk1 V c 3 t) xo) (ix3 (0 : Fin 1) a (0 : Fin 1))
      = xo (ix3 (0 : Fin 1) a (0 : Fin 1)) + ∑ p : Fin 4096, MemSpec.eabs (MemSpec.gU (memM V c) (qryM V c) (mCol V c) (lCol V c) a (MemSpec.prow t.val p)) := by
  refine (pay1_apply (k1_pay7 (iblk1 V c 0 t) (iblk1 V c 1 t) (iblk1 V c 2 t) (iblk1 V c 3 t) xo) a).trans ?_
  refine (pay7_apply (iblk1 V c 0 t) (iblk1 V c 1 t) (iblk1 V c 2 t) (iblk1 V c 3 t) xo a).trans ?_
  refine congrArg (xo (ix3 (0 : Fin 1) a (0 : Fin 1)) + ·) (Finset.sum_congr rfl fun p _ => ?_)
  rw [g_eq V c t a p]

/-! ## The two carried blocks after every point -/

/-- At a core's first tile both blocks are the step from zero. -/
theorem outs_A (c : Dev nD) (t : Fin cfg1.N) (h0 : t.val % 8 = 0) :
    outsAt1 V c t.val t.isLt
      = (k1_pay2 (k1_pay5 (iblk1 V c 1 t)) (k1_pay6 (iblk1 V c 0 t) (iblk1 V c 1 t) (iblk1 V c 2 t) (iblk1 V c 3 t)) (k1_pay3 (F := Ideal)),
         k1_pay1 (k1_pay7 (iblk1 V c 0 t) (iblk1 V c 1 t) (iblk1 V c 2 t) (iblk1 V c 3 t) (k1_pay4 (F := Ideal)))) := by
  rw [outsAt1_A V c t h0,
    out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
    out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)]

/-- At a later tile both blocks are the step from what the tile before left. -/
theorem outs_B (c : Dev nD) (t : Fin cfg1.N) (h0 : ¬t.val % 8 = 0) :
    outsAt1 V c t.val t.isLt
      = (k1_pay2 (k1_pay5 (iblk1 V c 1 t)) (k1_pay6 (iblk1 V c 0 t) (iblk1 V c 1 t) (iblk1 V c 2 t) (iblk1 V c 3 t)) (outsAt1 V c (t.val - 1) (Nat.lt_of_le_of_lt (Nat.sub_le _ _) t.isLt)).1,
         k1_pay1 (k1_pay7 (iblk1 V c 0 t) (iblk1 V c 1 t) (iblk1 V c 2 t) (iblk1 V c 3 t) (outsAt1 V c (t.val - 1) (Nat.lt_of_le_of_lt (Nat.sub_le _ _) t.isLt)).2)) := by
  rw [outsAt1_B V c t h0,
    out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2,
    out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2]

/-- After point n the Σ g·q block holds the specification's running sum at tile n and the Σ |g| column its running
    Σ |g|: by induction on the point; a core's first tile (n ≡ 0 mod 8) starts afresh from zero, every other adds to
    what the tile before left. -/
theorem outs_inv (c : Dev nD) : ∀ (n : ℕ) (h : n < cfg1.N) (a j : Fin 256),
    (outsAt1 V c n h).1 (ix3 (0 : Fin 1) a j) = MemSpec.accAt (memM V c) (qryM V c) (mCol V c) (lCol V c) a j n
    ∧ (outsAt1 V c n h).2 (ix3 (0 : Fin 1) a (0 : Fin 1)) = MemSpec.l1At (memM V c) (qryM V c) (mCol V c) (lCol V c) a n
  | 0, h, a, j => by
    rw [outs_A V c ⟨0, h⟩ rfl]
    refine ⟨(step_acc V c ⟨0, h⟩ _ a j).trans ?_, (step_l1 V c ⟨0, h⟩ _ a).trans ?_⟩
    · rw [pay3_apply]; rfl
    · rw [pay4_apply]; rfl
  | n + 1, h, a, j => by
    have ea : MemSpec.accAt (memM V c) (qryM V c) (mCol V c) (lCol V c) a j (n + 1)
        = (if (n + 1) % 8 = 0 then 0 else MemSpec.accAt (memM V c) (qryM V c) (mCol V c) (lCol V c) a j n)
          + ∑ p : Fin 4096, MemSpec.gU (memM V c) (qryM V c) (mCol V c) (lCol V c) a (MemSpec.prow (n + 1) p) * qryM V c (MemSpec.prow (n + 1) p) j := rfl
    have el : MemSpec.l1At (memM V c) (qryM V c) (mCol V c) (lCol V c) a (n + 1)
        = (if (n + 1) % 8 = 0 then 0 else MemSpec.l1At (memM V c) (qryM V c) (mCol V c) (lCol V c) a n)
          + ∑ p : Fin 4096, MemSpec.eabs (MemSpec.gU (memM V c) (qryM V c) (mCol V c) (lCol V c) a (MemSpec.prow (n + 1) p)) := rfl
    by_cases h0 : (n + 1) % 8 = 0
    · rw [outs_A V c ⟨n + 1, h⟩ h0, ea, el, if_pos h0, if_pos h0]
      refine ⟨(step_acc V c ⟨n + 1, h⟩ _ a j).trans ?_, (step_l1 V c ⟨n + 1, h⟩ _ a).trans ?_⟩
      · rw [pay3_apply]
      · rw [pay4_apply]
    · have ih := outs_inv c n (Nat.lt_of_succ_lt h) a j
      rw [outs_B V c ⟨n + 1, h⟩ h0, ea, el, if_neg h0, if_neg h0]
      refine ⟨(step_acc V c ⟨n + 1, h⟩ _ a j).trans ?_, (step_l1 V c ⟨n + 1, h⟩ _ a).trans ?_⟩
      · exact congrArg (· + _) ih.1
      · exact congrArg (· + _) ih.2

end Cert.KernelIdeal.AccumValue

end
-- ==== Proof.AccumValue.lean ====
/-
  The accumulation pass: what its two result arrays hold after the pass, read off the pass's frame data.

  The [2,256,256] array of Σ g·q and the [2,256,1] array of Σ |g| have one block per core. A core's block is
  carried over the core's 8 tiles and written back after its last tile only, points 7 and 15. After point n the
  carried blocks hold the specification's running sums at tile n; so core cc's block of each array ends holding
  the running sum after tile 8·cc + 7, and the two blocks cover the array.
-/
import proofs.«171355_j541165879332_2_alg».proof.Proof.Gen.KernelIdeal.Frame
import proofs.«171355_j541165879332_2_alg».proof.Proof.Spec
import Idealize.ShloMosaic.Lib.Pipeline.Value
import proofs.«171355_j541165879332_2_alg».proof.Proof.AccumBlocks
import proofs.«171355_j541165879332_2_alg».proof.Proof.AccumInv

noncomputable section

open Idealize.ShloMosaic Idealize.ShloMosaic.TcCoe Idealize.SL.Sem
open Idealize.ShloMosaic.Pipeline (Dat)
open scoped BigOperators

namespace Cert.KernelIdeal.AccumValue

open Cert.KernelIdeal Cert.KernelIdeal.Gen Idealize.ShloMosaic.ValueIdx Cert

variable (V : (c : Dev nD) → (b : Ref sig .tc) → Buf (Elt Ideal) ((c : Thread nD τ).loc b))

/-- The running sums do not depend on how an index is spelt. -/
theorem accAt_congr (M : Fin 256 → Fin 256 → EReal) (Q : Fin 65536 → Fin 256 → EReal) (m l : Fin 256 → EReal)
    {a a' j j' : Fin 256} {n n' : ℕ} (ha : a.val = a'.val) (hj : j.val = j'.val) (hn : n = n') :
    MemSpec.accAt M Q m l a j n = MemSpec.accAt M Q m l a' j' n' := by
  obtain rfl := Fin.ext ha; obtain rfl := Fin.ext hj; subst hn; rfl
theorem l1At_congr (M : Fin 256 → Fin 256 → EReal) (Q : Fin 65536 → Fin 256 → EReal) (m l : Fin 256 → EReal)
    {a a' : Fin 256} {n n' : ℕ} (ha : a.val = a'.val) (hn : n = n') :
    MemSpec.l1At M Q m l a n = MemSpec.l1At M Q m l a' n' := by
  obtain rfl := Fin.ext ha; subst hn; rfl

/-- The invariant at any index of the carried blocks. -/
theorem outs_acc_at (c : Dev nD) (n : ℕ) (h : n < cfg1.N) (y : S1x256x256.Idx) :
    (outsAt1 V c n h).1 y = MemSpec.accAt (memM V c) (qryM V c) (mCol V c) (lCol V c) (y 1) (y 2) n := by
  obtain ⟨u, a, j, rfl⟩ : ∃ (u : Fin 1) (a j : Fin 256), y = ix3 u a j := ⟨y 0, y 1, y 2, eq_ix3 y⟩
  obtain rfl : u = 0 := Subsingleton.elim _ _
  exact (outs_inv V c n h a j).1
theorem outs_l1_at (c : Dev nD) (n : ℕ) (h : n < cfg1.N) (y : S1x256x1.Idx) :
    (outsAt1 V c n h).2 y = MemSpec.l1At (memM V c) (qryM V c) (mCol V c) (lCol V c) (y 1) n := by
  obtain ⟨u, a, z, rfl⟩ : ∃ (u : Fin 1) (a : Fin 256) (z : Fin 1), y = ix3 u a z := ⟨y 0, y 1, y 2, eq_ix3 y⟩
  obtain rfl : u = 0 := Subsingleton.elim _ _
  obtain rfl : z = 0 := Subsingleton.elim _ _
  exact (outs_inv V c n h a a).2

/-- The sizes of the two outputs' blocks at every point. -/
theorem xsize_acc : ∀ t : Fin cfg1.N, win1_4.xsize (grid1.coords t) 0 = 1 ∧ win1_4.xsize (grid1.coords t) 1 = 256 ∧ win1_4.xsize (grid1.coords t) 2 = 256 :=
  (by decide +kernel : ∀ t : Fin grid1.N, win1_4.xsize (grid1.coords t) 0 = 1 ∧ win1_4.xsize (grid1.coords t) 1 = 256 ∧ win1_4.xsize (grid1.coords t) 2 = 256)
theorem xsize_l1 : ∀ t : Fin cfg1.N, win1_5.xsize (grid1.coords t) 0 = 1 ∧ win1_5.xsize (grid1.coords t) 1 = 256 ∧ win1_5.xsize (grid1.coords t) 2 = 1 :=
  (by decide +kernel : ∀ t : Fin grid1.N, win1_5.xsize (grid1.coords t) 0 = 1 ∧ win1_5.xsize (grid1.coords t) 1 = 256 ∧ win1_5.xsize (grid1.coords t) 2 = 1)

/-! ## The Σ g·q array -/

/-- What the [2,256,256] array ends holding: core cc's block is the running sum after the core's last tile 8·cc + 7. -/
def accG (c : Dev nD) : Buf (Elt Ideal) ((c : Thread nD τ).loc main_v18_0) :=
  fun i : S2x256x256.Idx => MemSpec.accAt (memM V c) (qryM V c) (mCol V c) (lCol V c) (i 1) (i 2) (8 * (i 0).val + 7)

/-- The write-back of a core's last tile writes its block of that array. -/
theorem flushed_acc (c : Dev nD) (t : Fin cfg1.N) (hf : (cfg1.win 4).flush t = true) :
    (dat1 V c).flushed 4 t = ((cfg1.win 4).blk t).view.read (Elt Ideal) (accG V c) := by
  have hN : t.val < 16 := lt_of_lt_of_eq t.isLt (show cfg1.N = 16 from N_1)
  have h7 : t.val % 8 = 7 := (flush1_4 t).mp hf
  show (cfg1.win 4).cut (grid1.coords t) ((dat1 V c).after 4 t) = _
  rw [after1_4]
  funext y
  rw [View.read_apply]
  refine (outs_acc_at V c t.val t.isLt _).trans ?_
  show MemSpec.accAt (memM V c) (qryM V c) (mCol V c) (lCol V c) _ _ t.val
    = MemSpec.accAt (memM V c) (qryM V c) (mCol V c) (lCol V c) (((cfg1.win 4).blk t).view.emb y 1) (((cfg1.win 4).blk t).view.emb y 2)
        (8 * (((cfg1.win 4).blk t).view.emb y 0).val + 7)
  refine accAt_congr _ _ _ _ ?_ ?_ ?_
  · show (y 1).val = win1_4.index t 1 * 256 + 1 * (y 1).val
    rw [(idx_acc t).2.1]; omega
  · show (y 2).val = win1_4.index t 2 * 256 + 1 * (y 2).val
    rw [(idx_acc t).2.2]; omega
  · show t.val = 8 * (win1_4.index t 0 * 1 + 1 * (y 0).val) + 7
    have hy : (y 0).val < 1 := lt_of_lt_of_eq (y 0).isLt (xsize_acc t).1
    rw [(idx_acc t).1]; omega

/-- Every index of the array is in the block written back at its core's last tile; so the array ends holding accG. -/
theorem acc_final (c : Dev nD) : (dat1 V c).arrAt 4 cfg1.N = accG V c :=
  (dat1 V c).arrAt_eq_of_cover 4 (accG V c) (flushed_acc V c) fun i => by
    have h0 : (i 0 : ℕ) < 2 := (i 0).isLt
    have h1 : (i 1 : ℕ) < 256 := (i 1).isLt
    have h2 : (i 2 : ℕ) < 256 := (i 2).isLt
    have hN : cfg1.N = 16 := N_1
    have ht : 8 * (i 0).val + 7 < cfg1.N := by rw [hN]; omega
    refine ⟨⟨8 * (i 0).val + 7, ht⟩, (flush1_4 _).mpr (by dsimp only; omega), ?_⟩
    show i ∈ ((View.whole main_v18_0).slice (win1_4.rect ⟨8 * (i 0).val + 7, ht⟩)).set
    rw [View.set_slice_whole, Rect.mem_set_unit]
    intro a
    match a with
    | ⟨0, _⟩ =>
      show win1_4.index ⟨8 * (i 0).val + 7, ht⟩ 0 * 1 ≤ (i 0 : ℕ) ∧ (i 0 : ℕ) < win1_4.index ⟨8 * (i 0).val + 7, ht⟩ 0 * 1 + win1_4.xsize (grid1.coords ⟨8 * (i 0).val + 7, ht⟩) 0
      rw [(idx_acc _).1, (xsize_acc _).1]; dsimp only; omega
    | ⟨1, _⟩ =>
      show win1_4.index ⟨8 * (i 0).val + 7, ht⟩ 1 * 256 ≤ (i 1 : ℕ) ∧ (i 1 : ℕ) < win1_4.index ⟨8 * (i 0).val + 7, ht⟩ 1 * 256 + win1_4.xsize (grid1.coords ⟨8 * (i 0).val + 7, ht⟩) 1
      rw [(idx_acc _).2.1, (xsize_acc _).2.1]; omega
    | ⟨2, _⟩ =>
      show win1_4.index ⟨8 * (i 0).val + 7, ht⟩ 2 * 256 ≤ (i 2 : ℕ) ∧ (i 2 : ℕ) < win1_4.index ⟨8 * (i 0).val + 7, ht⟩ 2 * 256 + win1_4.xsize (grid1.coords ⟨8 * (i 0).val + 7, ht⟩) 2
      rw [(idx_acc _).2.2, (xsize_acc _).2.2]; omega

/-- The Σ g·q array after the pass: core cc's entry (a, j) is the running sum after tile 8·cc + 7. -/
theorem acc_apply (c : Dev nD) (cc : Fin 2) (a j : Fin 256) :
    (dat1 (F := Ideal) V c).arrAt 4 cfg1.N (ix3 cc a j)
      = MemSpec.accAt (MemSpec.mat (V c main_arg1)) (MemSpec.mat (V c main_v0)) (MemSpec.col (V c main_v10))
          (MemSpec.col (V c main_v17)) a j (8 * cc.val + 7) := by
  rw [acc_final V c]
  rfl

/-! ## The Σ |g| array -/

/-- What the [2,256,1] array ends holding: core cc's column is the running Σ |g| after the core's last tile 8·cc + 7. -/
def l1G (c : Dev nD) : Buf (Elt Ideal) ((c : Thread nD τ).loc main_v18_1) :=
  fun i : S2x256x1.Idx => MemSpec.l1At (memM V c) (qryM V c) (mCol V c) (lCol V c) (i 1) (8 * (i 0).val + 7)

/-- The write-back of a core's last tile writes its column of that array. -/
theorem flushed_l1 (c : Dev nD) (t : Fin cfg1.N) (hf : (cfg1.win 5).flush t = true) :
    (dat1 V c).flushed 5 t = ((cfg1.win 5).blk t).view.read (Elt Ideal) (l1G V c) := by
  have hN : t.val < 16 := lt_of_lt_of_eq t.isLt (show cfg1.N = 16 from N_1)
  have h7 : t.val % 8 = 7 := (flush1_5 t).mp hf
  show (cfg1.win 5).cut (grid1.coords t) ((dat1 V c).after 5 t) = _
  rw [after1_5]
  funext y
  rw [View.read_apply]
  refine (outs_l1_at V c t.val t.isLt _).trans ?_
  show MemSpec.l1At (memM V c) (qryM V c) (mCol V c) (lCol V c) _ t.val
    = MemSpec.l1At (memM V c) (qryM V c) (mCol V c) (lCol V c) (((cfg1.win 5).blk t).view.emb y 1) (8 * (((cfg1.win 5).blk t).view.emb y 0).val + 7)
  refine l1At_congr _ _ _ _ ?_ ?_
  · show (y 1).val = win1_5.index t 1 * 256 + 1 * (y 1).val
    rw [(idx_l1 t).2.1]; omega
  · show t.val = 8 * (win1_5.index t 0 * 1 + 1 * (y 0).val) + 7
    have hy : (y 0).val < 1 := lt_of_lt_of_eq (y 0).isLt (xsize_l1 t).1
    rw [(idx_l1 t).1]; omega

/-- Every index of the array is in the column written back at its core's last tile; so the array ends holding l1G. -/
theorem l1_final (c : Dev nD) : (dat1 V c).arrAt 5 cfg1.N = l1G V c :=
  (dat1 V c).arrAt_eq_of_cover 5 (l1G V c) (flushed_l1 V c) fun i => by
    have h0 : (i 0 : ℕ) < 2 := (i 0).isLt
    have h1 : (i 1 : ℕ) < 256 := (i 1).isLt
    have h2 : (i 2 : ℕ) < 1 := (i 2).isLt
    have hN : cfg1.N = 16 := N_1
    have ht : 8 * (i 0).val + 7 < cfg1.N := by rw [hN]; omega
    refine ⟨⟨8 * (i 0).val + 7, ht⟩, (flush1_5 _).mpr (by dsimp only; omega), ?_⟩
    show i ∈ ((View.whole main_v18_1).slice (win1_5.rect ⟨8 * (i 0).val + 7, ht⟩)).set
    rw [View.set_slice_whole, Rect.mem_set_unit]
    intro a
    match a with
    | ⟨0, _⟩ =>
      show win1_5.index ⟨8 * (i 0).val + 7, ht⟩ 0 * 1 ≤ (i 0 : ℕ) ∧ (i 0 : ℕ) < win1_5.index ⟨8 * (i 0).val + 7, ht⟩ 0 * 1 + win1_5.xsize (grid1.coords ⟨8 * (i 0).val + 7, ht⟩) 0
      rw [(idx_l1 _).1, (xsize_l1 _).1]; dsimp only; omega
    | ⟨1, _⟩ =>
      show win1_5.index ⟨8 * (i 0).val + 7, ht⟩ 1 * 256 ≤ (i 1 : ℕ) ∧ (i 1 : ℕ) < win1_5.index ⟨8 * (i 0).val + 7, ht⟩ 1 * 256 + win1_5.xsize (grid1.coords ⟨8 * (i 0).val + 7, ht⟩) 1
      rw [(idx_l1 _).2.1, (xsize_l1 _).2.1]; omega
    | ⟨2, _⟩ =>
      show win1_5.index ⟨8 * (i 0).val + 7, ht⟩ 2 * 1 ≤ (i 2 : ℕ) ∧ (i 2 : ℕ) < win1_5.index ⟨8 * (i 0).val + 7, ht⟩ 2 * 1 + win1_5.xsize (grid1.coords ⟨8 * (i 0).val + 7, ht⟩) 2
      rw [(idx_l1 _).2.2, (xsize_l1 _).2.2]; omega

/-- The Σ |g| array after the pass: core cc's entry a is the running Σ |g| after tile 8·cc + 7. -/
theorem l1_apply (c : Dev nD) (cc : Fin 2) (a : Fin 256) :
    (dat1 (F := Ideal) V c).arrAt 5 cfg1.N (ix3 cc a (0 : Fin 1))
      = MemSpec.l1At (MemSpec.mat (V c main_arg1)) (MemSpec.mat (V c main_v0)) (MemSpec.col (V c main_v10))
          (MemSpec.col (V c main_v17)) a (8 * cc.val + 7) := by
  rw [l1_final V c]
  rfl

end Cert.KernelIdeal.AccumValue

end
-- ==== Proof.MergeReal.lean ====
/-
  Real entries on the extended reals.

  The sum, difference, product, maximum, negation, absolute value, exponential and quotient (by a positive divisor) of
  real numbers, taken in the extended reals, are real numbers again, and a finite sum of reals taken in the extended
  reals is the coercion of the real sum. The threshold λ and the guard ε are real, ε is positive; so the hard shrink of a
  real weight is real (its divisor |p - λ| + ε is positive), a score (a finite sum of products of reals) is real, and a
  clamped norm max(x, ε) of a real x is a positive real.
-/
import Mathlib
import Idealize.ShloMosaic.PureOps.Ideal
import proofs.«171355_j541165879332_2_alg».proof.Proof.Spec

noncomputable section

open scoped BigOperators

namespace Cert.MemSpec.Merge

open Idealize.ShloMosaic

/-- `x` is (the coercion of) a real number. -/
def IsR (x : EReal) : Prop := ∃ r : ℝ, x = (r : EReal)

/-- `x` is a positive real number. -/
def IsPos (x : EReal) : Prop := ∃ r : ℝ, 0 < r ∧ x = (r : EReal)

theorem IsPos.isR {x : EReal} (h : IsPos x) : IsR x := by
  obtain ⟨r, _, rfl⟩ := h
  exact ⟨r, rfl⟩

theorem isR_coe (r : ℝ) : IsR (r : EReal) := ⟨r, rfl⟩

theorem isR_zero : IsR 0 := ⟨0, EReal.coe_zero.symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.neg {x : EReal} (hx : IsR x) : IsR (-x) := by
  obtain ⟨a, rfl⟩ := hx
  exact ⟨-a, (EReal.coe_neg a).symm⟩

theorem IsR.max {x y : EReal} (hx : IsR x) (hy : IsR y) : IsR (max x y) := by
  rcases max_choice x y with h | h <;> rw [h] <;> assumption

theorem IsR.exp {x : EReal} (hx : IsR x) : IsR (Ideal.exp x) := by
  obtain ⟨a, rfl⟩ := hx
  exact ⟨Real.exp a, rfl⟩

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is real. -/
theorem isR_sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of two reals with a nonzero divisor is the real quotient. -/
theorem div_coe (a : ℝ) {b : ℝ} (hb : b ≠ 0) : Ideal.div (a : EReal) (b : EReal) = ((a / b : ℝ) : EReal) := by
  rw [Ideal.div_coe hb, ← EReal.coe_mul, mul_one_div]

theorem IsR.div {x y : EReal} (hx : IsR x) (hy : IsPos y) : IsR (Ideal.div x y) := by
  obtain ⟨a, rfl⟩ := hx
  obtain ⟨b, hb, rfl⟩ := hy
  exact ⟨a / b, div_coe a hb.ne'⟩

/-- The maximum of two reals, taken in the extended reals, is the real maximum. -/
theorem max_coe (a b : ℝ) : max (a : EReal) (b : EReal) = ((max a b : ℝ) : EReal) :=
  (EReal.coe_strictMono.monotone.map_max).symm

/-- |a| for a real a. -/
theorem eabs_coe (a : ℝ) : eabs (a : EReal) = ((|a| : ℝ) : EReal) := by
  unfold eabs
  rw [← EReal.coe_neg, max_coe, abs_eq_max_neg]

theorem IsR.eabs {x : EReal} (hx : IsR x) : IsR (eabs x) := by
  obtain ⟨a, rfl⟩ := hx
  exact ⟨|a|, eabs_coe a⟩

/-- The threshold λ is a real number. -/
theorem lam_isR : IsR lam := by
  unfold IsR lam
  simp [Ideal.ofBits, Ideal.ieee, -EReal.coe_mul]

/-- The guard ε is a positive real number. -/
theorem eps_isPos : IsPos eps := by
  unfold IsPos eps
  simp [Ideal.ofBits, Ideal.ieee, -EReal.coe_mul]

/-- |x| + ε is a positive real for a real x. -/
theorem eabs_add_eps_isPos {x : EReal} (hx : IsR x) : IsPos (eabs x + eps) := by
  obtain ⟨a, rfl⟩ := hx
  obtain ⟨e, he, hE⟩ := eps_isPos
  refine ⟨|a| + e, by positivity, ?_⟩
  rw [hE, eabs_coe, EReal.coe_add]

/-- The hard shrink of a real weight is real. -/
theorem shrink_isR {p : EReal} (hp : IsR p) : IsR (shrink p) := by
  unfold shrink
  exact (((hp.sub lam_isR).max isR_zero).mul hp).div (eabs_add_eps_isPos (hp.sub lam_isR))

/-- The clamp max(x, ε) of a real x is a positive real. -/
theorem max_eps_isPos {x : EReal} (hx : IsR x) : IsPos (max x eps) := by
  obtain ⟨a, rfl⟩ := hx
  obtain ⟨e, he, hE⟩ := eps_isPos
  exact ⟨max a e, lt_max_of_lt_right he, by rw [hE, max_coe]⟩

/-- A score, the inner product of a real memory row and a real query row, is real. -/
theorem score_isR (mem : Fin 256 → Fin 256 → EReal) (q : Fin 65536 → Fin 256 → EReal)
    (hmem : ∀ a k, IsR (mem a k)) (hq : ∀ t k, IsR (q t k)) (a : Fin 256) (t : Fin 65536) :
    IsR (score mem q a t) := by
  unfold score
  exact isR_sum _ _ fun k _ => (hmem a k).mul (hq t k)

/-- The largest entry of a nonempty row of reals is one of them, hence real. -/
theorem rowMax_isR {ι : Type} [Fintype ι] [Nonempty ι] (s : ι → EReal) (hs : ∀ i, IsR (s i)) : IsR (rowMax s) := by
  obtain ⟨i, _, hi⟩ := Finset.exists_mem_eq_sup Finset.univ Finset.univ_nonempty s
  unfold rowMax
  rw [hi]
  exact hs i

end Cert.MemSpec.Merge

end
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.MergeTiles.lean ====
/-
  The 65536 query rows are the 16 tiles of 4096 rows laid end to end: row p of tile n is row n·4096 + p. So a sum over
  all the rows is the sum over the tiles of the sums within a tile, and the sum over the tiles 0..7 plus the sum over the
  tiles 8..15 is the sum over all of them. Only the commutativity and associativity of the addition is used.

  A running total that starts afresh (from 0) at tiles 0 and 8 and adds one tile's sum at every step holds, k steps after
  a fresh start at tile b, the sum over the tiles b .. b+k.
-/
import Mathlib
import proofs.«171355_j541165879332_2_alg».proof.Proof.Spec
import proofs.«171355_j541165879332_2_alg».proof.Proof.LibBlockSum

noncomputable section

open scoped BigOperators

namespace Cert.MemSpec.Merge

variable {M : Type*} [AddCommMonoid M]

/-- Row p of tile n, for n below 16, is row n·4096 + p. -/
theorem prow_eq (n : Fin 16) (p : Fin 4096) (h : n.val * 4096 + p.val < 16 * 4096) :
    prow n.val p = ⟨n.val * 4096 + p.val, h⟩ := by
  apply Fin.ext
  show (n.val * 4096 + p.val) % 65536 = n.val * 4096 + p.val
  exact Nat.mod_eq_of_lt h

/-- The sum over the 16 tiles of the sums within a tile is the sum over all the rows. -/
theorem sum_tiles16 (F : Fin 65536 → M) : ∑ n : Fin 16, ∑ p : Fin 4096, F (prow n.val p) = ∑ t : Fin 65536, F t := by
  have h := Cert.LibBlockSum.sum_blocks 16 4096 (M := M) F fun t y => Cert.LibBlockSum.blk_lt t y
  rw [← h]
  exact Finset.sum_congr rfl fun n _ => Finset.sum_congr rfl fun p _ => congrArg F (prow_eq n p _)

/-- The sum over the tiles 0..7 plus the sum over the tiles 8..15 is the sum over all the rows. -/
theorem sum_two_halves (F : Fin 65536 → M) :
    (∑ i ∈ Finset.range 8, ∑ p : Fin 4096, F (prow (0 + i) p))
        + (∑ i ∈ Finset.range 8, ∑ p : Fin 4096, F (prow (8 + i) p))
      = ∑ t : Fin 65536, F t := by
  rw [← sum_tiles16 F, ← Finset.sum_range (fun n => ∑ p : Fin 4096, F (prow n p)) ,
    Finset.sum_range_add (fun n => ∑ p : Fin 4096, F (prow n p)) 8 8]
  simp only [Nat.zero_add]

/-- A running total with fresh starts at the multiples of 8: k steps (k below 8) after a fresh start at tile b it is
    the sum of the increments of the tiles b .. b+k. -/
theorem run_sum (acc : ℕ → M) (g : ℕ → M) (h0 : acc 0 = 0 + g 0)
    (hs : ∀ n, acc (n + 1) = (if (n + 1) % 8 = 0 then 0 else acc n) + g (n + 1))
    (b : ℕ) (hb : b % 8 = 0) : ∀ k, k < 8 → acc (b + k) = ∑ i ∈ Finset.range (k + 1), g (b + i)
  | 0, _ => by
    rw [Finset.sum_range_one, Nat.add_zero]
    cases b with
    | zero => rw [h0, zero_add]
    | succ c => rw [hs c, if_pos hb, zero_add]
  | k + 1, hk => by
    have ih := run_sum acc g h0 hs b hb k (by omega)
    have hne : ¬ (b + k + 1) % 8 = 0 := by omega
    rw [Finset.sum_range_succ, ← ih, ← Nat.add_assoc, hs (b + k), if_neg hne]

end Cert.MemSpec.Merge

end
-- ==== Proof.MergeOnline.lean ====
/-
  The running (maximum, rescaled sum of exponentials) of the blocked computation.

  For real scores, after any number of tiles since a fresh start the running pair is (m, Σ exp(s - m)) for some REAL m,
  the sum running over all the rows of the tiles walked so far: a step with new maximum m' multiplies the old sum by
  exp(m - m'), and exp(s - m) · exp(m - m') = exp(s - m'); the first step starts from (⊥, 0), where ⊥ - r = ⊥,
  exp ⊥ = 0, 0 · 0 = 0 and max ⊥ r = r. Merging the two cores' pairs the same way gives (M, Σ_t exp(s t - M)) over all
  the 65536 rows, for a real M. (Which real M is does not matter below: a softmax weight does not depend on the point its
  exponentials are taken relative to.)
-/
import Mathlib
import Idealize.ShloMosaic.PureOps.Ideal
import proofs.«171355_j541165879332_2_alg».proof.Proof.Spec
import proofs.«171355_j541165879332_2_alg».proof.Proof.MergeReal
import proofs.«171355_j541165879332_2_alg».proof.Proof.MergeTiles

noncomputable section

open scoped BigOperators

namespace Cert.MemSpec.Merge

open Idealize.ShloMosaic

/-- The exponential of a difference of reals. -/
theorem exp_sub_coe (x m : ℝ) : Ideal.exp ((x : EReal) - (m : EReal)) = ((Real.exp (x - m) : ℝ) : EReal) := by
  rw [← EReal.coe_sub]
  rfl

/-- A finite sum of exponentials of differences of reals. -/
theorem sum_exp_sub_coe {ι : Type*} (s : Finset ι) (f : ι → ℝ) (m : ℝ) :
    ∑ p ∈ s, Ideal.exp ((f p : EReal) - (m : EReal)) = ((∑ p ∈ s, Real.exp (f p - m) : ℝ) : EReal) := by
  rw [coe_sum]
  exact Finset.sum_congr rfl fun p _ => exp_sub_coe (f p) m

/-- Moving the reference point of a double sum of exponentials from m to m'. -/
theorem rescale_sum {ι κ : Type*} (s : Finset ι) (u : Finset κ) (x : ι → κ → ℝ) (m m' : ℝ) :
    (∑ i ∈ s, ∑ p ∈ u, Real.exp (x i p - m)) * Real.exp (m - m') = ∑ i ∈ s, ∑ p ∈ u, Real.exp (x i p - m') := by
  rw [Finset.sum_mul]
  refine Finset.sum_congr rfl fun i _ => ?_
  rw [Finset.sum_mul]
  refine Finset.sum_congr rfl fun p _ => ?_
  rw [← Real.exp_add, sub_add_sub_cancel]

/-- The first step, from (⊥, 0), over a tile of real scores f: the pair (m, Σ_p exp(f p - m)) for a real m. -/
theorem mlStep_first (f : Fin 4096 → ℝ) :
    ∃ m : ℝ, mlStep (⊥, 0) (fun p => (f p : EReal)) = ((m : EReal), ((∑ p, Real.exp (f p - m) : ℝ) : EReal)) := by
  obtain ⟨r, hr⟩ := rowMax_isR (fun p : Fin 4096 => (f p : EReal)) fun p => isR_coe (f p)
  refine ⟨r, ?_⟩
  show (max (⊥ : EReal) (rowMax fun p : Fin 4096 => (f p : EReal)),
      (0 : EReal) * Ideal.exp (⊥ - max (⊥ : EReal) (rowMax fun p : Fin 4096 => (f p : EReal)))
        + ∑ p, Ideal.exp ((f p : EReal) - max (⊥ : EReal) (rowMax fun p : Fin 4096 => (f p : EReal)))) = _
  rw [hr, max_bot_left, zero_mul, zero_add, sum_exp_sub_coe]

/-- A later step, from a real pair (m, L), over a tile of real scores f: the pair
    (m', L · exp(m - m') + Σ_p exp(f p - m')) for a real m'. -/
theorem mlStep_next (m L : ℝ) (f : Fin 4096 → ℝ) :
    ∃ m' : ℝ, mlStep ((m : EReal), (L : EReal)) (fun p => (f p : EReal))
      = ((m' : EReal), ((L * Real.exp (m - m') + ∑ p, Real.exp (f p - m') : ℝ) : EReal)) := by
  obtain ⟨r, hr⟩ := rowMax_isR (fun p : Fin 4096 => (f p : EReal)) fun p => isR_coe (f p)
  refine ⟨max m r, ?_⟩
  show (max (m : EReal) (rowMax fun p : Fin 4096 => (f p : EReal)),
      (L : EReal) * Ideal.exp ((m : EReal) - max (m : EReal) (rowMax fun p : Fin 4096 => (f p : EReal)))
        + ∑ p, Ideal.exp ((f p : EReal) - max (m : EReal) (rowMax fun p : Fin 4096 => (f p : EReal)))) = _
  rw [hr, max_coe, exp_sub_coe, sum_exp_sub_coe, ← EReal.coe_mul, ← EReal.coe_add]

theorem mlAt_zero (mem : Fin 256 → Fin 256 → EReal) (q : Fin 65536 → Fin 256 → EReal) (a : Fin 256) :
    mlAt mem q a 0 = mlStep (⊥, 0) (fun p => score mem q a (prow 0 p)) := rfl

theorem mlAt_succ (mem : Fin 256 → Fin 256 → EReal) (q : Fin 65536 → Fin 256 → EReal) (a : Fin 256) (n : ℕ) :
    mlAt mem q a (n + 1)
      = if (n + 1) % 8 = 0 then mlStep (⊥, 0) (fun p => score mem q a (prow (n + 1) p))
        else mlStep (mlAt mem q a n) (fun p => score mem q a (prow (n + 1) p)) := rfl

/-- THE ONLINE INVARIANT: k steps (k below 8) after a fresh start at tile b, the running pair of row a is
    (m, Σ exp(s - m)) over the rows of the tiles b .. b+k, for a real m. -/
theorem mlAt_run (mem : Fin 256 → Fin 256 → EReal) (q : Fin 65536 → Fin 256 → EReal) (a : Fin 256)
    (sr : Fin 65536 → ℝ) (hs : ∀ t, score mem q a t = (sr t : EReal)) (b : ℕ) (hb : b % 8 = 0) :
    ∀ k, k < 8 → ∃ m : ℝ, mlAt mem q a (b + k)
      = ((m : EReal),
         ((∑ i ∈ Finset.range (k + 1), ∑ p : Fin 4096, Real.exp (sr (prow (b + i) p) - m) : ℝ) : EReal))
  | 0, _ => by
    have hfirst : mlAt mem q a (b + 0) = mlStep (⊥, 0) (fun p => ((sr (prow b p) : ℝ) : EReal)) := by
      rw [Nat.add_zero]
      cases b with
      | zero => rw [mlAt_zero]; simp only [hs]
      | succ c => rw [mlAt_succ, if_pos hb]; simp only [hs]
    obtain ⟨m, hm⟩ := mlStep_first (fun p => sr (prow b p))
    exact ⟨m, by rw [hfirst, hm, Finset.sum_range_one, Nat.add_zero]⟩
  | k + 1, hk => by
    obtain ⟨m, hm⟩ := mlAt_run mem q a sr hs b hb k (by omega)
    have hne : ¬ (b + k + 1) % 8 = 0 := by omega
    have hstep : mlAt mem q a (b + (k + 1))
        = mlStep (mlAt mem q a (b + k)) (fun p => ((sr (prow (b + k + 1) p) : ℝ) : EReal)) := by
      rw [← Nat.add_assoc, mlAt_succ, if_neg hne]
      simp only [hs]
    obtain ⟨m', hm'⟩ := mlStep_next m (∑ i ∈ Finset.range (k + 1), ∑ p : Fin 4096, Real.exp (sr (prow (b + i) p) - m))
      (fun p => sr (prow (b + k + 1) p))
    refine ⟨m', ?_⟩
    rw [hstep, hm, hm', rescale_sum, Finset.sum_range_succ _ (k + 1), Nat.add_assoc]

/-- THE MERGED PAIR: the merged maximum of row a is a real M and the merged sum is Σ_t exp(s t - M) over all the rows. -/
theorem merged_eq (mem : Fin 256 → Fin 256 → EReal) (q : Fin 65536 → Fin 256 → EReal) (a : Fin 256)
    (sr : Fin 65536 → ℝ) (hs : ∀ t, score mem q a t = (sr t : EReal)) :
    ∃ M : ℝ, mMerged mem q a = (M : EReal)
      ∧ lMerged mem q a = ((∑ t : Fin 65536, Real.exp (sr t - M) : ℝ) : EReal) := by
  obtain ⟨m1, h1⟩ := mlAt_run mem q a sr hs 0 rfl 7 (by norm_num)
  obtain ⟨m2, h2⟩ := mlAt_run mem q a sr hs 8 rfl 7 (by norm_num)
  have h1' : mlAt mem q a 7 = _ := h1
  have h2' : mlAt mem q a 15 = _ := h2
  have hM : mMerged mem q a = ((max m1 m2 : ℝ) : EReal) := by
    unfold mMerged
    rw [h1', h2']
    exact max_coe m1 m2
  refine ⟨max m1 m2, hM, ?_⟩
  unfold lMerged
  rw [hM, h1', h2']
  show ((_ : ℝ) : EReal) * Ideal.exp ((m1 : EReal) - ((max m1 m2 : ℝ) : EReal))
      + ((_ : ℝ) : EReal) * Ideal.exp ((m2 : EReal) - ((max m1 m2 : ℝ) : EReal)) = _
  rw [exp_sub_coe, exp_sub_coe, ← EReal.coe_mul, ← EReal.coe_mul, ← EReal.coe_add, rescale_sum, rescale_sum,
    sum_two_halves (fun t => Real.exp (sr t - max m1 m2))]

end Cert.MemSpec.Merge

end
-- ==== Proof.MergeAcc.lean ====
/-
  The blocked accumulators regroup to whole sums.

  Each core's running Σ g · q and Σ |g| start from 0 at its first tile and add one tile's sum per step, so after its
  eight tiles a core holds the sum over its eight tiles, and the two cores' totals added are the sum over all the 65536
  rows. Only the commutativity and associativity of the addition (and 0 + x = x) are used, so this holds for any maximum m
  and normaliser l the weights are formed from.
-/
import Mathlib
import proofs.«171355_j541165879332_2_alg».proof.Proof.Spec
import proofs.«171355_j541165879332_2_alg».proof.Proof.MergeTiles

noncomputable section

open scoped BigOperators

namespace Cert.MemSpec.Merge

variable (mem : Fin 256 → Fin 256 → EReal) (q : Fin 65536 → Fin 256 → EReal) (m l : Fin 256 → EReal)

theorem accAt_zero (a j : Fin 256) :
    accAt mem q m l a j 0 = 0 + ∑ p : Fin 4096, gU mem q m l a (prow 0 p) * q (prow 0 p) j := rfl

theorem accAt_succ (a j : Fin 256) (n : ℕ) :
    accAt mem q m l a j (n + 1)
      = (if (n + 1) % 8 = 0 then 0 else accAt mem q m l a j n)
          + ∑ p : Fin 4096, gU mem q m l a (prow (n + 1) p) * q (prow (n + 1) p) j := rfl

theorem l1At_zero (a : Fin 256) :
    l1At mem q m l a 0 = 0 + ∑ p : Fin 4096, eabs (gU mem q m l a (prow 0 p)) := rfl

theorem l1At_succ (a : Fin 256) (n : ℕ) :
    l1At mem q m l a (n + 1)
      = (if (n + 1) % 8 = 0 then 0 else l1At mem q m l a n)
          + ∑ p : Fin 4096, eabs (gU mem q m l a (prow (n + 1) p)) := rfl

/-- The two cores' Σ g · q added are the sum over all the rows. -/
theorem accAt_total (a j : Fin 256) :
    accAt mem q m l a j 7 + accAt mem q m l a j 15 = ∑ t : Fin 65536, gU mem q m l a t * q t j := by
  have h1 := run_sum (accAt mem q m l a j) (fun n => ∑ p : Fin 4096, gU mem q m l a (prow n p) * q (prow n p) j)
    (accAt_zero mem q m l a j) (accAt_succ mem q m l a j) 0 rfl 7 (by norm_num)
  have h2 := run_sum (accAt mem q m l a j) (fun n => ∑ p : Fin 4096, gU mem q m l a (prow n p) * q (prow n p) j)
    (accAt_zero mem q m l a j) (accAt_succ mem q m l a j) 8 rfl 7 (by norm_num)
  have h1' : accAt mem q m l a j 7 = _ := h1
  have h2' : accAt mem q m l a j 15 = _ := h2
  rw [h1', h2']
  exact sum_two_halves (fun t => gU mem q m l a t * q t j)

/-- The two cores' Σ |g| added are the sum over all the rows. -/
theorem l1At_total (a : Fin 256) :
    l1At mem q m l a 7 + l1At mem q m l a 15 = ∑ t : Fin 65536, eabs (gU mem q m l a t) := by
  have h1 := run_sum (l1At mem q m l a) (fun n => ∑ p : Fin 4096, eabs (gU mem q m l a (prow n p)))
    (l1At_zero mem q m l a) (l1At_succ mem q m l a) 0 rfl 7 (by norm_num)
  have h2 := run_sum (l1At mem q m l a) (fun n => ∑ p : Fin 4096, eabs (gU mem q m l a (prow n p)))
    (l1At_zero mem q m l a) (l1At_succ mem q m l a) 8 rfl 7 (by norm_num)
  have h1' : l1At mem q m l a 7 = _ := h1
  have h2' : l1At mem q m l a 15 = _ := h2
  rw [h1', h2']
  exact sum_two_halves (fun t => eabs (gU mem q m l a t))

end Cert.MemSpec.Merge

end
-- ==== Proof.MergeFinal.lean ====
/-
  The blocked update equals the plain one.

  A softmax weight exp(s i - X) / Σ_j exp(s j - X) does not depend on the real point X the exponentials are taken
  relative to (both numerator and denominator carry the factor exp(Y - X) against the point Y). The blocked computation
  takes them relative to the merged maximum M with the merged sum Σ_t exp(s t - M), the plain one relative to the largest
  score; so the shrunk weights agree, the two cores' accumulators regroup to Σ_t g t · q t j and Σ_t |g t|, and with the
  positive real L = max(Σ_t |g t|, ε) the quotient (Σ_t g t · q t j) / L is Σ_t (g t / L) · q t j, all terms being real.
-/
import Mathlib
import Idealize.ShloMosaic.PureOps.Ideal
import proofs.«171355_j541165879332_2_alg».proof.Proof.Spec
import proofs.«171355_j541165879332_2_alg».proof.Proof.MergeReal
import proofs.«171355_j541165879332_2_alg».proof.Proof.MergeOnline
import proofs.«171355_j541165879332_2_alg».proof.Proof.MergeAcc

noncomputable section

open scoped BigOperators

namespace Cert.MemSpec.Merge

open Idealize.ShloMosaic

/-- A softmax weight does not depend on the reference point of its exponentials. -/
theorem soft_shift {ι : Type*} [Fintype ι] (x : ι → ℝ) (i : ι) (X Y : ℝ) :
    Real.exp (x i - X) / ∑ j, Real.exp (x j - X) = Real.exp (x i - Y) / ∑ j, Real.exp (x j - Y) := by
  have h1 : Real.exp (x i - X) = Real.exp (x i - Y) * Real.exp (Y - X) := by
    rw [← Real.exp_add, sub_add_sub_cancel]
  have h2 : ∑ j, Real.exp (x j - X) = (∑ j, Real.exp (x j - Y)) * Real.exp (Y - X) := by
    rw [Finset.sum_mul]
    exact Finset.sum_congr rfl fun j _ => by rw [← Real.exp_add, sub_add_sub_cancel]
  rw [h1, h2, mul_div_mul_right _ _ (Real.exp_pos _).ne']

/-- A sum of exponentials over the 65536 rows is not zero. -/
theorem sum_exp_ne_zero (x : Fin 65536 → ℝ) (X : ℝ) : (∑ j, Real.exp (x j - X)) ≠ 0 :=
  (Finset.sum_pos (fun j _ => Real.exp_pos (x j - X)) Finset.univ_nonempty).ne'

/-- The softmax weight of real scores taken relative to a real point X, at the extended reals, is the real quotient. -/
theorem soft_at_coe (x : Fin 65536 → ℝ) (t : Fin 65536) (X : ℝ) :
    Ideal.div (Ideal.exp ((x t : EReal) - (X : EReal))) (∑ j, Ideal.exp ((x j : EReal) - (X : EReal)))
      = ((Real.exp (x t - X) / ∑ j, Real.exp (x j - X) : ℝ) : EReal) := by
  rw [exp_sub_coe, sum_exp_sub_coe, div_coe _ (sum_exp_ne_zero x X)]

/-- The blocked computation's shrunk weight, formed from the merged maximum and the merged sum, is the plain shrunk
    softmax weight. -/
theorem gU_eq_shr (mem : Fin 256 → Fin 256 → EReal) (q : Fin 65536 → Fin 256 → EReal) (a : Fin 256)
    (sr : Fin 65536 → ℝ) (hs : ∀ t, score mem q a t = (sr t : EReal)) (t : Fin 65536) :
    gU mem q (mMerged mem q) (lMerged mem q) a t = shr (score mem q a) t := by
  obtain ⟨M, hM, hL⟩ := merged_eq mem q a sr hs
  obtain ⟨R, hR⟩ := rowMax_isR (score mem q a) fun t => ⟨sr t, hs t⟩
  have hfun : score mem q a = fun t => ((sr t : ℝ) : EReal) := funext hs
  unfold gU shr soft
  rw [hM, hL, hR, hfun, ← sum_exp_sub_coe, soft_at_coe sr t M, soft_at_coe sr t R, soft_shift sr t M R]

/-- The plain shrunk softmax weight of real scores is real. -/
theorem shr_isR (x : Fin 65536 → ℝ) (t : Fin 65536) : IsR (shr (fun t => ((x t : ℝ) : EReal)) t) := by
  obtain ⟨R, hR⟩ := rowMax_isR (fun t => ((x t : ℝ) : EReal)) fun t => isR_coe (x t)
  unfold shr soft
  rw [hR, soft_at_coe x t R]
  exact shrink_isR (isR_coe _)

/-- THE BLOCKED UPDATE EQUALS THE PLAIN ONE, for real memory and real queries. -/
theorem addMemBlocked_eq (mem : Fin 256 → Fin 256 → EReal) (q : Fin 65536 → Fin 256 → EReal)
    (hmem : ∀ a k, ∃ r : ℝ, mem a k = (r : EReal)) (hq : ∀ t k, ∃ r : ℝ, q t k = (r : EReal)) (a j : Fin 256) :
    MemSpec.addMemBlocked mem q a j = MemSpec.addMem mem q a j := by
  have hsc : ∀ t, IsR (score mem q a t) := score_isR mem q hmem hq a
  choose sr hs using hsc
  have hfun : score mem q a = fun t => ((sr t : ℝ) : EReal) := funext hs
  have hshr : ∀ t, IsR (shr (score mem q a) t) := fun t => by rw [hfun]; exact shr_isR sr t
  choose g hg using hshr
  choose qr hqr using fun t => hq t j
  obtain ⟨L, hLpos, hL⟩ := max_eps_isPos (isR_sum Finset.univ (fun t => eabs (shr (score mem q a) t))
    fun t _ => IsR.eabs ⟨g t, hg t⟩)
  unfold addMemBlocked addMem attn l1
  rw [accAt_total, l1At_total]
  simp only [gU_eq_shr mem q a sr hs]
  rw [hL]
  simp only [hg, hqr, div_coe _ hLpos.ne', ← EReal.coe_mul]
  rw [← coe_sum, ← coe_sum, div_coe _ hLpos.ne', Finset.sum_div]
  exact congrArg _ (Finset.sum_congr rfl fun t _ => (div_mul_eq_mul_div (g t) L (qr t)).symm)

end Cert.MemSpec.Merge

end
-- ==== Proof.UpdateB.lean ====
/-
  The memory's addition as the kernel forms it is the specification's: the second region leaves, for core cc, the
  accumulators Σ g · q and Σ |g| after that core's last tile, computed from the merged maximum and sum; the host
  operations after it add the two cores' parts and divide; and, the query and memory entries being real numbers,
  the blocked computation equals the plain one.
-/
import proofs.«171355_j541165879332_2_alg».proof.Proof.HostC
import proofs.«171355_j541165879332_2_alg».proof.Proof.UpdateA
import proofs.«171355_j541165879332_2_alg».proof.Proof.AccumValue
import proofs.«171355_j541165879332_2_alg».proof.Proof.MergeFinal

set_option maxRecDepth 16384

noncomputable section

namespace Cert.KernelIdeal.UpdateValue

open Cert.KernelIdeal Cert.KernelIdeal.Gen Idealize.ShloMosaic Idealize.ShloMosaic.TcCoe Idealize.SL.Sem
open Idealize.ShloMosaic.ValueIdx Cert Cert.KernelIdeal.HostValue

variable (m : (ℓ : Loc nD τ sig) → Buf (Elt Ideal) ℓ) (ρ : Dev nD → PrngReg)

/-- Core cc's accumulator Σ g · q (row a, feature j), as the second region leaves it. -/
theorem v18_0_apply (c : Dev nD) (cc : Fin 2) (a j : Fin 256) :
    rd S2x256x256 (W4 m ρ c (Proc.devRef .tc main_v18_0)) (ix3 cc a j)
      = MemSpec.accAt (Mk m c) (Qk m ρ c) (MemSpec.mMerged (Mk m c) (Qk m ρ c)) (MemSpec.lMerged (Mk m c) (Qk m ρ c)) a j (8 * cc.val + 7) := by
  have h := AccumValue.acc_apply (V3 m ρ) c cc a j
  rw [V3_arg1 m ρ c, V3_v0 m ρ c] at h
  rw [← merged_m m ρ c, ← merged_l m ρ c]
  exact (congrFun (W4_arr m ρ c 4) (ix3 cc a j)).trans h

/-- Core cc's norm sum Σ |g| (row a), as the second region leaves it. -/
theorem v18_1_apply (c : Dev nD) (cc : Fin 2) (a : Fin 256) :
    rd S2x256x1 (W4 m ρ c (Proc.devRef .tc main_v18_1)) (ix3 cc a 0)
      = MemSpec.l1At (Mk m c) (Qk m ρ c) (MemSpec.mMerged (Mk m c) (Qk m ρ c)) (MemSpec.lMerged (Mk m c) (Qk m ρ c)) a (8 * cc.val + 7) := by
  have h := AccumValue.l1_apply (V3 m ρ) c cc a
  rw [V3_arg1 m ρ c, V3_v0 m ρ c] at h
  rw [← merged_m m ρ c, ← merged_l m ρ c]
  exact (congrFun (W4_arr m ρ c 5) (ix3 cc a 0)).trans h

/-- The kernel's addition to the memory is the blocked form of the specification. -/
theorem addMem_blocked (c : Dev nD) (a j : Fin 256) :
    addMemOf (rd S2x256x256 (W4 m ρ c (Proc.devRef .tc main_v18_0))) (rd S2x256x1 (W4 m ρ c (Proc.devRef .tc main_v18_1))) (ix2 a j)
      = MemSpec.addMemBlocked (Mk m c) (Qk m ρ c) a j := by
  rw [addMemOf_apply, v18_0_apply, v18_0_apply, v18_1_apply, v18_1_apply]
  rfl

/-- For real query and memory entries it is the plain addition. -/
theorem addMem_plain (c : Dev nD) (hM : ∀ a k, ∃ r : ℝ, Mk m c a k = (r : EReal)) (hQ : ∀ t k, ∃ r : ℝ, Qk m ρ c t k = (r : EReal))
    (a j : Fin 256) :
    addMemOf (rd S2x256x256 (W4 m ρ c (Proc.devRef .tc main_v18_0))) (rd S2x256x1 (W4 m ρ c (Proc.devRef .tc main_v18_1))) (ix2 a j)
      = MemSpec.addMem (Mk m c) (Qk m ρ c) a j :=
  (addMem_blocked m ρ c a j).trans (MemSpec.Merge.addMemBlocked_eq (Mk m c) (Qk m ρ c) hM hQ a j)

end Cert.KernelIdeal.UpdateValue

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.Finite.lean ====
/-
  Under the precondition "every float input is finite" the entries of the query array and of the memory array are real
  numbers. The predicate is a conjunction of six "all entries have absolute value below +infinity" tests, one per input;
  the first two conjuncts are the query's and the memory's, and an extended real whose absolute value is below the top is
  neither infinity. (The other four inputs enter both programs through one and the same chain of operations, so nothing
  is needed of them.)
-/
import proofs.«171355_j541165879332_2_alg».proof.Defs
import proofs.«171355_j541165879332_2_alg».proof.Proof.LibRealEntries
import Idealize.ShloMosaic.Lib.ReduceAll
import Idealize.ShloMosaic.Lib.ValueIdx
import Idealize.ShloMosaic.Lib.Affine

noncomputable section

namespace Cert.FiniteInputs

open Idealize.ShloMosaic Idealize.ShloMosaic.ValueIdx Cert.Pre_finite_inputs

variable [hP : Cert.Pre_finite_inputs.Facts]

/-- If the finiteness predicate of the six inputs is all ones, every entry of the first (the query) and of the second
    (the memory) is a real number. -/
theorem real_query_mem (a0 : FVec Ideal S8x8192x256 .f32) (a1 a2 : FVec Ideal S256x256 .f32) (a3 : FVec Ideal S256 .f32)
    (a4 : FVec Ideal S256x256 .f32) (a5 : FVec Ideal S256 .f32)
    (h : Cert.Pre_finite_inputs.fn (F := Ideal) a0 a1 a2 a3 a4 a5 = fun _ => 1#1) :
    Cert.RealEntries.AllReal a0 ∧ Cert.RealEntries.AllReal a1 := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, h6⟩ := IntOp.andi_eq_one.1 h4
  exact ⟨Cert.RealEntries.allReal_of_reduce _ _ _ _ a0 _ ValueIdx.ix0 h5,
         Cert.RealEntries.allReal_of_reduce _ _ _ _ a1 _ ValueIdx.ix0 h6⟩

end Cert.FiniteInputs

end
-- ==== Proof.ReadOps.lean ====
/-
  The non-pointwise operations of the read kernel's body, each read at an index over the extended reals:
  the lane maximum from -inf as the supremum of a row, the lane sum as the sum of a row, the [2048] to [2048, 1]
  cast and the [2048, 1] to [2048, 256] broadcast as "the row's one value", and the two matrix products as sums over
  the contracted coordinate (the scores contract the feature axis of both operands; the read contracts the weights'
  memory axis against the memory's row axis).
-/
import proofs.«171355_j541165879332_2_alg».proof.Proof.Gen.KernelIdeal.Skeleton
import proofs.«171355_j541165879332_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.ReadValue

open Cert.KernelIdeal Cert.KernelIdeal.Gen Idealize.ShloMosaic Idealize.ShloMosaic.TcCoe Idealize.SL.Sem Idealize.ShloMosaic.ValueIdx Cert

/-- The f32 word of -inf is the bottom extended real. -/
theorem ofBits_neg_inf : Ideal.ofBits .f32 0xFF800000#32 = (⊥ : EReal) := by
  simp [Ideal.ofBits, Ideal.ieee]

/-- Index (p, k) of a [2048, 256] block is what the lane reduction inserts coordinate k into row p for. -/
theorem lift_row (h : S2048x256.Reduces [1] S2048) (p : Fin 2048) (k : Fin 256) :
    h.lift (ix1 p) k = ix2 p k := by
  funext c
  apply Fin.ext
  match c with
  | ⟨0, _⟩ => rfl
  | ⟨1, _⟩ => rfl

/-- A lane sum of a [2048, 256] block at row p: the sum of the row's 256 entries. -/
theorem rowSum_apply (v : FVec Ideal S2048x256 .f32) (h : S2048x256.Reduces [1] S2048) (hφ : FKind.Formats .f32)
    (hacc : (0x00000000#32 : BitVec 32) = FKind.add.neutral .f32 hφ) (p : Fin 2048) :
    multiReduction .add [1] S2048 v 0x00000000#32 h hφ hacc (ix1 p) = ∑ k : Fin 256, v (ix2 p k) := by
  refine (Ideal.multiReduction_add_single v 0x00000000#32 h hφ hacc (ix1 p)).trans ?_
  exact Finset.sum_congr rfl fun k _ => congrArg v (lift_row h p k)

/-- A lane maximum of a [2048, 256] block from -inf at row p: the supremum of the row's 256 entries. -/
theorem rowMax_apply (v : FVec Ideal S2048x256 .f32) (h : S2048x256.Reduces [1] S2048) (hφ : FKind.Formats .f32)
    (hacc : (0xFF800000#32 : BitVec 32) = FKind.maximumf.neutral .f32 hφ) (p : Fin 2048) :
    multiReduction .maximumf [1] S2048 v 0xFF800000#32 h hφ hacc (ix1 p) = Finset.univ.sup fun k : Fin 256 => v (ix2 p k) := by
  refine (Ideal.multiReduction_maximumf_single v 0xFF800000#32 h hφ hacc (ix1 p)).trans ?_
  show (Finset.univ : Finset (Fin 256)).fold max (Ideal.ofBits .f32 0xFF800000#32) (v ∘ h.lift (ix1 p)) = _
  rw [ofBits_neg_inf]
  have e : (v ∘ h.lift (ix1 p)) = fun k : Fin 256 => v (ix2 p k) := funext fun k => congrArg v (lift_row h p k)
  rw [e]
  rfl

/-- A [2048] vector cast to a [2048, 1] column reads, at (p, u), the vector at p. -/
theorem colCast_apply {α : Type} (x : S2048.Idx → α) (h : S2048.ShapeCasts S2048x1) (p : Fin 2048) (u : Fin 1) :
    shapeCast S2048x1 x h (ix2 p u) = x (ix1 p) :=
  shapeCast_apply x h _ _ (by
    have hu : u.val = 0 := by omega
    rw [Shape.rowMajor_val_two, Shape.rowMajor_val_one]
    show p.val = p.val * 1 + u.val
    omega)

/-- A [2048, 1] column broadcast along the lanes reads, at (p, a), the column at p. -/
theorem colBcast_apply {α : Type} (x : S2048x1.Idx → α) (h : S2048x1.Broadcasts S2048x256) (p : Fin 2048) (a : Fin 256) :
    broadcastTo S2048x256 x h (ix2 p a) = x (ix2 p (0 : Fin 1)) := by
  refine broadcastTo_apply x h (ix2 p a) (ix2 p (0 : Fin 1)) fun ax => ?_
  match ax with
  | ⟨0, _⟩ => rfl
  | ⟨1, _⟩ => rfl

/-! ## The two matrix products at an index -/

theorem lhsA_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhsA_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem rhsA_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhsA_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- The score product, contracting the feature axis of both operands, at (p, a): row p of the left operand against
    row a of the right. -/
theorem scores_apply (prec : Option ContractPrecision) (x : FVec Ideal S2048x256 .f32) (y : FVec Ideal S256x256 .f32) (p : Fin 2048) (a : Fin 256) :
    matmul dot_S2048x256_S256x256_S2048x256_1_1_0_0_n_n prec x y (constant S2048x256 .f32 0x00000000#32) (ix2 p a)
      = ∑ k : Fin 256, x (ix2 p k) * y (ix2 a k) := by
  simp only [matmul]
  rw [Ideal.matmul_constant_zero_apply, ← Equiv.sum_comp (ValueIdx.contrEquiv1 dot_S2048x256_S256x256_S2048x256_1_1_0_0_n_n 256 rfl rfl).symm]
  refine Finset.sum_congr rfl fun k _ => ?_
  have hk := ValueIdx.contrEquiv1_symm_val dot_S2048x256_S256x256_S2048x256_1_1_0_0_n_n 256 rfl rfl k
  have el : dot_S2048x256_S256x256_S2048x256_1_1_0_0_n_n.lhsIdx (ix2 p a) ((ValueIdx.contrEquiv1 dot_S2048x256_S256x256_S2048x256_1_1_0_0_n_n 256 rfl rfl).symm k) = ix2 p k := funext fun c => Fin.ext (by
    match c with
    | ⟨0, _⟩ => exact lhsA_0 _ _
    | ⟨1, _⟩ => exact (lhsA_1 _ _).trans hk)
  have er : dot_S2048x256_S256x256_S2048x256_1_1_0_0_n_n.rhsIdx (ix2 p a) ((ValueIdx.contrEquiv1 dot_S2048x256_S256x256_S2048x256_1_1_0_0_n_n 256 rfl rfl).symm k) = ix2 a k := funext fun c => Fin.ext (by
    match c with
    | ⟨0, _⟩ => exact rhsA_0 _ _
    | ⟨1, _⟩ => exact (rhsA_1 _ _).trans hk)
  rw [el, er]

theorem lhsB_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhsB_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhsB_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhsB_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The read product (left axis 1 against right axis 0) at (p, j): row p of the weights against column j of the memory. -/
theorem readProd_apply (prec : Option ContractPrecision) {φ₁ φ₂ : FTy} (x : FVec Ideal S2048x256 φ₁) (y : FVec Ideal S256x256 φ₂) (p : Fin 2048) (j : Fin 256) :
    matmul dot_S2048x256_S256x256_S2048x256_1_0_0_1_n_n prec x y (constant S2048x256 .f32 0x00000000#32) (ix2 p j)
      = ∑ a : Fin 256, x (ix2 p a) * y (ix2 a j) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p j) ((ValueIdx.contrEquiv1 dot_S2048x256_S256x256_S2048x256_1_0_0_1_n_n 256 rfl rfl).symm k) = ix2 p k := funext fun c => Fin.ext (by
    match c with
    | ⟨0, _⟩ => exact lhsB_0 _ _
    | ⟨1, _⟩ => exact (lhsB_1 _ _).trans hk)
  have er : dot_S2048x256_S256x256_S2048x256_1_0_0_1_n_n.rhsIdx (ix2 p j) ((ValueIdx.contrEquiv1 dot_S2048x256_S256x256_S2048x256_1_0_0_1_n_n 256 rfl rfl).symm k) = ix2 k j := funext fun c => Fin.ext (by
    match c with
    | ⟨0, _⟩ => exact (rhsB_0 _ _).trans hk
    | ⟨1, _⟩ => exact rhsB_1 _ _)
  rw [el, er]

end Cert.KernelIdeal.ReadValue
end
-- ==== Proof.ReadBody.lean ====
/-
  The read kernel's arithmetic on one block of 2048 query rows, at an index. With s the block's scores against the
  memory (row p, memory row a: the inner product of query row p and memory row a), the stored weights at (p, a) are
  attn (s p ·) a of the specification — softmax of the row, hard shrink, division by the clamped L1 norm of the row —
  and the read at (p, j) is the sum over memory rows a of that weight times the memory's entry (a, j). The payload is
  first regrouped into stages (row maximum, exponentials, softmax, shrink, normalisation), each a function of the
  block of scores, and each stage is read at an index from the one before.
-/
import proofs.«171355_j541165879332_2_alg».proof.Proof.ReadOps
import proofs.«171355_j541165879332_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.ReadValue

open Cert.KernelIdeal Cert.KernelIdeal.Gen Idealize.ShloMosaic Idealize.ShloMosaic.TcCoe Idealize.SL.Sem Idealize.ShloMosaic.ValueIdx Cert

/-! ## The weights of one block, as a function of the block's scores -/

/-- Each row's maximum, spread along the row. -/
def rmaxB (v : FVec Ideal S2048x256 .f32) : FVec Ideal S2048x256 .f32 :=
  broadcastTo S2048x256 (shapeCast S2048x1 (multiReduction .maximumf [1] S2048 v 0xFF800000#32 reduces_S2048x256_S2048 (.inl rfl) rfl) shapeCasts_S2048_S2048x1) broadcasts_S2048x1_S2048x256

theorem rmaxB_apply (v : FVec Ideal S2048x256 .f32) (p : Fin 2048) (a : Fin 256) :
    rmaxB v (ix2 p a) = Finset.univ.sup fun k : Fin 256 => v (ix2 p k) :=
  (colBcast_apply _ _ p a).trans ((colCast_apply _ _ p 0).trans (rowMax_apply v _ _ _ p))

/-- Each row's sum, as a [2048, 1] column. -/
def rsumC (v : FVec Ideal S2048x256 .f32) : FVec Ideal S2048x1 .f32 :=
  shapeCast S2048x1 (multiReduction .add [1] S2048 v 0x00000000#32 reduces_S2048x256_S2048 (.inl rfl) rfl) shapeCasts_S2048_S2048x1

theorem rsumC_apply (v : FVec Ideal S2048x256 .f32) (p : Fin 2048) (u : Fin 1) :
    rsumC v (ix2 p u) = ∑ k : Fin 256, v (ix2 p k) :=
  (colCast_apply _ _ p u).trans (rowSum_apply v _ _ _ p)

/-- exp(s - row maximum). -/
def expV (v : FVec Ideal S2048x256 .f32) : FVec Ideal S2048x256 .f32 := exp (subf v (rmaxB v))

theorem expV_apply (v : FVec Ideal S2048x256 .f32) (p : Fin 2048) (a : Fin 256) :
    expV v (ix2 p a) = Ideal.exp (v (ix2 p a) - MemSpec.rowMax fun k : Fin 256 => v (ix2 p k)) := by
  show Ideal.exp (v (ix2 p a) - rmaxB v (ix2 p a)) = _
  rw [rmaxB_apply]
  rfl

/-- The softmax weights of each row. -/
def softV (v : FVec Ideal S2048x256 .f32) : FVec Ideal S2048x256 .f32 :=
  divf (expV v) (broadcastTo S2048x256 (rsumC (expV v)) broadcasts_S2048x1_S2048x256)

theorem softV_apply (v : FVec Ideal S2048x256 .f32) (p : Fin 2048) (a : Fin 256) :
    softV v (ix2 p a) = MemSpec.soft (fun k : Fin 256 => v (ix2 p k)) a := by
  show Ideal.div (expV v (ix2 p a)) (broadcastTo S2048x256 (rsumC (expV v)) broadcasts_S2048x1_S2048x256 (ix2 p a)) = _
  rw [colBcast_apply, rsumC_apply, expV_apply]
  unfold MemSpec.soft
  exact congrArg _ (Finset.sum_congr rfl fun k _ => expV_apply v p k)

/-- The shrunk softmax weights. -/
def shrV (v : FVec Ideal S2048x256 .f32) : FVec Ideal S2048x256 .f32 :=
  divf (mulf (maximumf (subf (softV v) (broadcast S2048x256 (Scalar.ofBits .f32 0x3B23D70A#32)))
      (broadcast S2048x256 (Scalar.ofBits .f32 0x00000000#32))) (softV v))
    (addf (absf (subf (softV v) (broadcast S2048x256 (Scalar.ofBits .f32 0x3B23D70A#32))))
      (broadcast S2048x256 (Scalar.ofBits .f32 0x2B8CBCCC#32)))

theorem shrV_apply (v : FVec Ideal S2048x256 .f32) (p : Fin 2048) (a : Fin 256) :
    shrV v (ix2 p a) = MemSpec.shr (fun k : Fin 256 => v (ix2 p k)) a := by
  show Ideal.div (max (softV v (ix2 p a) - Ideal.ofBits .f32 0x3B23D70A#32) (Ideal.ofBits .f32 0x00000000#32) * softV v (ix2 p a))
      (max (softV v (ix2 p a) - Ideal.ofBits .f32 0x3B23D70A#32) (-(softV v (ix2 p a) - Ideal.ofBits .f32 0x3B23D70A#32)) + Ideal.ofBits .f32 0x2B8CBCCC#32) = _
  rw [softV_apply, Ideal.ofBits_zero_f32]
  rfl

/-- The normalised shrunk weights: each row over the clamped sum of its absolute values. -/
def attnV (v : FVec Ideal S2048x256 .f32) : FVec Ideal S2048x256 .f32 :=
  divf (shrV v) (broadcastTo S2048x256 (maximumf (rsumC (absf (shrV v))) (broadcast S2048x1 (Scalar.ofBits .f32 0x2B8CBCCC#32)))
    broadcasts_S2048x1_S2048x256)

theorem attnV_apply (v : FVec Ideal S2048x256 .f32) (p : Fin 2048) (a : Fin 256) :
    attnV v (ix2 p a) = MemSpec.attn (fun k : Fin 256 => v (ix2 p k)) a := by
  show Ideal.div (shrV v (ix2 p a)) (broadcastTo S2048x256 (maximumf (rsumC (absf (shrV v))) (broadcast S2048x1 (Scalar.ofBits .f32 0x2B8CBCCC#32)))
    broadcasts_S2048x1_S2048x256 (ix2 p a)) = _
  rw [colBcast_apply]
  show Ideal.div (shrV v (ix2 p a)) (max (rsumC (absf (shrV v)) (ix2 p (0 : Fin 1))) (Ideal.ofBits .f32 0x2B8CBCCC#32)) = _
  rw [rsumC_apply, shrV_apply]
  unfold MemSpec.attn MemSpec.l1
  refine congrArg (fun z => Ideal.div _ (max z _)) (Finset.sum_congr rfl fun k _ => ?_)
  show max (shrV v (ix2 p k)) (-(shrV v (ix2 p k))) = _
  rw [shrV_apply]
  rfl

/-- The weights payload is attnV of the score product of its two blocks. -/
theorem pay3_eq (x0 : FVec Ideal S2048x256 .f32) (x1 : FVec Ideal S256x256 .f32) :
    k2_pay3 (F := Ideal) x0 x1 = attnV (matmul dot_S2048x256_S256x256_S2048x256_1_1_0_0_n_n (some .fp32) x0 x1 (constant S2048x256 .f32 0x00000000#32)) := by
  unfold k2_pay3 k2_pay1 k2_pay2
  rw [shapeCast_self, shapeCast_self]
  rfl

/-- The weights of row p of a block, entry a. -/
theorem pay3_apply (x0 : FVec Ideal S2048x256 .f32) (x1 : FVec Ideal S256x256 .f32) (p : Fin 2048) (a : Fin 256) :
    k2_pay3 (F := Ideal) x0 x1 (ix2 p a) = MemSpec.attn (fun a' : Fin 256 => ∑ k : Fin 256, x0 (ix2 p k) * x1 (ix2 a' k)) a := by
  rw [pay3_eq, attnV_apply]
  exact congrArg (fun s => MemSpec.attn s a) (funext fun a' => scores_apply _ x0 x1 p a')

/-- What the block reads from the memory: row p, feature j. -/
theorem pay4_apply (x0 : FVec Ideal S2048x256 .f32) (x1 : FVec Ideal S256x256 .f32) (p : Fin 2048) (j : Fin 256) :
    k2_pay4 (F := Ideal) x0 x1 (ix2 p j) = ∑ a : Fin 256, k2_pay3 (F := Ideal) x0 x1 (ix2 p a) * x1 (ix2 a j) := by
  unfold k2_pay4 k2_pay2
  rw [shapeCast_self]
  exact readProd_apply none _ _ p j

theorem pay1_eq (x0 : FVec Ideal S2048x256 .f32) : k2_pay1 (F := Ideal) x0 = x0 := by
  unfold k2_pay1
  rw [shapeCast_self]

end Cert.KernelIdeal.ReadValue
end
-- ==== Proof.ReadOut.lean ====
/-
  What the read kernel's body leaves in its two output buffers, at an index, given what its two input blocks hold:
  if row p of the query block is query row r and the memory block is the new memory, then the weights buffer holds
  at (p, a) the read weight of query row r on memory row a, and the [2048, 512] buffer holds at (p, j) query row r's
  feature j for j < 256 (the first store, columns 0..255) and what row r reads from the memory, feature j - 256,
  otherwise (the second store, columns 256..511; the two column ranges are disjoint, so each index is read from the
  one store that holds it).
-/
import proofs.«171355_j541165879332_2_alg».proof.Proof.Gen.KernelIdeal.Frame
import proofs.«171355_j541165879332_2_alg».proof.Proof.ReadBody
import Idealize.ShloMosaic.Lib.Pipeline.Value

noncomputable section

open scoped BigOperators

open Idealize.ShloMosaic.Pipeline (Dat)

namespace Cert.KernelIdeal.ReadValue

open Cert.KernelIdeal Cert.KernelIdeal.Gen Idealize.ShloMosaic Idealize.ShloMosaic.TcCoe Idealize.SL.Sem Idealize.ShloMosaic.ValueIdx Cert

theorem hz2 : (![0, 0] : Fin 2 → Nat) = fun _ => 0 := funext fun a => by fin_cases a <;> rfl

/-! ## One block, given what its two input blocks hold -/

section Block

variable (x0 : FVec Ideal S2048x256 .f32) (x1 : FVec Ideal S256x256 .f32)
  (q : Fin 65536 → Fin 256 → EReal) (nm : Fin 256 → Fin 256 → EReal) (r : Fin 65536) (p : Fin 2048)
  (h0 : ∀ k : Fin 256, x0 (ix2 p k) = q r k) (h1 : ∀ a k : Fin 256, x1 (ix2 a k) = nm a k)

include h0 h1

/-- Row p of the weights block is the read weights of query row r, when row p of the query block is query row r and
    the memory block is the memory. -/
theorem blk_attn (a : Fin 256) : k2_pay3 (F := Ideal) x0 x1 (ix2 p a) = MemSpec.attnR q nm r a := by
  rw [pay3_apply]
  unfold MemSpec.attnR MemSpec.rscore
  exact congrArg (fun s => MemSpec.attn s a) (funext fun a' => Finset.sum_congr rfl fun k _ => by rw [h0, h1])

/-- Row p of the read block is what query row r reads. -/
theorem blk_read (j : Fin 256) : k2_pay4 (F := Ideal) x0 x1 (ix2 p j) = MemSpec.addMemory q nm r j := by
  rw [pay4_apply]
  unfold MemSpec.addMemory
  exact Finset.sum_congr rfl fun a _ => by rw [blk_attn x0 x1 q nm r p h0 h1 a, h1]

/-- The weights output's buffer after the body: its one store, of the weights. -/
theorem out2_3_val (a : Fin 256) : out2_3 (F := Ideal) x0 x1 (ix2 p a) = MemSpec.attnR q nm r a := by
  unfold out2_3
  rw [View.canon_unit_zero hz2]
  simp only [View.ld_unit_zero (S := S2048x256) hz2, View.ld_unit_zero (S := S256x256) hz2]
  exact blk_attn x0 x1 q nm r p h0 h1 a

/-- The query-and-read output's buffer after the body: columns 0..255 hold the query block (the earlier store),
    columns 256..511 the read (the later store); the two rectangles do not meet. -/
theorem out2_2_val (j : Fin 512) : out2_2 (F := Ideal) x0 x1 (ix2 p j) = MemSpec.readQuery q nm r j := by
  unfold out2_2
  simp only [View.ld_unit_zero (S := S2048x256) hz2, View.ld_unit_zero (S := S256x256) hz2]
  rw [pay1_eq]
  unfold MemSpec.readQuery
  by_cases h : j.val < 256
  · rw [dif_pos h]
    have hn : (ix2 p j : S2048x512.Idx) ∉ r2_3.set := by
      rw [Rect.mem_set_unit]
      intro hm
      have h1' := (hm 1).1
      have : (256 : ℕ) ≤ j.val := h1'
      omega
    refine (View.canon_cons_of_not_mem (⟨r2_3, k2_pay4 (F := Ideal) x0 x1⟩ : View.Piece (Elt Ideal) S2048x512 .f32) [⟨r2_2, x0⟩] hn).trans ?_
    have e : (ix2 p j : S2048x512.Idx) = r2_2.emb (ix2 p (⟨j.val, h⟩ : Fin 256) : S2048x256.Idx) := funext fun a => Fin.ext (by
      match a with
      | ⟨0, _⟩ => show p.val = 0 + 1 * p.val; omega
      | ⟨1, _⟩ => show j.val = 0 + 1 * j.val; omega)
    rw [e]
    exact (View.canon_cons_emb (Val := Elt Ideal) (s := S2048x512) (e := .f32) r2_2 x0 [] (ix2 p (⟨j.val, h⟩ : Fin 256) : S2048x256.Idx)).trans (h0 ⟨j.val, h⟩)
  · rw [dif_neg h]
    have e : (ix2 p j : S2048x512.Idx) = r2_3.emb (ix2 p (⟨j.val - 256, by omega⟩ : Fin 256) : S2048x256.Idx) := funext fun a => Fin.ext (by
      match a with
      | ⟨0, _⟩ => show p.val = 0 + 1 * p.val; omega
      | ⟨1, _⟩ => show j.val = 256 + 1 * (j.val - 256); omega)
    rw [e]
    exact (View.canon_cons_emb (Val := Elt Ideal) (s := S2048x512) (e := .f32) r2_3 (k2_pay4 (F := Ideal) x0 x1) [⟨r2_2, x0⟩] (ix2 p (⟨j.val - 256, by omega⟩ : Fin 256) : S2048x256.Idx)).trans
      (blk_read x0 x1 q nm r p h0 h1 ⟨j.val - 256, by omega⟩)

end Block

end Cert.KernelIdeal.ReadValue
end
-- ==== Proof.ReadValue.lean ====
/-
  The two output arrays of the read region, as functions of the query array and the new memory, index by index.
  The grid has 32 points; at point t the query window holds rows t·2048 … t·2048 + 2047 of the query array, the
  memory window holds the whole new memory, and the two output windows are written back to block row t of their
  arrays. So what point t writes back is block t of one function of the whole arrays (the body's values at an
  index, with row p of the block being query row t·2048 + p); row r of either output array lies in the block of
  point r / 2048, so the blocks cover the arrays and each array ends equal to its function: entry (t, j) of the
  [65536, 512] array is query row t beside what it reads, entry (t, a) of the [65536, 256] array is the read
  weight of query row t on memory row a.
-/
import proofs.«171355_j541165879332_2_alg».proof.Proof.Gen.KernelIdeal.Frame
import proofs.«171355_j541165879332_2_alg».proof.Proof.ReadOut
import Idealize.ShloMosaic.Lib.Pipeline.Value

noncomputable section

open scoped BigOperators

open Idealize.ShloMosaic.Pipeline (Dat)

namespace Cert.KernelIdeal.ReadValue

open Cert.KernelIdeal Cert.KernelIdeal.Gen Idealize.ShloMosaic Idealize.ShloMosaic.TcCoe Idealize.SL.Sem Idealize.ShloMosaic.ValueIdx Cert

variable (V : (c : Dev nD) → (b : Ref sig .tc) → Buf (Elt Ideal) ((c : Thread nD τ).loc b))

/-! ## The blocks of the region's windows -/

/-- The printed index maps over the 32 grid points: the three row-blocked windows sit at block row t, column block 0;
    the memory window is the whole memory. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Query row number p of block t. -/
def rowOf (t : Fin cfg2.N) (p : Fin 2048) : Fin 65536 :=
  ⟨t.val * 2048 + p.val, by have := t.isLt; have h : cfg2.N = 32 := N_2; omega⟩

/-- Block t of the query window, row p, is query row t·2048 + p. -/
theorem iblk0_apply (c : Dev nD) (t : Fin cfg2.N) (p : Fin 2048) (k : Fin 256) :
    (iblk2 V c 0 t : Vec Ideal S2048x256 .f32) (ix2 p k) = MemSpec.mat (V c main_v0) (rowOf t p) k := by
  obtain ⟨e0, e1, -⟩ := idx_facts t
  unfold iblk2
  rw [View.read_apply]
  show V c main_v0 _ = V c main_v0 _
  refine congrArg (V c main_v0) (funext fun a => Fin.ext ?_)
  match a with
  | ⟨0, _⟩ => show win2_0.index t (0 : Fin 2) * 2048 + 1 * p.val = t.val * 2048 + p.val; rw [e0]; omega
  | ⟨1, _⟩ => show win2_0.index t (1 : Fin 2) * 256 + 1 * k.val = k.val; rw [e1]; omega

/-- The memory window's block is the whole new memory at every point. -/
theorem iblk1_apply (c : Dev nD) (t : Fin cfg2.N) (a k : Fin 256) :
    (iblk2 V c 1 t : Vec Ideal S256x256 .f32) (ix2 a k) = MemSpec.mat (V c main_v54) a k := by
  obtain ⟨-, -, e0, e1, -⟩ := idx_facts t
  unfold iblk2
  rw [View.read_apply]
  show V c main_v54 _ = V c main_v54 _
  refine congrArg (V c main_v54) (funext fun b => Fin.ext ?_)
  match b with
  | ⟨0, _⟩ => show win2_1.index t (0 : Fin 2) * 256 + 1 * a.val = a.val; rw [e0]; omega
  | ⟨1, _⟩ => show win2_1.index t (1 : Fin 2) * 256 + 1 * k.val = k.val; rw [e1]; omega

/-! ## The two output arrays as functions of the query array and the new memory -/

/-- Output array 2: each query row beside what it reads. -/
def G2 (c : Dev nD) : S65536x512.Idx → EReal := fun i =>
  MemSpec.readQuery (MemSpec.mat (V c main_v0)) (MemSpec.mat (V c main_v54)) (i 0) (i 1)

/-- Output array 3: the read weights. -/
def G3 (c : Dev nD) : S65536x256.Idx → EReal := fun i =>
  MemSpec.attnR (MemSpec.mat (V c main_v0)) (MemSpec.mat (V c main_v54)) (i 0) (i 1)

/-- What point t writes back to output array 2 is block t of G2. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 (F := Ideal) V c).after 2 t) = _
  rw [after2_2]
  obtain ⟨-, -, -, -, e0, e1, -⟩ := idx_facts t
  funext y
  obtain ⟨p, j, rfl⟩ : ∃ (p : Fin 2048) (j : Fin 512), y = ix2 p j := ⟨y 0, y 1, eq_ix2 y⟩
  show out2_2 (F := Ideal) (iblk2 V c 0 t) (iblk2 V c 1 t) (ix2 p j) = G2 V c (((cfg2.win 2).blk t).view.emb (ix2 p j))
  have hemb : ((cfg2.win 2).blk t).view.emb (ix2 p j) = (ix2 (rowOf t p) j : S65536x512.Idx) := funext fun a => Fin.ext (by
    match a with
    | ⟨0, _⟩ => show win2_2.index t (0 : Fin 2) * 2048 + 1 * p.val = t.val * 2048 + p.val; rw [e0]; omega
    | ⟨1, _⟩ => show win2_2.index t (1 : Fin 2) * 512 + 1 * j.val = j.val; rw [e1]; omega)
  rw [hemb]
  exact out2_2_val (iblk2 V c 0 t) (iblk2 V c 1 t) (MemSpec.mat (V c main_v0)) (MemSpec.mat (V c main_v54)) (rowOf t p) p
    (fun k => iblk0_apply V c t p k) (fun a k => iblk1_apply V c t a k) j

/-- What point t writes back to output array 3 is block t of G3. -/
theorem flushed3_eq (c : Dev nD) (t : Fin cfg2.N) :
    (dat2 (F := Ideal) V c).flushed 3 t = ((cfg2.win 3).blk t).view.read (Elt Ideal) (G3 V c) := by
  show (cfg2.win 3).cut (grid2.coords t) ((dat2 (F := Ideal) V c).after 3 t) = _
  rw [after2_3]
  obtain ⟨-, -, -, -, -, -, e0, e1⟩ := idx_facts t
  funext y
  obtain ⟨p, a, rfl⟩ : ∃ (p : Fin 2048) (a : Fin 256), y = ix2 p a := ⟨y 0, y 1, eq_ix2 y⟩
  show out2_3 (F := Ideal) (iblk2 V c 0 t) (iblk2 V c 1 t) (ix2 p a) = G3 V c (((cfg2.win 3).blk t).view.emb (ix2 p a))
  have hemb : ((cfg2.win 3).blk t).view.emb (ix2 p a) = (ix2 (rowOf t p) a : S65536x256.Idx) := funext fun b => Fin.ext (by
    match b with
    | ⟨0, _⟩ => show win2_3.index t (0 : Fin 2) * 2048 + 1 * p.val = t.val * 2048 + p.val; rw [e0]; omega
    | ⟨1, _⟩ => show win2_3.index t (1 : Fin 2) * 256 + 1 * a.val = a.val; rw [e1]; omega)
  rw [hemb]
  exact out2_3_val (iblk2 V c 0 t) (iblk2 V c 1 t) (MemSpec.mat (V c main_v0)) (MemSpec.mat (V c main_v54)) (rowOf t p) p
    (fun k => iblk0_apply V c t p k) (fun a k => iblk1_apply V c t a k) a

/-! ## The blocks cover the arrays: row r is in block r / 2048 -/

theorem mem_blk2 (t : Fin cfg2.N) (i : S65536x512.Idx) :
    i ∈ ((cfg2.win 2).blk t).view.set ↔ ∀ a : Fin 2, win2_2.index t a * S2048x512.size a ≤ (i a).val ∧ (i a).val < win2_2.index t a * S2048x512.size a + S2048x512.size a := by
  show i ∈ ((View.whole main_v55_0).slice (win2_2.rect t)).set ↔ _
  rw [View.set_slice_whole, Rect.mem_set_unit]
  exact Iff.rfl

theorem mem_blk3 (t : Fin cfg2.N) (i : S65536x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v55_1).slice (win2_3.rect t)).set ↔ _
  rw [View.set_slice_whole, Rect.mem_set_unit]
  exact Iff.rfl

theorem covered2 (i : S65536x512.Idx) : ∃ t : Fin cfg2.N, (cfg2.win 2).flush t = true ∧ i ∈ ((cfg2.win 2).blk t).view.set := by
  have hi0 : (i 0).val < 65536 := (i 0).isLt
  have hi1 : (i 1).val < 512 := (i 1).isLt
  have hN : cfg2.N = 32 := N_2
  obtain ⟨t, ht⟩ : ∃ t : Fin cfg2.N, t.val = (i 0).val / 2048 := ⟨⟨(i 0).val / 2048, by rw [hN]; omega⟩, rfl⟩
  obtain ⟨-, -, -, -, e0, e1, -⟩ := idx_facts t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; rw [e0]; omega
  | ⟨1, _⟩ => show win2_2.index t (1 : Fin 2) * 512 ≤ (i 1).val ∧ (i 1).val < win2_2.index t (1 : Fin 2) * 512 + 512; rw [e1]; omega

theorem covered3 (i : S65536x256.Idx) : ∃ t : Fin cfg2.N, (cfg2.win 3).flush t = true ∧ i ∈ ((cfg2.win 3).blk t).view.set := by
  have hi0 : (i 0).val < 65536 := (i 0).isLt
  have hi1 : (i 1).val < 256 := (i 1).isLt
  have hN : cfg2.N = 32 := N_2
  obtain ⟨t, ht⟩ : ∃ t : Fin cfg2.N, t.val = (i 0).val / 2048 := ⟨⟨(i 0).val / 2048, by rw [hN]; omega⟩, rfl⟩
  obtain ⟨-, -, -, -, -, -, e0, e1⟩ := idx_facts t
  refine ⟨t, flush2_3 t, ?_⟩
  rw [mem_blk3]
  intro a
  match a with
  | ⟨0, _⟩ => show win2_3.index t (0 : Fin 2) * 2048 ≤ (i 0).val ∧ (i 0).val < win2_3.index t (0 : Fin 2) * 2048 + 2048; rw [e0]; omega
  | ⟨1, _⟩ => show win2_3.index t (1 : Fin 2) * 256 ≤ (i 1).val ∧ (i 1).val < win2_3.index t (1 : Fin 2) * 256 + 256; rw [e1]; omega

/-! ## The arrays after the region -/

theorem final2 (c : Dev nD) : (dat2 (F := Ideal) V c).arrAt 2 cfg2.N = G2 V c :=
  (dat2 (F := Ideal) V c).arrAt_eq_of_cover 2 (G2 V c) (fun t _ => flushed2_eq V c t) covered2

theorem final3 (c : Dev nD) : (dat2 (F := Ideal) V c).arrAt 3 cfg2.N = G3 V c :=
  (dat2 (F := Ideal) V c).arrAt_eq_of_cover 3 (G3 V c) (fun t _ => flushed3_eq V c t) covered3

/-- Output array 2 after the region, entry (t, j): query row t beside what it reads from the new memory. -/
theorem rq_apply (c : Dev nD) (t : Fin 65536) (j : Fin 512) :
    (dat2 (F := Ideal) V c).arrAt 2 cfg2.N (ix2 t j) = MemSpec.readQuery (MemSpec.mat (V c main_v0)) (MemSpec.mat (V c main_v54)) t j := by
  rw [final2]
  rfl

/-- Output array 3 after the region, entry (t, a): the read weight of query row t on memory row a. -/
theorem attn_apply (c : Dev nD) (t : Fin 65536) (a : Fin 256) :
    (dat2 (F := Ideal) V c).arrAt 3 cfg2.N (ix2 t a) = MemSpec.attnR (MemSpec.mat (V c main_v0)) (MemSpec.mat (V c main_v54)) t a := by
  rw [final3]
  rfl

end Cert.KernelIdeal.ReadValue
end
-- ==== Proof.RefSpecMax.lean ====
/-
  A maximum taken along one axis of a matrix, read at a row.

  The reference takes each row's largest entry by folding max along the row from the word of -∞. On the extended
  reals that word is ⊥, and a fold of max from ⊥ over all the entries of a row is the row's supremum. Two shapes occur:
  256 rows of 65536 entries (the update's scores, one row per memory row) and 65536 rows of 256 entries (the read's
  scores, one row per query row).
-/
import proofs.«171355_j541165879332_2_alg».proof.Proof.RefRead
import proofs.«171355_j541165879332_2_alg».proof.Proof.Spec

noncomputable section

open scoped BigOperators

namespace Cert.ReferenceIdeal.RefSpec

open Cert.ReferenceIdeal Cert.ReferenceIdeal.Gen Cert.ReferenceIdeal.ReadP Idealize.ShloMosaic Idealize.ShloMosaic.TcCoe Idealize.ShloMosaic.ValueIdx Cert

/-- The f32 word of -∞ denotes ⊥. -/
theorem ofBits_negInf : Ideal.ofBits .f32 0xFF800000#32 = (⊥ : EReal) := by
  simp [Ideal.ofBits, Ideal.ieee]

/-- A fold of max from ⊥ over every entry of a row is the row's largest entry. -/
theorem fold_max_bot {ι : Type} [Fintype ι] (f : ι → EReal) :
    (Finset.univ : Finset ι).fold max (⊥ : EReal) f = MemSpec.rowMax f := rfl

/-- The maximum along axis 1 of a [256, 65536] array at row a: the fold of max, from the initial value, over the
    row's 65536 entries. -/
theorem maxAxis1_wide (y : (⟨S256x65536, .f32⟩ : BufTy).Contents (Elt Ideal)) (init : (⟨S_, .f32⟩ : BufTy).Contents (Elt Ideal)) (a : Fin 256) :
    (Host.reduce (FloatOps.maximumf (F := Ideal) (φ := .f32)) y init reducesTo_S256x65536_S256_d1 h_S_ : (⟨S256, .f32⟩ : BufTy).Contents (Elt Ideal)) (ix1 a)
      = (Finset.univ : Finset (Fin 65536)).fold max (init (Shape.Idx.first h_S_)) (fun t => y (ix2 a t)) := by
  refine (Host.reduce_eq_fold_single (FloatOps.maximumf (F := Ideal) (φ := .f32)) y init reducesTo_S256x65536_S256_d1 (by decide) h_S_ (ix1 a)).trans ?_
  refine congrArg (fun f => Finset.fold max (init (Shape.Idx.first h_S_)) f (Finset.univ : Finset (Fin 65536))) (funext fun k => ?_)
  exact congrArg y (funext fun c => Fin.ext (by match c with | ⟨0, _⟩ => rfl | ⟨1, _⟩ => rfl))

/-- The maximum along axis 1 of a [65536, 256] array at row t: the fold of max, from the initial value, over the
    row's 256 entries. -/
theorem maxAxis1_narrow (y : (⟨S65536x256, .f32⟩ : BufTy).Contents (Elt Ideal)) (init : (⟨S_, .f32⟩ : BufTy).Contents (Elt Ideal)) (t : Fin 65536) :
    (Host.reduce (FloatOps.maximumf (F := Ideal) (φ := .f32)) y init reducesTo_S65536x256_S65536_d1 h_S_ : (⟨S65536, .f32⟩ : BufTy).Contents (Elt Ideal)) (ix1 t)
      = (Finset.univ : Finset (Fin 256)).fold max (init (Shape.Idx.first h_S_)) (fun a => y (ix2 t a)) := by
  refine (Host.reduce_eq_fold_single (FloatOps.maximumf (F := Ideal) (φ := .f32)) y init reducesTo_S65536x256_S65536_d1 (by decide) h_S_ (ix1 t)).trans ?_
  refine congrArg (fun f => Finset.fold max (init (Shape.Idx.first h_S_)) f (Finset.univ : Finset (Fin 256))) (funext fun k => ?_)
  exact congrArg y (funext fun c => Fin.ext (by match c with | ⟨0, _⟩ => rfl | ⟨1, _⟩ => rfl))

end Cert.ReferenceIdeal.RefSpec
-- ==== Proof.RefSpecUpdate.lean ====
/-
  The reference's memory update, read entry by entry, is the specification's addMem.

  The reference forms the scores mem · qᵀ (entry (a, t) the inner product of memory row a and query row t), takes along
  each memory row the softmax over the 65536 query rows (row maximum, exp of the difference, division by the row's sum
  of exponentials), hard-shrinks each weight p to relu(p - λ) · p / (|p - λ| + ε), divides each row by the larger of its
  L1 norm and ε, and multiplies the result by q. Each stage below is that stage at one entry, stated over the
  specification's functions of the score row; the last is the update itself, Σ_t attn(score a ·) t · q t j.
-/
import proofs.«171355_j541165879332_2_alg».proof.Proof.RefSpecMax

noncomputable section

open scoped BigOperators

namespace Cert.ReferenceIdeal.RefSpec

open Cert.ReferenceIdeal Cert.ReferenceIdeal.Gen Cert.ReferenceIdeal.ReadP Idealize.ShloMosaic Idealize.ShloMosaic.TcCoe Idealize.ShloMosaic.ValueIdx Cert

section Update

variable (x0 : (⟨S8x8192x256, .f32⟩ : BufTy).Contents (Elt Ideal)) (x1 : (⟨S256x256, .f32⟩ : BufTy).Contents (Elt Ideal))

/-- The scores: entry (a, t) of mem · qᵀ is the inner product of memory row a and query row t. -/
theorem upd_score (a : Fin 256) (t : Fin 65536) :
    val_main_v2 (F := Ideal) x0 x1 (ix2 a t)
      = MemSpec.score (MemSpec.mat x1) (MemSpec.mat (val_main_v0 (F := Ideal) x0)) a t := by
  rw [val_main_v2_apply]
  unfold MemSpec.score MemSpec.mat
  refine Finset.sum_congr rfl fun k _ => ?_
  have e1 : lidx_main_v2 (ix2 a t) k = ix2 a k :=
    funext fun c => Fin.ext (by match c with | ⟨0, _⟩ => rfl | ⟨1, _⟩ => rfl)
  have e2 : idx_main_v1 (ridx_main_v2 (ix2 a t) k) = ix2 t k :=
    funext fun c => Fin.ext (by match c with | ⟨0, _⟩ => rfl | ⟨1, _⟩ => rfl)
  rw [val_main_v1_apply, e1, e2]

/-- The largest score of memory row a. -/
theorem upd_max (a : Fin 256) :
    val_main_v5 (F := Ideal) x0 x1 (ix1 a)
      = MemSpec.rowMax (MemSpec.score (MemSpec.mat x1) (MemSpec.mat (val_main_v0 (F := Ideal) x0)) a) := by
  have h3 : val_main_v3 (F := Ideal) x0 x1 (ix1 a)
      = MemSpec.rowMax (fun t => val_main_v2 (F := Ideal) x0 x1 (ix2 a t)) := by
    unfold val_main_v3
    generalize val_main_v2 (F := Ideal) x0 x1 = y
    refine (maxAxis1_wide y _ a).trans ?_
    rw [val_main_cst_apply, Ideal.ofBits_def, ofBits_negInf]
    exact fold_max_bot _
  rw [val_main_v5_apply, val_main_v4_apply, val_main_cst_0_apply, h3, Ideal.ofBits_def, ofBits_negInf,
    Ideal.maximumf_def, max_bot_left]
  exact congrArg MemSpec.rowMax (funext fun t => upd_score x0 x1 a t)

/-- The row maximum spread back over the row. -/
theorem upd_maxB (a : Fin 256) (t : Fin 65536) :
    val_main_v7 (F := Ideal) x0 x1 (ix2 a t)
      = MemSpec.rowMax (MemSpec.score (MemSpec.mat x1) (MemSpec.mat (val_main_v0 (F := Ideal) x0)) a) := by
  have e : idx_main_v6 (idx_main_v7 (ix2 a t)) = ix1 a :=
    funext fun c => Fin.ext (by match c with | ⟨0, _⟩ => rfl)
  rw [val_main_v7_apply, val_main_v6_apply, e]
  exact upd_max x0 x1 a

/-- exp of a score less its row's maximum. -/
theorem upd_exp (a : Fin 256) (t : Fin 65536) :
    val_main_v9 (F := Ideal) x0 x1 (ix2 a t)
      = Ideal.exp (MemSpec.score (MemSpec.mat x1) (MemSpec.mat (val_main_v0 (F := Ideal) x0)) a t
          - MemSpec.rowMax (MemSpec.score (MemSpec.mat x1) (MemSpec.mat (val_main_v0 (F := Ideal) x0)) a)) := by
  rw [val_main_v9_apply, val_main_v8_apply, upd_score, upd_maxB, Ideal.hostUnary_exp_def, Ideal.subf_def]

/-- The row's sum of exponentials, spread back over the row. -/
theorem upd_sumexp (a : Fin 256) (t : Fin 65536) :
    val_main_v12 (F := Ideal) x0 x1 (ix2 a t)
      = ∑ j : Fin 65536, Ideal.exp (MemSpec.score (MemSpec.mat x1) (MemSpec.mat (val_main_v0 (F := Ideal) x0)) a j
          - MemSpec.rowMax (MemSpec.score (MemSpec.mat x1) (MemSpec.mat (val_main_v0 (F := Ideal) x0)) a)) := by
  have e : idx_main_v11 (idx_main_v12 (ix2 a t)) = ix1 a :=
    funext fun c => Fin.ext (by match c with | ⟨0, _⟩ => rfl)
  rw [val_main_v12_apply, val_main_v11_apply, e, val_main_v10_apply, val_main_cst_1_apply, Ideal.ofBits_def,
    Ideal.ofBits_zero_f32, zero_add]
  refine Finset.sum_congr rfl fun k _ => ?_
  have e2 : idx_main_v10 (ix1 a) k = ix2 a k :=
    funext fun c => Fin.ext (by match c with | ⟨0, _⟩ => rfl | ⟨1, _⟩ => rfl)
  rw [e2]
  exact upd_exp x0 x1 a k

/-- The softmax weight of query row t among memory row a's scores. -/
theorem upd_soft (a : Fin 256) (t : Fin 65536) :
    val_main_v13 (F := Ideal) x0 x1 (ix2 a t)
      = MemSpec.soft (MemSpec.score (MemSpec.mat x1) (MemSpec.mat (val_main_v0 (F := Ideal) x0)) a) t := by
  rw [val_main_v13_apply, upd_exp, upd_sumexp, Ideal.hostDivf_def]
  rfl

/-- The hard-shrunk softmax weight: relu(p - λ) · p / (|p - λ| + ε). -/
theorem upd_shr (a : Fin 256) (t : Fin 65536) :
    val_main_v23 (F := Ideal) x0 x1 (ix2 a t)
      = MemSpec.shr (MemSpec.score (MemSpec.mat x1) (MemSpec.mat (val_main_v0 (F := Ideal) x0)) a) t := by
  rw [val_main_v23_apply, val_main_v17_apply, val_main_v16_apply, val_main_v15_apply, val_main_v22_apply,
    val_main_v20_apply, val_main_v19_apply, val_main_v14_apply, val_main_v18_apply, val_main_v21_apply,
    val_main_call0_v0_apply, val_main_cst_2_apply, val_main_cst_3_apply, val_main_cst_4_apply,
    val_main_call0_cst_apply, upd_soft]
  simp only [Ideal.ofBits_def, Ideal.ofBits_zero_f32, Ideal.hostDivf_def, Ideal.mulf_def, Ideal.maximumf_def,
    Ideal.subf_def, Ideal.addf_def, Ideal.hostAbsf_def, Ideal.absf_def]
  rfl

/-- The clamped L1 norm of memory row a's shrunk weights, spread back over the row. -/
theorem upd_l1 (a : Fin 256) (t : Fin 65536) :
    val_main_v29 (F := Ideal) x0 x1 (ix2 a t)
      = MemSpec.l1 (MemSpec.score (MemSpec.mat x1) (MemSpec.mat (val_main_v0 (F := Ideal) x0)) a) := by
  have e : idx_main_v26 (idx_main_v29 (ix2 a t)) = ix1 a :=
    funext fun c => Fin.ext (by match c with | ⟨0, _⟩ => rfl)
  rw [val_main_v29_apply, val_main_v28_apply, val_main_v26_apply, val_main_v27_apply, val_main_cst_6_apply, e,
    val_main_v25_apply, val_main_cst_5_apply, Ideal.ofBits_def, Ideal.ofBits_def, Ideal.ofBits_zero_f32, zero_add,
    Ideal.maximumf_def]
  unfold MemSpec.l1 MemSpec.eps
  refine congrArg (fun z => max z (Ideal.ofBits .f32 0x2B8CBCCC#32)) (Finset.sum_congr rfl fun k _ => ?_)
  have e2 : idx_main_v25 (ix1 a) k = ix2 a k :=
    funext fun c => Fin.ext (by match c with | ⟨0, _⟩ => rfl | ⟨1, _⟩ => rfl)
  rw [e2, val_main_v24_apply, upd_shr, Ideal.hostAbsf_def, Ideal.absf_def]
  rfl

/-- The normalised shrunk softmax weight. -/
theorem upd_attn (a : Fin 256) (t : Fin 65536) :
    val_main_v30 (F := Ideal) x0 x1 (ix2 a t)
      = MemSpec.attn (MemSpec.score (MemSpec.mat x1) (MemSpec.mat (val_main_v0 (F := Ideal) x0)) a) t := by
  rw [val_main_v30_apply, upd_shr, upd_l1, Ideal.hostDivf_def]
  rfl

/-- The memory's addition: attn · q, row a, feature j. -/
theorem ref_addMem (a j : Fin 256) :
    val_main_v31 (F := Ideal) x0 x1 (ix2 a j)
      = MemSpec.addMem (MemSpec.mat x1) (MemSpec.mat (val_main_v0 (F := Ideal) x0)) a j := by
  rw [val_main_v31_apply]
  unfold MemSpec.addMem
  refine Finset.sum_congr rfl fun t _ => ?_
  have e1 : lidx_main_v31 (ix2 a j) t = ix2 a t :=
    funext fun c => Fin.ext (by match c with | ⟨0, _⟩ => rfl | ⟨1, _⟩ => rfl)
  have e2 : ridx_main_v31 (ix2 a j) t = ix2 t j :=
    funext fun c => Fin.ext (by match c with | ⟨0, _⟩ => rfl | ⟨1, _⟩ => rfl)
  rw [e1, e2, upd_attn]
  rfl

end Update

end Cert.ReferenceIdeal.RefSpec
-- ==== Proof.RefSpecOut.lean ====
/-
  The reference's two results are reshapes of its last two matrices.

  The [8, 8192, 512] result is the [65536, 512] matrix of query rows beside what they read, and the [8, 8192, 256]
  result is the [65536, 256] matrix of read weights, each with its row index t split as t = b · 8192 + r. Stated first
  as equations of whole arrays, then entry by entry: entry (b, r, j) of a result is entry (b · 8192 + r, j) of its matrix.
-/
import proofs.«171355_j541165879332_2_alg».proof.Proof.RefRead

noncomputable section

namespace Cert.ReferenceIdeal.RefSpec

open Cert.ReferenceIdeal Cert.ReferenceIdeal.Gen Cert.ReferenceIdeal.ReadP Idealize.ShloMosaic Idealize.ShloMosaic.TcCoe Idealize.ShloMosaic.ValueIdx Cert

section Results

variable (x0 : (⟨S8x8192x256, .f32⟩ : BufTy).Contents (Elt Ideal)) (x1 x2 : (⟨S256x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal))

/-- The [8, 8192, 512] result is the reshape of the [65536, 512] matrix. -/
theorem val_main_v86_reshape :
    val_main_v86 (F := Ideal) x0 x1 x2 x3 x4 x5
      = shapeCast _ (val_main_v85 (F := Ideal) x0 x1 x2 x3 x4 x5) shapeCasts_S65536x512_S8x8192x512 := rfl

/-- The [8, 8192, 256] result is the reshape of the [65536, 256] matrix of read weights. -/
theorem val_main_v87_reshape :
    val_main_v87 (F := Ideal) x0 x1 x2 x3 x4 x5
      = shapeCast _ (val_main_v83 (F := Ideal) x0 x1 x2 x3 x4 x5) shapeCasts_S65536x256_S8x8192x256 := rfl

/-- Row r of batch b is query row b · 8192 + r. -/
def qrow (b : Fin 8) (r : Fin 8192) : Fin 65536 := ⟨b.val * 8192 + r.val, by omega⟩

/-- Entry (b, r, j) of the [8, 8192, 512] result is entry (b · 8192 + r, j) of the [65536, 512] matrix. -/
theorem val_main_v86_at (b : Fin 8) (r : Fin 8192) (j : Fin 512) :
    val_main_v86 (F := Ideal) x0 x1 x2 x3 x4 x5 (ix3 b r j)
      = val_main_v85 (F := Ideal) x0 x1 x2 x3 x4 x5 (ix2 (qrow b r) j) := by
  rw [val_main_v86_apply]
  refine congrArg (val_main_v85 (F := Ideal) x0 x1 x2 x3 x4 x5) (funext fun c => Fin.ext ?_)
  have hb := b.isLt; have hr := r.isLt; have hj := j.isLt
  match c with
  | ⟨0, _⟩ => show ((b.val * 8192 + r.val) * 512 + j.val) / 512 = b.val * 8192 + r.val; omega
  | ⟨1, _⟩ => show ((b.val * 8192 + r.val) * 512 + j.val) % 512 = j.val; omega

/-- Entry (b, r, j) of the [8, 8192, 256] result is entry (b · 8192 + r, j) of the [65536, 256] matrix of read weights. -/
theorem val_main_v87_at (b : Fin 8) (r : Fin 8192) (j : Fin 256) :
    val_main_v87 (F := Ideal) x0 x1 x2 x3 x4 x5 (ix3 b r j)
      = val_main_v83 (F := Ideal) x0 x1 x2 x3 x4 x5 (ix2 (qrow b r) j) := by
  rw [val_main_v87_apply]
  refine congrArg (val_main_v83 (F := Ideal) x0 x1 x2 x3 x4 x5) (funext fun c => Fin.ext ?_)
  have hb := b.isLt; have hr := r.isLt; have hj := j.isLt
  match c with
  | ⟨0, _⟩ => show ((b.val * 8192 + r.val) * 256 + j.val) / 256 = b.val * 8192 + r.val; omega
  | ⟨1, _⟩ => show ((b.val * 8192 + r.val) * 256 + j.val) % 256 = j.val; omega

end Results

end Cert.ReferenceIdeal.RefSpec
-- ==== Proof.RefGate.lean ====
/-
  The reference's gated memory update is the same chain of operations as the blocked program's.

  From the memory's addition am, the memory mem and the two linear maps (U_w, U_b), (W_w, W_b), both programs form
  lin = mem · U_wᵀ + U_b + am · W_wᵀ + W_b, the gate 1 / (1 + exp(−lin)) and the new memory (1 − gate) · mem + gate · am,
  operation for operation in the same order. On the extended reals a matrix product is the plain sum of products
  whatever precision it is annotated with, and the two programs' shapes and contraction patterns are the same literals,
  so the reference's new memory, as a function of its own addition am and the arguments, is that chain.
-/
import proofs.«171355_j541165879332_2_alg».proof.Proof.RefRead
import proofs.«171355_j541165879332_2_alg».proof.Proof.HostB

noncomputable section

namespace Cert.ReferenceIdeal.RefSpec

open Cert.ReferenceIdeal Cert.ReferenceIdeal.Gen Cert.ReferenceIdeal.ReadP Idealize.ShloMosaic Idealize.ShloMosaic.TcCoe Idealize.ShloMosaic.ValueIdx Cert

/-- The reference's new memory is the gate chain applied to the reference's own addition and the arguments. -/
theorem ref_newMem (x0 : (⟨S8x8192x256, .f32⟩ : BufTy).Contents (Elt Ideal)) (x1 x2 : (⟨S256x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) :
    val_main_v53 (F := Ideal) x0 x1 x2 x3 x4 x5
      = Cert.KernelIdeal.HostValue.newMemOf (val_main_v31 (F := Ideal) x0 x1) x1 x2 x3 x4 x5 := by
  unfold val_main_v53 val_main_v52 val_main_v51 val_main_v50 val_main_v49 val_main_v48 val_main_v47 val_main_v46
    val_main_v45 val_main_v44 val_main_v43 val_main_v42 val_main_v41 val_main_v40 val_main_v39 val_main_v38
    val_main_v37 val_main_v36 val_main_v35 val_main_v34 val_main_v33 val_main_v32 val_main_cst_7 val_main_cst_8
    val_main_cst_9
  unfold Cert.KernelIdeal.HostValue.newMemOf Cert.KernelIdeal.HostValue.gateOf Cert.KernelIdeal.HostValue.gateLin
  generalize val_main_v31 (F := Ideal) x0 x1 = am
  rfl

end Cert.ReferenceIdeal.RefSpec
-- ==== Proof.RefRdSoft.lean ====
/-
  The reference's read step, up to the softmax weights.

  With Q the query matrix and N the new memory (both kept opaque): the product of Q with the transpose of N has entry
  (t, a) the inner product ⟨Q t, N a⟩; the row maximum, taken by a fold of max from -∞ and then once more against -∞, is
  the largest score of the row; the exponentials of the differences to it, summed along the row from 0, divide each
  exponential: entry (t, a) is the softmax weight of score a among the scores of query row t.
-/
import proofs.«171355_j541165879332_2_alg».proof.Proof.RefRead
import proofs.«171355_j541165879332_2_alg».proof.Proof.RefSpecMax
import proofs.«171355_j541165879332_2_alg».proof.Proof.Spec

noncomputable section

open scoped BigOperators

namespace Cert.ReferenceIdeal.RefRd

open Cert.ReferenceIdeal Cert.ReferenceIdeal.Gen Cert.ReferenceIdeal.ReadP Idealize.ShloMosaic Idealize.ShloMosaic.TcCoe
  Idealize.ShloMosaic.ValueIdx Cert

variable (x0 : (⟨S8x8192x256, .f32⟩ : BufTy).Contents (Elt Ideal)) (x1 x2 : (⟨S256x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal))

local notation "qM" => MemSpec.mat (val_main_v0 (F := Ideal) x0)
local notation "nM" => MemSpec.mat (val_main_v53 (F := Ideal) x0 x1 x2 x3 x4 x5)

/-- The scores: entry (t, a) of Q · Nᵀ is ⟨Q t, N a⟩. -/
theorem v55_eq (t : Fin 65536) (a : Fin 256) :
    val_main_v55 (F := Ideal) x0 x1 x2 x3 x4 x5 (ix2 t a) = MemSpec.rscore qM nM t a := by
  rw [val_main_v55_apply]
  unfold MemSpec.rscore
  refine Finset.sum_congr rfl fun k _ => ?_
  rw [val_main_v54_apply]
  have e1 : lidx_main_v55 (ix2 t a) k = ix2 t k :=
    funext fun c => Fin.ext (by match c with | ⟨0, _⟩ => rfl | ⟨1, _⟩ => rfl)
  have e2 : idx_main_v54 (ridx_main_v55 (ix2 t a) k) = ix2 a k :=
    funext fun c => Fin.ext (by match c with | ⟨0, _⟩ => rfl | ⟨1, _⟩ => rfl)
  rw [e1, e2]
  rfl

/-- The row maximum (after the second maximum against -∞) is the largest score of query row t. -/
theorem v58_eq (t : Fin 65536) :
    val_main_v58 (F := Ideal) x0 x1 x2 x3 x4 x5 (ix1 t) = MemSpec.rowMax (MemSpec.rscore qM nM t) := by
  rw [val_main_v58_apply, val_main_v57_apply, val_main_cst_11_apply]
  unfold val_main_v56
  rw [RefSpec.maxAxis1_narrow, val_main_cst_10_apply]
  simp only [Ideal.ofBits_def, Ideal.maximumf_def, RefSpec.ofBits_negInf]
  rw [max_bot_left, RefSpec.fold_max_bot]
  exact congrArg MemSpec.rowMax (funext fun a => v55_eq x0 x1 x2 x3 x4 x5 t a)

/-- The row maximum broadcast back along the row. -/
theorem v60_eq (t : Fin 65536) (a : Fin 256) :
    val_main_v60 (F := Ideal) x0 x1 x2 x3 x4 x5 (ix2 t a) = MemSpec.rowMax (MemSpec.rscore qM nM t) := by
  rw [val_main_v60_apply, val_main_v59_apply]
  have e : idx_main_v59 (idx_main_v60 (ix2 t a)) = ix1 t :=
    funext fun c => Fin.ext (by match c with | ⟨0, _⟩ => rfl)
  rw [e, v58_eq]

/-- The exponential of a score's difference to the row maximum. -/
theorem v62_eq (t : Fin 65536) (a : Fin 256) :
    val_main_v62 (F := Ideal) x0 x1 x2 x3 x4 x5 (ix2 t a)
      = Ideal.exp (MemSpec.rscore qM nM t a - MemSpec.rowMax (MemSpec.rscore qM nM t)) := by
  rw [val_main_v62_apply, val_main_v61_apply, v55_eq, v60_eq]
  rfl

/-- The row's sum of exponentials. -/
theorem v63_eq (t : Fin 65536) :
    val_main_v63 (F := Ideal) x0 x1 x2 x3 x4 x5 (ix1 t)
      = ∑ k : Fin 256, Ideal.exp (MemSpec.rscore qM nM t k - MemSpec.rowMax (MemSpec.rscore qM nM t)) := by
  rw [val_main_v63_apply, val_main_cst_12_apply, Ideal.ofBits_def, Ideal.ofBits_zero_f32, zero_add]
  refine Finset.sum_congr rfl fun k _ => ?_
  have e : idx_main_v63 (ix1 t) k = ix2 t k :=
    funext fun c => Fin.ext (by match c with | ⟨0, _⟩ => rfl | ⟨1, _⟩ => rfl)
  rw [e, v62_eq]

/-- The row's sum of exponentials broadcast back along the row. -/
theorem v65_eq (t : Fin 65536) (a : Fin 256) :
    val_main_v65 (F := Ideal) x0 x1 x2 x3 x4 x5 (ix2 t a)
      = ∑ k : Fin 256, Ideal.exp (MemSpec.rscore qM nM t k - MemSpec.rowMax (MemSpec.rscore qM nM t)) := by
  rw [val_main_v65_apply, val_main_v64_apply]
  have e : idx_main_v64 (idx_main_v65 (ix2 t a)) = ix1 t :=
    funext fun c => Fin.ext (by match c with | ⟨0, _⟩ => rfl)
  rw [e, v63_eq]

/-- The softmax weight of score a among the scores of query row t. -/
theorem v66_eq (t : Fin 65536) (a : Fin 256) :
    val_main_v66 (F := Ideal) x0 x1 x2 x3 x4 x5 (ix2 t a) = MemSpec.soft (MemSpec.rscore qM nM t) a := by
  rw [val_main_v66_apply, v62_eq, v65_eq]
  rfl

end Cert.ReferenceIdeal.RefRd

end
-- ==== Proof.RefRdAttn.lean ====
/-
  The reference's read step: the read weights.

  Each softmax weight p is hard-shrunk, relu(p - λ) · p / (|p - λ| + ε) (the relu a maximum against 0, λ and ε the
  programs' literal words); the absolute values of the shrunk row are summed from 0, the sum clamped from below by ε and
  broadcast back, and the shrunk weight divided by it: entry (t, a) is the read weight of memory row a for query row t.
-/
import proofs.«171355_j541165879332_2_alg».proof.Proof.RefRead
import proofs.«171355_j541165879332_2_alg».proof.Proof.RefRdSoft
import proofs.«171355_j541165879332_2_alg».proof.Proof.Spec

noncomputable section

open scoped BigOperators

namespace Cert.ReferenceIdeal.RefRd

open Cert.ReferenceIdeal Cert.ReferenceIdeal.Gen Cert.ReferenceIdeal.ReadP Idealize.ShloMosaic Idealize.ShloMosaic.TcCoe
  Idealize.ShloMosaic.ValueIdx Cert

variable (x0 : (⟨S8x8192x256, .f32⟩ : BufTy).Contents (Elt Ideal)) (x1 x2 : (⟨S256x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal))

local notation "qM" => MemSpec.mat (val_main_v0 (F := Ideal) x0)
local notation "nM" => MemSpec.mat (val_main_v53 (F := Ideal) x0 x1 x2 x3 x4 x5)

/-- The shrunk softmax weight. -/
theorem v76_eq (t : Fin 65536) (a : Fin 256) :
    val_main_v76 (F := Ideal) x0 x1 x2 x3 x4 x5 (ix2 t a) = MemSpec.shr (MemSpec.rscore qM nM t) a := by
  rw [val_main_v76_apply, val_main_v70_apply, val_main_v69_apply, val_main_v68_apply, val_main_v75_apply,
    val_main_v73_apply, val_main_v72_apply, v66_eq, val_main_v67_apply, val_main_cst_13_apply,
    val_main_call1_v0_apply, val_main_call1_cst_apply, val_main_v71_apply, val_main_cst_14_apply,
    val_main_v74_apply, val_main_cst_15_apply]
  simp only [Ideal.ofBits_def, Ideal.ofBits_zero_f32]
  rfl

/-- The clamped sum of the absolute values of the shrunk row, broadcast back along the row. -/
theorem v82_eq (t : Fin 65536) (a : Fin 256) :
    val_main_v82 (F := Ideal) x0 x1 x2 x3 x4 x5 (ix2 t a) = MemSpec.l1 (MemSpec.rscore qM nM t) := by
  rw [val_main_v82_apply, val_main_v81_apply, val_main_v79_apply, val_main_v80_apply, val_main_cst_17_apply]
  have e : idx_main_v79 (idx_main_v82 (ix2 t a)) = ix1 t :=
    funext fun c => Fin.ext (by match c with | ⟨0, _⟩ => rfl)
  rw [e, val_main_v78_apply, val_main_cst_16_apply, Ideal.ofBits_def, Ideal.ofBits_zero_f32, zero_add]
  have hsum : ∑ k : Fin 256, val_main_v77 (F := Ideal) x0 x1 x2 x3 x4 x5 (idx_main_v78 (ix1 t) k)
      = ∑ k : Fin 256, MemSpec.eabs (MemSpec.shr (MemSpec.rscore qM nM t) k) := by
    refine Finset.sum_congr rfl fun k _ => ?_
    have e2 : idx_main_v78 (ix1 t) k = ix2 t k :=
      funext fun c => Fin.ext (by match c with | ⟨0, _⟩ => rfl | ⟨1, _⟩ => rfl)
    rw [e2, val_main_v77_apply, v76_eq]
    rfl
  rw [hsum]
  rfl

/-- THE READ WEIGHTS: entry (t, a) of the reference's normalised shrunk softmax is the read weight of memory row a for
    query row t. -/
theorem ref_attnR (t : Fin 65536) (a : Fin 256) :
    val_main_v83 (F := Ideal) x0 x1 x2 x3 x4 x5 (ix2 t a)
      = MemSpec.attnR (MemSpec.mat (val_main_v0 (F := Ideal) x0)) (MemSpec.mat (val_main_v53 (F := Ideal) x0 x1 x2 x3 x4 x5)) t a := by
  rw [val_main_v83_apply, v76_eq, v82_eq]
  rfl

end Cert.ReferenceIdeal.RefRd

end
-- ==== Proof.RefRdQuery.lean ====
/-
  The reference's read step: what each query row reads, beside the row itself.

  The product of the read weights with the new memory N has entry (t, j) the sum over the memory rows a of the read weight
  of a for query row t times N a j; the result joins the query matrix and that product along the feature axis: features
  0..255 of row t are the query row, features 256..511 what it read.
-/
import proofs.«171355_j541165879332_2_alg».proof.Proof.RefRead
import proofs.«171355_j541165879332_2_alg».proof.Proof.RefRdAttn
import proofs.«171355_j541165879332_2_alg».proof.Proof.Spec

noncomputable section

open scoped BigOperators

namespace Cert.ReferenceIdeal.RefRd

open Cert.ReferenceIdeal Cert.ReferenceIdeal.Gen Cert.ReferenceIdeal.ReadP Idealize.ShloMosaic Idealize.ShloMosaic.TcCoe
  Idealize.ShloMosaic.ValueIdx Cert

variable (x0 : (⟨S8x8192x256, .f32⟩ : BufTy).Contents (Elt Ideal)) (x1 x2 : (⟨S256x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal))

local notation "qM" => MemSpec.mat (val_main_v0 (F := Ideal) x0)
local notation "nM" => MemSpec.mat (val_main_v53 (F := Ideal) x0 x1 x2 x3 x4 x5)

/-- What query row t reads from the new memory, feature j. -/
theorem v84_eq (t : Fin 65536) (j : Fin 256) :
    val_main_v84 (F := Ideal) x0 x1 x2 x3 x4 x5 (ix2 t j) = MemSpec.addMemory qM nM t j := by
  rw [val_main_v84_apply]
  unfold MemSpec.addMemory
  refine Finset.sum_congr rfl fun k _ => ?_
  have e1 : lidx_main_v84 (ix2 t j) k = ix2 t k :=
    funext fun c => Fin.ext (by match c with | ⟨0, _⟩ => rfl | ⟨1, _⟩ => rfl)
  have e2 : ridx_main_v84 (ix2 t j) k = ix2 k j :=
    funext fun c => Fin.ext (by match c with | ⟨0, _⟩ => rfl | ⟨1, _⟩ => rfl)
  rw [e1, e2, ref_attnR]
  rfl

/-- THE READ RESULT: features 0..255 of row t are the query row, features 256..511 what it read. -/
theorem ref_readQuery (t : Fin 65536) (j : Fin 512) :
    val_main_v85 (F := Ideal) x0 x1 x2 x3 x4 x5 (ix2 t j)
      = MemSpec.readQuery (MemSpec.mat (val_main_v0 (F := Ideal) x0)) (MemSpec.mat (val_main_v53 (F := Ideal) x0 x1 x2 x3 x4 x5)) t j := by
  unfold val_main_v85 MemSpec.readQuery
  by_cases h : j.val < 256
  · rw [dif_pos h]
    exact concatenate_pair_apply_left (1 : Fin S65536x512.rank) (val_main_v0 (F := Ideal) x0)
      (val_main_v84 (F := Ideal) x0 x1 x2 x3 x4 x5) concatenates_S65536x256_S65536x256_S65536x512_d1 (ix2 t j) rfl
      (ix2 t ⟨j.val, h⟩) (fun b => by match b with | ⟨0, _⟩ => rfl | ⟨1, _⟩ => rfl)
  · rw [dif_neg h]
    have hj : j.val - 256 < 256 := by have := j.isLt; omega
    refine (concatenate_pair_apply_right (1 : Fin S65536x512.rank) (val_main_v0 (F := Ideal) x0)
      (val_main_v84 (F := Ideal) x0 x1 x2 x3 x4 x5) concatenates_S65536x256_S65536x256_S65536x512_d1 (ix2 t j) rfl rfl
      (ix2 t ⟨j.val - 256, hj⟩) (fun b => by
        match b with
        | ⟨0, _⟩ => exact fun _ => rfl
        | ⟨1, _⟩ => exact fun hne => absurd rfl hne) ?_).trans (v84_eq x0 x1 x2 x3 x4 x5 t ⟨j.val - 256, hj⟩)
    show j.val - 256 + 256 = j.val
    omega

end Cert.ReferenceIdeal.RefRd

end
-- ==== Proof.Bridge.lean ====
/-
  The kernel's three results are the reference's stages of the same arguments.
  * The query matrix both programs work on is the query array viewed 65536 x 256.
  * The memory's addition: the kernel's blocked form equals the plain form (real entries), which is the reference's stage.
  * The new memory: both programs apply one and the same chain of operations to that addition and the arguments.
  * The read: per query row both compute the normalised shrunk softmax weights against the new memory and the
    weighted sum of its rows; the kernel's two output arrays are therefore the reference's two stages, and both
    programs view them [8, 8192, ·] at the end.
-/
import proofs.«171355_j541165879332_2_alg».proof.Proof.UpdateB
import proofs.«171355_j541165879332_2_alg».proof.Proof.Finite
import proofs.«171355_j541165879332_2_alg».proof.Proof.ReadValue
import proofs.«171355_j541165879332_2_alg».proof.Proof.RefSpecUpdate
import proofs.«171355_j541165879332_2_alg».proof.Proof.RefSpecOut
import proofs.«171355_j541165879332_2_alg».proof.Proof.RefGate
import proofs.«171355_j541165879332_2_alg».proof.Proof.RefRdQuery

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert Cert.KernelIdeal.HostValue Cert.KernelIdeal.UpdateValue
open Cert.ReferenceIdeal.ReadP (val_main_v0 val_main_v31 val_main_v53 val_main_v83 val_main_v85 val_main_v86 val_main_v87)

variable (m : (ℓ : Loc nD τ sig) → Buf (Elt Ideal) ℓ) (ρ : Dev nD → PrngReg)

/-- The query matrix the regions find is the reference's first stage of the query array. -/
theorem q_eq (c : Dev nD) : rd S65536x256 (V1 m ρ c main_v0) = val_main_v0 (F := Ideal) (m ((c : Thread nD τ).loc main_arg0)) :=
  V1_v0 m ρ c

/-- Every entry of that matrix is a real number when every entry of the query array is. -/
theorem q_real (c : Dev nD) (h0 : Cert.RealEntries.AllReal (rd S8x8192x256 (m ((c : Thread nD τ).loc main_arg0)))) :
    ∀ t k, ∃ r : ℝ, Qk m ρ c t k = (r : EReal) := by
  intro t k
  show ∃ r : ℝ, rd S65536x256 (V1 m ρ c main_v0) (ix2 t k) = (r : EReal)
  rw [V1_v0 m ρ c]
  unfold shapeCast
  exact h0 _

/-- The new memory the third region finds is the reference's. -/
theorem newMem_eq [hP : Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    rd S256x256 (V5 m ρ c main_v54) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨h0, h1⟩ := Cert.FiniteInputs.real_query_mem _ _ _ _ _ _ hpre
  have hadd : addMemOf (rd S2x256x256 (W4 m ρ c (Proc.devRef .tc main_v18_0))) (rd S2x256x1 (W4 m ρ c (Proc.devRef .tc main_v18_1)))
      = val_main_v31 (F := Ideal) (m ((c : Thread nD τ).loc main_arg0)) (m ((c : Thread nD τ).loc main_arg1)) := by
    funext i
    obtain ⟨a, j, rfl⟩ : ∃ (a : Fin 256) (j : Fin 256), i = ix2 a j := ⟨i 0, i 1, eq_ix2 i⟩
    rw [addMem_plain m ρ c (fun a k => h1 (ix2 a k)) (q_real m ρ c h0) a j, Cert.ReferenceIdeal.RefSpec.ref_addMem]
    rfl
  rw [V5_v54 m ρ c, hadd, W4_arg1 m ρ c, W4_arg2 m ρ c, W4_arg3 m ρ c, W4_arg4 m ρ c, W4_arg5 m ρ c]
  exact (Cert.ReferenceIdeal.RefSpec.ref_newMem _ _ _ _ _ _).symm

/-- The read weights the third region leaves are the reference's. -/
theorem attn_eq [hP : Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    rd S65536x256 ((dat2 (F := Ideal) (V5 m ρ) c).arrAt 3 cfg2.N) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨t, a, rfl⟩ : ∃ (t : Fin 65536) (a : Fin 256), i = ix2 t a := ⟨i 0, i 1, eq_ix2 i⟩
  show (dat2 (F := Ideal) (V5 m ρ) c).arrAt 3 cfg2.N (ix2 t a) = _
  rw [ReadValue.attn_apply (V5 m ρ) c t a, Cert.ReferenceIdeal.RefRd.ref_attnR, V5_v0 m ρ c]
  have e1 := q_eq m ρ c
  have e2 := newMem_eq m ρ c hpre
  unfold rd at e1 e2
  rw [e1, e2]

/-- The read query the third region leaves is the reference's. -/
theorem rq_eq [hP : Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    rd S65536x512 ((dat2 (F := Ideal) (V5 m ρ) c).arrAt 2 cfg2.N) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨t, j, rfl⟩ : ∃ (t : Fin 65536) (j : Fin 512), i = ix2 t j := ⟨i 0, i 1, eq_ix2 i⟩
  show (dat2 (F := Ideal) (V5 m ρ) c).arrAt 2 cfg2.N (ix2 t j) = _
  rw [ReadValue.rq_apply (V5 m ρ) c t j, Cert.ReferenceIdeal.RefRd.ref_readQuery, V5_v0 m ρ c]
  have e1 := q_eq m ρ c
  have e2 := newMem_eq m ρ c hpre
  unfold rd at e1 e2
  rw [e1, e2]

/-- The three results, at the run's final contents, are the reference's last stages. -/
theorem results_eq [hP : Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    rd S8x8192x512 (W7 m ρ c (Proc.devRef .tc main_v56)) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ rd S8x8192x256 (W7 m ρ c (Proc.devRef .tc main_v57)) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ rd S256x256 (W7 m ρ c (Proc.devRef .tc main_v54)) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ⟨?_, ?_, ?_⟩
  · rw [W7_v56 m ρ c, rq_eq m ρ c hpre]; exact (Cert.ReferenceIdeal.RefSpec.val_main_v86_reshape _ _ _ _ _ _).symm
  · rw [W7_v57 m ρ c, attn_eq m ρ c hpre]; exact (Cert.ReferenceIdeal.RefSpec.val_main_v87_reshape _ _ _ _ _ _).symm
  · rw [W7_v54 m ρ c]; exact newMem_eq m ρ c hpre

end Cert.KernelIdeal.Bridge

end
-- ==== Proof.RefStretches.lean ====
/- What the reference's 111 operations leave in three buffers, found without writing any result out as one term.

   The contents after a list of operations is a fold over the list, and the fold over a concatenation is the folds one
   after the other (`after_append`). The 111 operations form a DAG: a value computed once is read by several later
   operations, so a result written out as a term of the arguments repeats each shared value at every use. The list is
   therefore cut into fifteen stretches `s1 … s15`, each ending at a buffer that later operations read again (`ops_eq`: the
   list is their concatenation). For a stretch run from ANY contents W at which the earlier buffers it reads hold their
   stages (the per-operation functions `val_main_vN` of the arguments), `stK_vJ` says the buffer the stretch produces holds
   the next stage: the stretch's few operations applied to those stages is that stage's definition, a handful of
   definitions deep. `keepK_b` says a buffer the stretch does not write holds what it held. `results` chains these through
   the fifteen intermediate contents: after the whole list the three result buffers hold their stages of the arguments as
   the list found them. -/
import proofs.«171355_j541165879332_2_alg».proof.Proof.RefOps

noncomputable section

namespace Cert.ReferenceIdeal.ValueT

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1 … 1 of @main's 111. -/
abbrev s1 : List (HloOp τ sig (Elt F)) :=
  [ reshape main_arg0 main_v0 rfl shapeCasts_S8x8192x256_S65536x256 ]

/-- Operations 2 … 3 of @main's 111. -/
abbrev s2 : List (HloOp τ sig (Elt F)) :=
  [ unary main_v0 main_v1 ((transpose S256x65536 [1, 0] · transposes_S65536x256_S256x65536_1_0) : (⟨S65536x256, .f32⟩ : BufTy).Contents (Elt F) → (⟨S256x65536, .f32⟩ : BufTy).Contents (Elt F)),
    binary main_arg1 main_v1 main_v2 ((fun l r => Host.dotGeneral dot_S256x256_S256x65536_S256x65536_1_0_0_1_n_n none l r) : (⟨S256x256, .f32⟩ : BufTy).Contents (Elt F) → (⟨S256x65536, .f32⟩ : BufTy).Contents (Elt F) → (⟨S256x65536, .f32⟩ : BufTy).Contents (Elt F)) ]

/-- Operations 4 … 12 of @main's 111. -/
abbrev s3 : List (HloOp τ sig (Elt F)) :=
  [ nullary main_cst (constant S_ .f32 0xFF800000#32),
    binary main_v2 main_cst main_v3 ((fun x v => Host.reduce FloatOps.maximumf x v reducesTo_S256x65536_S256_d1 h_S_) : (⟨S256x65536, .f32⟩ : BufTy).Contents (Elt F) → (⟨S_, .f32⟩ : BufTy).Contents (Elt F) → (⟨S256, .f32⟩ : BufTy).Contents (Elt F)),
    nullary main_cst_0 (constant S_ .f32 0xFF800000#32),
    unary main_cst_0 main_v4 (broadcastInDim S256 ![] bcast_S_S256 : (⟨S_, .f32⟩ : BufTy).Contents (Elt F) → (⟨S256, .f32⟩ : BufTy).Contents (Elt F)),
    binary main_v4 main_v3 main_v5 (maximumf : (⟨S256, .f32⟩ : BufTy).Contents (Elt F) → (⟨S256, .f32⟩ : BufTy).Contents (Elt F) → (⟨S256, .f32⟩ : BufTy).Contents (Elt F)),
    unary main_v5 main_v6 (broadcastInDim S256x1 ![0] bcast_S256_S256x1_0 : (⟨S256, .f32⟩ : BufTy).Contents (Elt F) → (⟨S256x1, .f32⟩ : BufTy).Contents (Elt F)),
    unary main_v6 main_v7 (broadcastInDim S256x65536 ![0, 1] bcast_S256x1_S256x65536_0_1 : (⟨S256x1, .f32⟩ : BufTy).Contents (Elt F) → (⟨S256x65536, .f32⟩ : BufTy).Contents (Elt F)),
    binary main_v2 main_v7 main_v8 (subf : (⟨S256x65536, .f32⟩ : BufTy).Contents (Elt F) → (⟨S256x65536, .f32⟩ : BufTy).Contents (Elt F) → (⟨S256x65536, .f32⟩ : BufTy).Contents (Elt F)),
    unary main_v8 main_v9 (Host.exp : (⟨S256x65536, .f32⟩ : BufTy).Contents (Elt F) → (⟨S256x65536, .f32⟩ : BufTy).Contents (Elt F)) ]

/-- Operations 13 … 17 of @main's 111. -/
abbrev s4 : List (HloOp τ sig (Elt F)) :=
  [ nullary main_cst_1 (constant S_ .f32 0x00000000#32),
    binary main_v9 main_cst_1 main_v10 ((fun x v => Host.reduceAdd x v reducesTo_S256x65536_S256_d1 h_S_) : (⟨S256x65536, .f32⟩ : BufTy).Contents (Elt F) → (⟨S_, .f32⟩ : BufTy).Contents (Elt F) → (⟨S256, .f32⟩ : BufTy).Contents (Elt F)),
    unary main_v10 main_v11 (broadcastInDim S256x1 ![0] bcast_S256_S256x1_0 : (⟨S256, .f32⟩ : BufTy).Contents (Elt F) → (⟨S256x1, .f32⟩ : BufTy).Contents (Elt F)),
    unary main_v11 main_v12 (broadcastInDim S256x65536 ![0, 1] bcast_S256x1_S256x65536_0_1 : (⟨S256x1, .f32⟩ : BufTy).Contents (Elt F) → (⟨S256x65536, .f32⟩ : BufTy).Contents (Elt F)),
    binary main_v9 main_v12 main_v13 (Host.divf : (⟨S256x65536, .f32⟩ : BufTy).Contents (Elt F) → (⟨S256x65536, .f32⟩ : BufTy).Contents (Elt F) → (⟨S256x65536, .f32⟩ : BufTy).Contents (Elt F)) ]

/-- Operations 18 … 32 of @main's 111. -/
abbrev s5 : List (HloOp τ sig (Elt F)) :=
  [ nullary main_cst_2 (constant S_ .f32 0x3B23D70A#32),
    unary main_cst_2 main_v14 (broadcastInDim S256x65536 ![] bcast_S_S256x65536 : (⟨S_, .f32⟩ : BufTy).Contents (Elt F) → (⟨S256x65536, .f32⟩ : BufTy).Contents (Elt F)),
    binary main_v13 main_v14 main_v15 (subf : (⟨S256x65536, .f32⟩ : BufTy).Contents (Elt F) → (⟨S256x65536, .f32⟩ : BufTy).Contents (Elt F) → (⟨S256x65536, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S256x65536, .f32⟩) main_call0_v0) (broadcastInDim S256x65536 ![] bcast_S_S256x65536),
    TRef.binary (TRef.of (T := ⟨S256x65536, .f32⟩) main_v15) (TRef.of (T := ⟨S256x65536, .f32⟩) main_call0_v0) (TRef.of (T := ⟨S256x65536, .f32⟩) main_v16) maximumf,
    binary main_v16 main_v13 main_v17 (mulf : (⟨S256x65536, .f32⟩ : BufTy).Contents (Elt F) → (⟨S256x65536, .f32⟩ : BufTy).Contents (Elt F) → (⟨S256x65536, .f32⟩ : BufTy).Contents (Elt F)),
    nullary main_cst_3 (constant S_ .f32 0x3B23D70A#32),
    unary main_cst_3 main_v18 (broadcastInDim S256x65536 ![] bcast_S_S256x65536 : (⟨S_, .f32⟩ : BufTy).Contents (Elt F) → (⟨S256x65536, .f32⟩ : BufTy).Contents (Elt F)),
    binary main_v13 main_v18 main_v19 (subf : (⟨S256x65536, .f32⟩ : BufTy).Contents (Elt F) → (⟨S256x65536, .f32⟩ : BufTy).Contents (Elt F) → (⟨S256x65536, .f32⟩ : BufTy).Contents (Elt F)),
    unary main_v19 main_v20 (Host.absf : (⟨S256x65536, .f32⟩ : BufTy).Contents (Elt F) → (⟨S256x65536, .f32⟩ : BufTy).Contents (Elt F)),
    nullary main_cst_4 (constant S_ .f32 0x2B8CBCCC#32),
    unary main_cst_4 main_v21 (broadcastInDim S256x65536 ![] bcast_S_S256x65536 : (⟨S_, .f32⟩ : BufTy).Contents (Elt F) → (⟨S256x65536, .f32⟩ : BufTy).Contents (Elt F)),
    binary main_v20 main_v21 main_v22 (addf : (⟨S256x65536, .f32⟩ : BufTy).Contents (Elt F) → (⟨S256x65536, .f32⟩ : BufTy).Contents (Elt F) → (⟨S256x65536, .f32⟩ : BufTy).Contents (Elt F)),
    binary main_v17 main_v22 main_v23 (Host.divf : (⟨S256x65536, .f32⟩ : BufTy).Contents (Elt F) → (⟨S256x65536, .f32⟩ : BufTy).Contents (Elt F) → (⟨S256x65536, .f32⟩ : BufTy).Contents (Elt F)) ]

/-- Operations 33 … 42 of @main's 111. -/
abbrev s6 : List (HloOp τ sig (Elt F)) :=
  [ unary main_v23 main_v24 (Host.absf : (⟨S256x65536, .f32⟩ : BufTy).Contents (Elt F) → (⟨S256x65536, .f32⟩ : BufTy).Contents (Elt F)),
    nullary main_cst_5 (constant S_ .f32 0x00000000#32),
    binary main_v24 main_cst_5 main_v25 ((fun x v => Host.reduceAdd x v reducesTo_S256x65536_S256_d1 h_S_) : (⟨S256x65536, .f32⟩ : BufTy).Contents (Elt F) → (⟨S_, .f32⟩ : BufTy).Contents (Elt F) → (⟨S256, .f32⟩ : BufTy).Contents (Elt F)),
    unary main_v25 main_v26 (broadcastInDim S256x1 ![0] bcast_S256_S256x1_0 : (⟨S256, .f32⟩ : BufTy).Contents (Elt F) → (⟨S256x1, .f32⟩ : BufTy).Contents (Elt F)),
    nullary main_cst_6 (constant S_ .f32 0x2B8CBCCC#32),
    unary main_cst_6 main_v27 (broadcastInDim S256x1 ![] bcast_S_S256x1 : (⟨S_, .f32⟩ : BufTy).Contents (Elt F) → (⟨S256x1, .f32⟩ : BufTy).Contents (Elt F)),
    binary main_v26 main_v27 main_v28 (maximumf : (⟨S256x1, .f32⟩ : BufTy).Contents (Elt F) → (⟨S256x1, .f32⟩ : BufTy).Contents (Elt F) → (⟨S256x1, .f32⟩ : BufTy).Contents (Elt F)),
    unary main_v28 main_v29 (broadcastInDim S256x65536 ![0, 1] bcast_S256x1_S256x65536_0_1 : (⟨S256x1, .f32⟩ : BufTy).Contents (Elt F) → (⟨S256x65536, .f32⟩ : BufTy).Contents (Elt F)),
    binary main_v23 main_v29 main_v30 (Host.divf : (⟨S256x65536, .f32⟩ : BufTy).Contents (Elt F) → (⟨S256x65536, .f32⟩ : BufTy).Contents (Elt F) → (⟨S256x65536, .f32⟩ : BufTy).Contents (Elt F)),
    binary main_v30 main_v0 main_v31 ((fun l r => Host.dotGeneral dot_S256x65536_S65536x256_S256x256_1_0_0_1_n_n none l r) : (⟨S256x65536, .f32⟩ : BufTy).Contents (Elt F) → (⟨S65536x256, .f32⟩ : BufTy).Contents (Elt F) → (⟨S256x256, .f32⟩ : BufTy).Contents (Elt F)) ]

/-- Operations 43 … 61 of @main's 111. -/
abbrev s7 : List (HloOp τ sig (Elt F)) :=
  [ unary main_arg2 main_v32 ((transpose S256x256 [1, 0] · transposes_S256x256_S256x256_1_0) : (⟨S256x256, .f32⟩ : BufTy).Contents (Elt F) → (⟨S256x256, .f32⟩ : BufTy).Contents (Elt F)),
    binary main_arg1 main_v32 main_v33 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg3 main_v34 (broadcastInDim S1x256 ![1] bcast_S256_S1x256_1 : (⟨S256, .f32⟩ : BufTy).Contents (Elt F) → (⟨S1x256, .f32⟩ : BufTy).Contents (Elt F)),
    unary main_v34 main_v35 (broadcastInDim S256x256 ![0, 1] bcast_S1x256_S256x256_0_1 : (⟨S1x256, .f32⟩ : BufTy).Contents (Elt F) → (⟨S256x256, .f32⟩ : BufTy).Contents (Elt F)),
    binary main_v33 main_v35 main_v36 (addf : (⟨S256x256, .f32⟩ : BufTy).Contents (Elt F) → (⟨S256x256, .f32⟩ : BufTy).Contents (Elt F) → (⟨S256x256, .f32⟩ : BufTy).Contents (Elt F)),
    unary main_arg4 main_v37 ((transpose S256x256 [1, 0] · transposes_S256x256_S256x256_1_0) : (⟨S256x256, .f32⟩ : BufTy).Contents (Elt F) → (⟨S256x256, .f32⟩ : BufTy).Contents (Elt F)),
    binary main_v31 main_v37 main_v38 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    binary main_v36 main_v38 main_v39 (addf : (⟨S256x256, .f32⟩ : BufTy).Contents (Elt F) → (⟨S256x256, .f32⟩ : BufTy).Contents (Elt F) → (⟨S256x256, .f32⟩ : BufTy).Contents (Elt F)),
    unary main_arg5 main_v40 (broadcastInDim S1x256 ![1] bcast_S256_S1x256_1 : (⟨S256, .f32⟩ : BufTy).Contents (Elt F) → (⟨S1x256, .f32⟩ : BufTy).Contents (Elt F)),
    unary main_v40 main_v41 (broadcastInDim S256x256 ![0, 1] bcast_S1x256_S256x256_0_1 : (⟨S1x256, .f32⟩ : BufTy).Contents (Elt F) → (⟨S256x256, .f32⟩ : BufTy).Contents (Elt F)),
    binary main_v39 main_v41 main_v42 (addf : (⟨S256x256, .f32⟩ : BufTy).Contents (Elt F) → (⟨S256x256, .f32⟩ : BufTy).Contents (Elt F) → (⟨S256x256, .f32⟩ : BufTy).Contents (Elt F)),
    unary main_v42 main_v43 (Host.negf : (⟨S256x256, .f32⟩ : BufTy).Contents (Elt F) → (⟨S256x256, .f32⟩ : BufTy).Contents (Elt F)),
    unary main_v43 main_v44 (Host.exp : (⟨S256x256, .f32⟩ : BufTy).Contents (Elt F) → (⟨S256x256, .f32⟩ : BufTy).Contents (Elt F)),
    nullary main_cst_7 (constant S_ .f32 0x3F800000#32),
    unary main_cst_7 main_v45 (broadcastInDim S256x256 ![] bcast_S_S256x256 : (⟨S_, .f32⟩ : BufTy).Contents (Elt F) → (⟨S256x256, .f32⟩ : BufTy).Contents (Elt F)),
    binary main_v45 main_v44 main_v46 (addf : (⟨S256x256, .f32⟩ : BufTy).Contents (Elt F) → (⟨S256x256, .f32⟩ : BufTy).Contents (Elt F) → (⟨S256x256, .f32⟩ : BufTy).Contents (Elt F)),
    nullary main_cst_8 (constant S_ .f32 0x3F800000#32),
    unary main_cst_8 main_v47 (broadcastInDim S256x256 ![] bcast_S_S256x256 : (⟨S_, .f32⟩ : BufTy).Contents (Elt F) → (⟨S256x256, .f32⟩ : BufTy).Contents (Elt F)),
    binary main_v47 main_v46 main_v48 (Host.divf : (⟨S256x256, .f32⟩ : BufTy).Contents (Elt F) → (⟨S256x256, .f32⟩ : BufTy).Contents (Elt F) → (⟨S256x256, .f32⟩ : BufTy).Contents (Elt F)) ]

/-- Operations 62 … 67 of @main's 111. -/
abbrev s8 : List (HloOp τ sig (Elt F)) :=
  [ nullary main_cst_9 (constant S_ .f32 0x3F800000#32),
    unary main_cst_9 main_v49 (broadcastInDim S256x256 ![] bcast_S_S256x256 : (⟨S_, .f32⟩ : BufTy).Contents (Elt F) → (⟨S256x256, .f32⟩ : BufTy).Contents (Elt F)),
    binary main_v49 main_v48 main_v50 (subf : (⟨S256x256, .f32⟩ : BufTy).Contents (Elt F) → (⟨S256x256, .f32⟩ : BufTy).Contents (Elt F) → (⟨S256x256, .f32⟩ : BufTy).Contents (Elt F)),
    binary main_v50 main_arg1 main_v51 (mulf : (⟨S256x256, .f32⟩ : BufTy).Contents (Elt F) → (⟨S256x256, .f32⟩ : BufTy).Contents (Elt F) → (⟨S256x256, .f32⟩ : BufTy).Contents (Elt F)),
    binary main_v48 main_v31 main_v52 (mulf : (⟨S256x256, .f32⟩ : BufTy).Contents (Elt F) → (⟨S256x256, .f32⟩ : BufTy).Contents (Elt F) → (⟨S256x256, .f32⟩ : BufTy).Contents (Elt F)),
    binary main_v51 main_v52 main_v53 (addf : (⟨S256x256, .f32⟩ : BufTy).Contents (Elt F) → (⟨S256x256, .f32⟩ : BufTy).Contents (Elt F) → (⟨S256x256, .f32⟩ : BufTy).Contents (Elt F)) ]

/-- Operations 68 … 69 of @main's 111. -/
abbrev s9 : List (HloOp τ sig (Elt F)) :=
  [ unary main_v53 main_v54 ((transpose S256x256 [1, 0] · transposes_S256x256_S256x256_1_0) : (⟨S256x256, .f32⟩ : BufTy).Contents (Elt F) → (⟨S256x256, .f32⟩ : BufTy).Contents (Elt F)),
    binary main_v0 main_v54 main_v55 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)) ]

/-- Operations 70 … 78 of @main's 111. -/
abbrev s10 : List (HloOp τ sig (Elt F)) :=
  [ nullary main_cst_10 (constant S_ .f32 0xFF800000#32),
    binary main_v55 main_cst_10 main_v56 ((fun x v => Host.reduce FloatOps.maximumf x v reducesTo_S65536x256_S65536_d1 h_S_) : (⟨S65536x256, .f32⟩ : BufTy).Contents (Elt F) → (⟨S_, .f32⟩ : BufTy).Contents (Elt F) → (⟨S65536, .f32⟩ : BufTy).Contents (Elt F)),
    nullary main_cst_11 (constant S_ .f32 0xFF800000#32),
    unary main_cst_11 main_v57 (broadcastInDim S65536 ![] bcast_S_S65536 : (⟨S_, .f32⟩ : BufTy).Contents (Elt F) → (⟨S65536, .f32⟩ : BufTy).Contents (Elt F)),
    binary main_v57 main_v56 main_v58 (maximumf : (⟨S65536, .f32⟩ : BufTy).Contents (Elt F) → (⟨S65536, .f32⟩ : BufTy).Contents (Elt F) → (⟨S65536, .f32⟩ : BufTy).Contents (Elt F)),
    unary main_v58 main_v59 (broadcastInDim S65536x1 ![0] bcast_S65536_S65536x1_0 : (⟨S65536, .f32⟩ : BufTy).Contents (Elt F) → (⟨S65536x1, .f32⟩ : BufTy).Contents (Elt F)),
    unary main_v59 main_v60 (broadcastInDim S65536x256 ![0, 1] bcast_S65536x1_S65536x256_0_1 : (⟨S65536x1, .f32⟩ : BufTy).Contents (Elt F) → (⟨S65536x256, .f32⟩ : BufTy).Contents (Elt F)),
    binary main_v55 main_v60 main_v61 (subf : (⟨S65536x256, .f32⟩ : BufTy).Contents (Elt F) → (⟨S65536x256, .f32⟩ : BufTy).Contents (Elt F) → (⟨S65536x256, .f32⟩ : BufTy).Contents (Elt F)),
    unary main_v61 main_v62 (Host.exp : (⟨S65536x256, .f32⟩ : BufTy).Contents (Elt F) → (⟨S65536x256, .f32⟩ : BufTy).Contents (Elt F)) ]

/-- Operations 79 … 83 of @main's 111. -/
abbrev s11 : List (HloOp τ sig (Elt F)) :=
  [ nullary main_cst_12 (constant S_ .f32 0x00000000#32),
    binary main_v62 main_cst_12 main_v63 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v63 main_v64 (broadcastInDim S65536x1 ![0] bcast_S65536_S65536x1_0 : (⟨S65536, .f32⟩ : BufTy).Contents (Elt F) → (⟨S65536x1, .f32⟩ : BufTy).Contents (Elt F)),
    unary main_v64 main_v65 (broadcastInDim S65536x256 ![0, 1] bcast_S65536x1_S65536x256_0_1 : (⟨S65536x1, .f32⟩ : BufTy).Contents (Elt F) → (⟨S65536x256, .f32⟩ : BufTy).Contents (Elt F)),
    binary main_v62 main_v65 main_v66 (Host.divf : (⟨S65536x256, .f32⟩ : BufTy).Contents (Elt F) → (⟨S65536x256, .f32⟩ : BufTy).Contents (Elt F) → (⟨S65536x256, .f32⟩ : BufTy).Contents (Elt F)) ]

/-- Operations 84 … 98 of @main's 111. -/
abbrev s12 : List (HloOp τ sig (Elt F)) :=
  [ nullary main_cst_13 (constant S_ .f32 0x3B23D70A#32),
    unary main_cst_13 main_v67 (broadcastInDim S65536x256 ![] bcast_S_S65536x256 : (⟨S_, .f32⟩ : BufTy).Contents (Elt F) → (⟨S65536x256, .f32⟩ : BufTy).Contents (Elt F)),
    binary main_v66 main_v67 main_v68 (subf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x256, .f32⟩) main_call1_v0) (broadcastInDim S65536x256 ![] bcast_S_S65536x256),
    TRef.binary (TRef.of (T := ⟨S65536x256, .f32⟩) main_v68) (TRef.of (T := ⟨S65536x256, .f32⟩) main_call1_v0) (TRef.of (T := ⟨S65536x256, .f32⟩) main_v69) maximumf,
    binary main_v69 main_v66 main_v70 (mulf : (⟨S65536x256, .f32⟩ : BufTy).Contents (Elt F) → (⟨S65536x256, .f32⟩ : BufTy).Contents (Elt F) → (⟨S65536x256, .f32⟩ : BufTy).Contents (Elt F)),
    nullary main_cst_14 (constant S_ .f32 0x3B23D70A#32),
    unary main_cst_14 main_v71 (broadcastInDim S65536x256 ![] bcast_S_S65536x256 : (⟨S_, .f32⟩ : BufTy).Contents (Elt F) → (⟨S65536x256, .f32⟩ : BufTy).Contents (Elt F)),
    binary main_v66 main_v71 main_v72 (subf : (⟨S65536x256, .f32⟩ : BufTy).Contents (Elt F) → (⟨S65536x256, .f32⟩ : BufTy).Contents (Elt F) → (⟨S65536x256, .f32⟩ : BufTy).Contents (Elt F)),
    unary main_v72 main_v73 (Host.absf : (⟨S65536x256, .f32⟩ : BufTy).Contents (Elt F) → (⟨S65536x256, .f32⟩ : BufTy).Contents (Elt F)),
    nullary main_cst_15 (constant S_ .f32 0x2B8CBCCC#32),
    unary main_cst_15 main_v74 (broadcastInDim S65536x256 ![] bcast_S_S65536x256 : (⟨S_, .f32⟩ : BufTy).Contents (Elt F) → (⟨S65536x256, .f32⟩ : BufTy).Contents (Elt F)),
    binary main_v73 main_v74 main_v75 (addf : (⟨S65536x256, .f32⟩ : BufTy).Contents (Elt F) → (⟨S65536x256, .f32⟩ : BufTy).Contents (Elt F) → (⟨S65536x256, .f32⟩ : BufTy).Contents (Elt F)),
    binary main_v70 main_v75 main_v76 (Host.divf : (⟨S65536x256, .f32⟩ : BufTy).Contents (Elt F) → (⟨S65536x256, .f32⟩ : BufTy).Contents (Elt F) → (⟨S65536x256, .f32⟩ : BufTy).Contents (Elt F)) ]

/-- Operations 99 … 107 of @main's 111. -/
abbrev s13 : List (HloOp τ sig (Elt F)) :=
  [ unary main_v76 main_v77 (Host.absf : (⟨S65536x256, .f32⟩ : BufTy).Contents (Elt F) → (⟨S65536x256, .f32⟩ : BufTy).Contents (Elt F)),
    nullary main_cst_16 (constant S_ .f32 0x00000000#32),
    binary main_v77 main_cst_16 main_v78 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v78 main_v79 (broadcastInDim S65536x1 ![0] bcast_S65536_S65536x1_0 : (⟨S65536, .f32⟩ : BufTy).Contents (Elt F) → (⟨S65536x1, .f32⟩ : BufTy).Contents (Elt F)),
    nullary main_cst_17 (constant S_ .f32 0x2B8CBCCC#32),
    unary main_cst_17 main_v80 (broadcastInDim S65536x1 ![] bcast_S_S65536x1 : (⟨S_, .f32⟩ : BufTy).Contents (Elt F) → (⟨S65536x1, .f32⟩ : BufTy).Contents (Elt F)),
    binary main_v79 main_v80 main_v81 (maximumf : (⟨S65536x1, .f32⟩ : BufTy).Contents (Elt F) → (⟨S65536x1, .f32⟩ : BufTy).Contents (Elt F) → (⟨S65536x1, .f32⟩ : BufTy).Contents (Elt F)),
    unary main_v81 main_v82 (broadcastInDim S65536x256 ![0, 1] bcast_S65536x1_S65536x256_0_1 : (⟨S65536x1, .f32⟩ : BufTy).Contents (Elt F) → (⟨S65536x256, .f32⟩ : BufTy).Contents (Elt F)),
    binary main_v76 main_v82 main_v83 (Host.divf : (⟨S65536x256, .f32⟩ : BufTy).Contents (Elt F) → (⟨S65536x256, .f32⟩ : BufTy).Contents (Elt F) → (⟨S65536x256, .f32⟩ : BufTy).Contents (Elt F)) ]

/-- Operations 108 … 108 of @main's 111. -/
abbrev s14 : List (HloOp τ sig (Elt F)) :=
  [ binary main_v83 main_v53 main_v84 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)) ]

/-- Operations 109 … 111 of @main's 111. -/
abbrev s15 : List (HloOp τ sig (Elt F)) :=
  [ binary main_v0 main_v84 main_v85 ((fun a b => concatenate S65536x512 1 [⟨S65536x256, a⟩, ⟨S65536x256, b⟩] concatenates_S65536x256_S65536x256_S65536x512_d1) : (⟨S65536x256, .f32⟩ : BufTy).Contents (Elt F) → (⟨S65536x256, .f32⟩ : BufTy).Contents (Elt F) → (⟨S65536x512, .f32⟩ : BufTy).Contents (Elt F)),
    reshape main_v85 main_v86 rfl shapeCasts_S65536x512_S8x8192x512,
    reshape main_v83 main_v87 rfl shapeCasts_S65536x256_S8x8192x256 ]

theorem st1_v0 (W : Valuation τ sig (Elt F)) (a0 : (⟨S8x8192x256, .f32⟩ : BufTy).Contents (Elt F))
    (h_arg0 : W (Proc.devRef .tc main_arg0) = a0)
    : after s1 W (Proc.devRef .tc main_v0) = Cert.ReferenceIdeal.ReadP.val_main_v0 (F := F) a0 := by
  after_results_simp
  rw [h_arg0]
  rfl

theorem keep1_arg1 (W : Valuation τ sig (Elt F)) : after s1 W (Proc.devRef .tc main_arg1) = W (Proc.devRef .tc main_arg1) := by
  after_results_simp

theorem keep1_arg2 (W : Valuation τ sig (Elt F)) : after s1 W (Proc.devRef .tc main_arg2) = W (Proc.devRef .tc main_arg2) := by
  after_results_simp

theorem keep1_arg3 (W : Valuation τ sig (Elt F)) : after s1 W (Proc.devRef .tc main_arg3) = W (Proc.devRef .tc main_arg3) := by
  after_results_simp

theorem keep1_arg4 (W : Valuation τ sig (Elt F)) : after s1 W (Proc.devRef .tc main_arg4) = W (Proc.devRef .tc main_arg4) := by
  after_results_simp

theorem keep1_arg5 (W : Valuation τ sig (Elt F)) : after s1 W (Proc.devRef .tc main_arg5) = W (Proc.devRef .tc main_arg5) := by
  after_results_simp

theorem st2_v2 (W : Valuation τ sig (Elt F)) (a0 : (⟨S8x8192x256, .f32⟩ : BufTy).Contents (Elt F)) (a1 : (⟨S256x256, .f32⟩ : BufTy).Contents (Elt F))
    (h_arg1 : W (Proc.devRef .tc main_arg1) = a1)
    (h_v0 : W (Proc.devRef .tc main_v0) = Cert.ReferenceIdeal.ReadP.val_main_v0 (F := F) a0)
    : after s2 W (Proc.devRef .tc main_v2) = Cert.ReferenceIdeal.ReadP.val_main_v2 (F := F) a0 a1 := by
  after_results_simp
  rw [h_arg1, h_v0]
  rfl

theorem keep2_v0 (W : Valuation τ sig (Elt F)) : after s2 W (Proc.devRef .tc main_v0) = W (Proc.devRef .tc main_v0) := by
  after_results_simp

theorem keep2_arg1 (W : Valuation τ sig (Elt F)) : after s2 W (Proc.devRef .tc main_arg1) = W (Proc.devRef .tc main_arg1) := by
  after_results_simp

theorem keep2_arg2 (W : Valuation τ sig (Elt F)) : after s2 W (Proc.devRef .tc main_arg2) = W (Proc.devRef .tc main_arg2) := by
  after_results_simp

theorem keep2_arg3 (W : Valuation τ sig (Elt F)) : after s2 W (Proc.devRef .tc main_arg3) = W (Proc.devRef .tc main_arg3) := by
  after_results_simp

theorem keep2_arg4 (W : Valuation τ sig (Elt F)) : after s2 W (Proc.devRef .tc main_arg4) = W (Proc.devRef .tc main_arg4) := by
  after_results_simp

theorem keep2_arg5 (W : Valuation τ sig (Elt F)) : after s2 W (Proc.devRef .tc main_arg5) = W (Proc.devRef .tc main_arg5) := by
  after_results_simp

theorem st3_v9 (W : Valuation τ sig (Elt F)) (a0 : (⟨S8x8192x256, .f32⟩ : BufTy).Contents (Elt F)) (a1 : (⟨S256x256, .f32⟩ : BufTy).Contents (Elt F))
    (h_v2 : W (Proc.devRef .tc main_v2) = Cert.ReferenceIdeal.ReadP.val_main_v2 (F := F) a0 a1)
    : after s3 W (Proc.devRef .tc main_v9) = Cert.ReferenceIdeal.ReadP.val_main_v9 (F := F) a0 a1 := by
  after_results_simp
  rw [h_v2]
  rfl

theorem keep3_v0 (W : Valuation τ sig (Elt F)) : after s3 W (Proc.devRef .tc main_v0) = W (Proc.devRef .tc main_v0) := by
  after_results_simp

theorem keep3_arg1 (W : Valuation τ sig (Elt F)) : after s3 W (Proc.devRef .tc main_arg1) = W (Proc.devRef .tc main_arg1) := by
  after_results_simp

theorem keep3_arg2 (W : Valuation τ sig (Elt F)) : after s3 W (Proc.devRef .tc main_arg2) = W (Proc.devRef .tc main_arg2) := by
  after_results_simp

theorem keep3_arg3 (W : Valuation τ sig (Elt F)) : after s3 W (Proc.devRef .tc main_arg3) = W (Proc.devRef .tc main_arg3) := by
  after_results_simp

theorem keep3_arg4 (W : Valuation τ sig (Elt F)) : after s3 W (Proc.devRef .tc main_arg4) = W (Proc.devRef .tc main_arg4) := by
  after_results_simp

theorem keep3_arg5 (W : Valuation τ sig (Elt F)) : after s3 W (Proc.devRef .tc main_arg5) = W (Proc.devRef .tc main_arg5) := by
  after_results_simp

theorem st4_v13 (W : Valuation τ sig (Elt F)) (a0 : (⟨S8x8192x256, .f32⟩ : BufTy).Contents (Elt F)) (a1 : (⟨S256x256, .f32⟩ : BufTy).Contents (Elt F))
    (h_v9 : W (Proc.devRef .tc main_v9) = Cert.ReferenceIdeal.ReadP.val_main_v9 (F := F) a0 a1)
    : after s4 W (Proc.devRef .tc main_v13) = Cert.ReferenceIdeal.ReadP.val_main_v13 (F := F) a0 a1 := by
  after_results_simp
  rw [h_v9]
  rfl

theorem keep4_v0 (W : Valuation τ sig (Elt F)) : after s4 W (Proc.devRef .tc main_v0) = W (Proc.devRef .tc main_v0) := by
  after_results_simp

theorem keep4_arg1 (W : Valuation τ sig (Elt F)) : after s4 W (Proc.devRef .tc main_arg1) = W (Proc.devRef .tc main_arg1) := by
  after_results_simp

theorem keep4_arg2 (W : Valuation τ sig (Elt F)) : after s4 W (Proc.devRef .tc main_arg2) = W (Proc.devRef .tc main_arg2) := by
  after_results_simp

theorem keep4_arg3 (W : Valuation τ sig (Elt F)) : after s4 W (Proc.devRef .tc main_arg3) = W (Proc.devRef .tc main_arg3) := by
  after_results_simp

theorem keep4_arg4 (W : Valuation τ sig (Elt F)) : after s4 W (Proc.devRef .tc main_arg4) = W (Proc.devRef .tc main_arg4) := by
  after_results_simp

theorem keep4_arg5 (W : Valuation τ sig (Elt F)) : after s4 W (Proc.devRef .tc main_arg5) = W (Proc.devRef .tc main_arg5) := by
  after_results_simp

theorem st5_v23 (W : Valuation τ sig (Elt F)) (a0 : (⟨S8x8192x256, .f32⟩ : BufTy).Contents (Elt F)) (a1 : (⟨S256x256, .f32⟩ : BufTy).Contents (Elt F))
    (h_v13 : W (Proc.devRef .tc main_v13) = Cert.ReferenceIdeal.ReadP.val_main_v13 (F := F) a0 a1)
    : after s5 W (Proc.devRef .tc main_v23) = Cert.ReferenceIdeal.ReadP.val_main_v23 (F := F) a0 a1 := by
  after_results_simp
  rw [h_v13]
  rfl

theorem keep5_v0 (W : Valuation τ sig (Elt F)) : after s5 W (Proc.devRef .tc main_v0) = W (Proc.devRef .tc main_v0) := by
  after_results_simp

theorem keep5_arg1 (W : Valuation τ sig (Elt F)) : after s5 W (Proc.devRef .tc main_arg1) = W (Proc.devRef .tc main_arg1) := by
  after_results_simp

theorem keep5_arg2 (W : Valuation τ sig (Elt F)) : after s5 W (Proc.devRef .tc main_arg2) = W (Proc.devRef .tc main_arg2) := by
  after_results_simp

theorem keep5_arg3 (W : Valuation τ sig (Elt F)) : after s5 W (Proc.devRef .tc main_arg3) = W (Proc.devRef .tc main_arg3) := by
  after_results_simp

theorem keep5_arg4 (W : Valuation τ sig (Elt F)) : after s5 W (Proc.devRef .tc main_arg4) = W (Proc.devRef .tc main_arg4) := by
  after_results_simp

theorem keep5_arg5 (W : Valuation τ sig (Elt F)) : after s5 W (Proc.devRef .tc main_arg5) = W (Proc.devRef .tc main_arg5) := by
  after_results_simp

theorem st6_v31 (W : Valuation τ sig (Elt F)) (a0 : (⟨S8x8192x256, .f32⟩ : BufTy).Contents (Elt F)) (a1 : (⟨S256x256, .f32⟩ : BufTy).Contents (Elt F))
    (h_v23 : W (Proc.devRef .tc main_v23) = Cert.ReferenceIdeal.ReadP.val_main_v23 (F := F) a0 a1)
    (h_v0 : W (Proc.devRef .tc main_v0) = Cert.ReferenceIdeal.ReadP.val_main_v0 (F := F) a0)
    : after s6 W (Proc.devRef .tc main_v31) = Cert.ReferenceIdeal.ReadP.val_main_v31 (F := F) a0 a1 := by
  after_results_simp
  rw [h_v23, h_v0]
  rfl

theorem keep6_arg1 (W : Valuation τ sig (Elt F)) : after s6 W (Proc.devRef .tc main_arg1) = W (Proc.devRef .tc main_arg1) := by
  after_results_simp

theorem keep6_arg2 (W : Valuation τ sig (Elt F)) : after s6 W (Proc.devRef .tc main_arg2) = W (Proc.devRef .tc main_arg2) := by
  after_results_simp

theorem keep6_arg3 (W : Valuation τ sig (Elt F)) : after s6 W (Proc.devRef .tc main_arg3) = W (Proc.devRef .tc main_arg3) := by
  after_results_simp

theorem keep6_arg4 (W : Valuation τ sig (Elt F)) : after s6 W (Proc.devRef .tc main_arg4) = W (Proc.devRef .tc main_arg4) := by
  after_results_simp

theorem keep6_arg5 (W : Valuation τ sig (Elt F)) : after s6 W (Proc.devRef .tc main_arg5) = W (Proc.devRef .tc main_arg5) := by
  after_results_simp

theorem keep6_v0 (W : Valuation τ sig (Elt F)) : after s6 W (Proc.devRef .tc main_v0) = W (Proc.devRef .tc main_v0) := by
  after_results_simp

theorem st7_v48 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_arg1 : W (Proc.devRef .tc main_arg1) = a1)
    (h_arg2 : W (Proc.devRef .tc main_arg2) = a2)
    (h_arg3 : W (Proc.devRef .tc main_arg3) = a3)
    (h_v31 : W (Proc.devRef .tc main_v31) = Cert.ReferenceIdeal.ReadP.val_main_v31 (F := F) a0 a1)
    (h_arg4 : W (Proc.devRef .tc main_arg4) = a4)
    (h_arg5 : W (Proc.devRef .tc main_arg5) = a5)
    : after s7 W (Proc.devRef .tc main_v48) = Cert.ReferenceIdeal.ReadP.val_main_v48 (F := F) a0 a1 a2 a3 a4 a5 := by
  after_results_simp
  rw [h_arg1, h_arg2, h_arg3, h_v31, h_arg4, h_arg5]
  rfl

theorem keep7_arg1 (W : Valuation τ sig (Elt F)) : after s7 W (Proc.devRef .tc main_arg1) = W (Proc.devRef .tc main_arg1) := by
  after_results_simp

theorem keep7_v31 (W : Valuation τ sig (Elt F)) : after s7 W (Proc.devRef .tc main_v31) = W (Proc.devRef .tc main_v31) := by
  after_results_simp

theorem keep7_v0 (W : Valuation τ sig (Elt F)) : after s7 W (Proc.devRef .tc main_v0) = W (Proc.devRef .tc main_v0) := by
  after_results_simp

theorem st8_v53 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v48 : W (Proc.devRef .tc main_v48) = Cert.ReferenceIdeal.ReadP.val_main_v48 (F := F) a0 a1 a2 a3 a4 a5)
    (h_arg1 : W (Proc.devRef .tc main_arg1) = a1)
    (h_v31 : W (Proc.devRef .tc main_v31) = Cert.ReferenceIdeal.ReadP.val_main_v31 (F := F) a0 a1)
    : after s8 W (Proc.devRef .tc main_v53) = Cert.ReferenceIdeal.ReadP.val_main_v53 (F := F) a0 a1 a2 a3 a4 a5 := by
  after_results_simp
  rw [h_v48, h_arg1, h_v31]
  rfl

theorem keep8_v0 (W : Valuation τ sig (Elt F)) : after s8 W (Proc.devRef .tc main_v0) = W (Proc.devRef .tc main_v0) := by
  after_results_simp

theorem st9_v55 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v0 : W (Proc.devRef .tc main_v0) = Cert.ReferenceIdeal.ReadP.val_main_v0 (F := F) a0)
    (h_v53 : W (Proc.devRef .tc main_v53) = Cert.ReferenceIdeal.ReadP.val_main_v53 (F := F) a0 a1 a2 a3 a4 a5)
    : after s9 W (Proc.devRef .tc main_v55) = Cert.ReferenceIdeal.ReadP.val_main_v55 (F := F) a0 a1 a2 a3 a4 a5 := by
  after_results_simp
  rw [h_v0, h_v53]
  rfl

theorem keep9_v53 (W : Valuation τ sig (Elt F)) : after s9 W (Proc.devRef .tc main_v53) = W (Proc.devRef .tc main_v53) := by
  after_results_simp

theorem keep9_v0 (W : Valuation τ sig (Elt F)) : after s9 W (Proc.devRef .tc main_v0) = W (Proc.devRef .tc main_v0) := by
  after_results_simp

theorem st10_v62 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v55 : W (Proc.devRef .tc main_v55) = Cert.ReferenceIdeal.ReadP.val_main_v55 (F := F) a0 a1 a2 a3 a4 a5)
    : after s10 W (Proc.devRef .tc main_v62) = Cert.ReferenceIdeal.ReadP.val_main_v62 (F := F) a0 a1 a2 a3 a4 a5 := by
  after_results_simp
  rw [h_v55]
  rfl

theorem keep10_v53 (W : Valuation τ sig (Elt F)) : after s10 W (Proc.devRef .tc main_v53) = W (Proc.devRef .tc main_v53) := by
  after_results_simp

theorem keep10_v0 (W : Valuation τ sig (Elt F)) : after s10 W (Proc.devRef .tc main_v0) = W (Proc.devRef .tc main_v0) := by
  after_results_simp

theorem st11_v66 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v62 : W (Proc.devRef .tc main_v62) = Cert.ReferenceIdeal.ReadP.val_main_v62 (F := F) a0 a1 a2 a3 a4 a5)
    : after s11 W (Proc.devRef .tc main_v66) = Cert.ReferenceIdeal.ReadP.val_main_v66 (F := F) a0 a1 a2 a3 a4 a5 := by
  after_results_simp
  rw [h_v62]
  rfl

theorem keep11_v53 (W : Valuation τ sig (Elt F)) : after s11 W (Proc.devRef .tc main_v53) = W (Proc.devRef .tc main_v53) := by
  after_results_simp

theorem keep11_v0 (W : Valuation τ sig (Elt F)) : after s11 W (Proc.devRef .tc main_v0) = W (Proc.devRef .tc main_v0) := by
  after_results_simp

theorem st12_v76 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v66 : W (Proc.devRef .tc main_v66) = Cert.ReferenceIdeal.ReadP.val_main_v66 (F := F) a0 a1 a2 a3 a4 a5)
    : after s12 W (Proc.devRef .tc main_v76) = Cert.ReferenceIdeal.ReadP.val_main_v76 (F := F) a0 a1 a2 a3 a4 a5 := by
  after_results_simp
  rw [h_v66]
  rfl

theorem keep12_v53 (W : Valuation τ sig (Elt F)) : after s12 W (Proc.devRef .tc main_v53) = W (Proc.devRef .tc main_v53) := by
  after_results_simp

theorem keep12_v0 (W : Valuation τ sig (Elt F)) : after s12 W (Proc.devRef .tc main_v0) = W (Proc.devRef .tc main_v0) := by
  after_results_simp

theorem st13_v83 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v76 : W (Proc.devRef .tc main_v76) = Cert.ReferenceIdeal.ReadP.val_main_v76 (F := F) a0 a1 a2 a3 a4 a5)
    : after s13 W (Proc.devRef .tc main_v83) = Cert.ReferenceIdeal.ReadP.val_main_v83 (F := F) a0 a1 a2 a3 a4 a5 := by
  after_results_simp
  rw [h_v76]
  rfl

theorem keep13_v53 (W : Valuation τ sig (Elt F)) : after s13 W (Proc.devRef .tc main_v53) = W (Proc.devRef .tc main_v53) := by
  after_results_simp

theorem keep13_v0 (W : Valuation τ sig (Elt F)) : after s13 W (Proc.devRef .tc main_v0) = W (Proc.devRef .tc main_v0) := by
  after_results_simp

theorem st14_v84 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v83 : W (Proc.devRef .tc main_v83) = Cert.ReferenceIdeal.ReadP.val_main_v83 (F := F) a0 a1 a2 a3 a4 a5)
    (h_v53 : W (Proc.devRef .tc main_v53) = Cert.ReferenceIdeal.ReadP.val_main_v53 (F := F) a0 a1 a2 a3 a4 a5)
    : after s14 W (Proc.devRef .tc main_v84) = Cert.ReferenceIdeal.ReadP.val_main_v84 (F := F) a0 a1 a2 a3 a4 a5 := by
  after_results_simp
  rw [h_v83, h_v53]
  rfl

theorem keep14_v0 (W : Valuation τ sig (Elt F)) : after s14 W (Proc.devRef .tc main_v0) = W (Proc.devRef .tc main_v0) := by
  after_results_simp

theorem keep14_v83 (W : Valuation τ sig (Elt F)) : after s14 W (Proc.devRef .tc main_v83) = W (Proc.devRef .tc main_v83) := by
  after_results_simp

theorem keep14_v53 (W : Valuation τ sig (Elt F)) : after s14 W (Proc.devRef .tc main_v53) = W (Proc.devRef .tc main_v53) := by
  after_results_simp

theorem st15_v86 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v0 : W (Proc.devRef .tc main_v0) = Cert.ReferenceIdeal.ReadP.val_main_v0 (F := F) a0)
    (h_v84 : W (Proc.devRef .tc main_v84) = Cert.ReferenceIdeal.ReadP.val_main_v84 (F := F) a0 a1 a2 a3 a4 a5)
    : after s15 W (Proc.devRef .tc main_v86) = Cert.ReferenceIdeal.ReadP.val_main_v86 (F := F) a0 a1 a2 a3 a4 a5 := by
  after_results_simp
  rw [h_v0, h_v84]
  rfl

theorem st15_v87 (W : Valuation τ sig (Elt F)) (a0 : (⟨S8x8192x256, .f32⟩ : BufTy).Contents (Elt F)) (a1 : (⟨S256x256, .f32⟩ : BufTy).Contents (Elt F)) (a2 : (⟨S256x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h_v83 : W (Proc.devRef .tc main_v83) = Cert.ReferenceIdeal.ReadP.val_main_v83 (F := F) a0 a1 a2 a3 a4 a5)
    : after s15 W (Proc.devRef .tc main_v87) = Cert.ReferenceIdeal.ReadP.val_main_v87 (F := F) a0 a1 a2 a3 a4 a5 := by
  after_results_simp
  rw [h_v83]
  rfl

theorem keep15_v53 (W : Valuation τ sig (Elt F)) : after s15 W (Proc.devRef .tc main_v53) = W (Proc.devRef .tc main_v53) := by
  after_results_simp

theorem ops_eq : (ops : List (HloOp τ sig (Elt F))) = s1 ++ (s2 ++ (s3 ++ (s4 ++ (s5 ++ (s6 ++ (s7 ++ (s8 ++ (s9 ++ (s10 ++ (s11 ++ (s12 ++ (s13 ++ (s14 ++ (s15)))))))))))))) := rfl

/-- The three results after the whole line, each at its stage of the arguments as the line found them. -/
theorem results (V : Valuation τ sig (Elt F)) :
    after ops V (Proc.devRef .tc main_v86) = Cert.ReferenceIdeal.ReadP.val_main_v86 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))
    ∧ after ops V (Proc.devRef .tc main_v87) = Cert.ReferenceIdeal.ReadP.val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))
    ∧ after ops V (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_eq]
  simp only [after_append]
  have f0_arg0 : V (Proc.devRef .tc main_arg0) = (V (Proc.devRef .tc main_arg0)) := rfl
  have f0_arg1 : V (Proc.devRef .tc main_arg1) = (V (Proc.devRef .tc main_arg1)) := rfl
  have f0_arg2 : V (Proc.devRef .tc main_arg2) = (V (Proc.devRef .tc main_arg2)) := rfl
  have f0_arg3 : V (Proc.devRef .tc main_arg3) = (V (Proc.devRef .tc main_arg3)) := rfl
  have f0_arg4 : V (Proc.devRef .tc main_arg4) = (V (Proc.devRef .tc main_arg4)) := rfl
  have f0_arg5 : V (Proc.devRef .tc main_arg5) = (V (Proc.devRef .tc main_arg5)) := rfl
  generalize hW1 : after s1 V = W1
  have f1_v0 : W1 (Proc.devRef .tc main_v0) = Cert.ReferenceIdeal.ReadP.val_main_v0 (F := F) (V (Proc.devRef .tc main_arg0)) :=
    (congrFun hW1 (Proc.devRef .tc main_v0)).symm.trans (st1_v0 V (V (Proc.devRef .tc main_arg0)) f0_arg0)
  have f1_arg1 : W1 (Proc.devRef .tc main_arg1) = (V (Proc.devRef .tc main_arg1)) :=
    ((congrFun hW1 (Proc.devRef .tc main_arg1)).symm.trans (keep1_arg1 V)).trans f0_arg1
  have f1_arg2 : W1 (Proc.devRef .tc main_arg2) = (V (Proc.devRef .tc main_arg2)) :=
    ((congrFun hW1 (Proc.devRef .tc main_arg2)).symm.trans (keep1_arg2 V)).trans f0_arg2
  have f1_arg3 : W1 (Proc.devRef .tc main_arg3) = (V (Proc.devRef .tc main_arg3)) :=
    ((congrFun hW1 (Proc.devRef .tc main_arg3)).symm.trans (keep1_arg3 V)).trans f0_arg3
  have f1_arg4 : W1 (Proc.devRef .tc main_arg4) = (V (Proc.devRef .tc main_arg4)) :=
    ((congrFun hW1 (Proc.devRef .tc main_arg4)).symm.trans (keep1_arg4 V)).trans f0_arg4
  have f1_arg5 : W1 (Proc.devRef .tc main_arg5) = (V (Proc.devRef .tc main_arg5)) :=
    ((congrFun hW1 (Proc.devRef .tc main_arg5)).symm.trans (keep1_arg5 V)).trans f0_arg5
  generalize hW2 : after s2 W1 = W2
  have f2_v2 : W2 (Proc.devRef .tc main_v2) = Cert.ReferenceIdeal.ReadP.val_main_v2 (F := F) (V (Proc.devRef .tc main_arg0)) (V (Proc.devRef .tc main_arg1)) :=
    (congrFun hW2 (Proc.devRef .tc main_v2)).symm.trans (st2_v2 W1 (V (Proc.devRef .tc main_arg0)) (V (Proc.devRef .tc main_arg1)) f1_arg1 f1_v0)
  have f2_v0 : W2 (Proc.devRef .tc main_v0) = Cert.ReferenceIdeal.ReadP.val_main_v0 (F := F) (V (Proc.devRef .tc main_arg0)) :=
    ((congrFun hW2 (Proc.devRef .tc main_v0)).symm.trans (keep2_v0 W1)).trans f1_v0
  have f2_arg1 : W2 (Proc.devRef .tc main_arg1) = (V (Proc.devRef .tc main_arg1)) :=
    ((congrFun hW2 (Proc.devRef .tc main_arg1)).symm.trans (keep2_arg1 W1)).trans f1_arg1
  have f2_arg2 : W2 (Proc.devRef .tc main_arg2) = (V (Proc.devRef .tc main_arg2)) :=
    ((congrFun hW2 (Proc.devRef .tc main_arg2)).symm.trans (keep2_arg2 W1)).trans f1_arg2
  have f2_arg3 : W2 (Proc.devRef .tc main_arg3) = (V (Proc.devRef .tc main_arg3)) :=
    ((congrFun hW2 (Proc.devRef .tc main_arg3)).symm.trans (keep2_arg3 W1)).trans f1_arg3
  have f2_arg4 : W2 (Proc.devRef .tc main_arg4) = (V (Proc.devRef .tc main_arg4)) :=
    ((congrFun hW2 (Proc.devRef .tc main_arg4)).symm.trans (keep2_arg4 W1)).trans f1_arg4
  have f2_arg5 : W2 (Proc.devRef .tc main_arg5) = (V (Proc.devRef .tc main_arg5)) :=
    ((congrFun hW2 (Proc.devRef .tc main_arg5)).symm.trans (keep2_arg5 W1)).trans f1_arg5
  generalize hW3 : after s3 W2 = W3
  have f3_v9 : W3 (Proc.devRef .tc main_v9) = Cert.ReferenceIdeal.ReadP.val_main_v9 (F := F) (V (Proc.devRef .tc main_arg0)) (V (Proc.devRef .tc main_arg1)) :=
    (congrFun hW3 (Proc.devRef .tc main_v9)).symm.trans (st3_v9 W2 (V (Proc.devRef .tc main_arg0)) (V (Proc.devRef .tc main_arg1)) f2_v2)
  have f3_v0 : W3 (Proc.devRef .tc main_v0) = Cert.ReferenceIdeal.ReadP.val_main_v0 (F := F) (V (Proc.devRef .tc main_arg0)) :=
    ((congrFun hW3 (Proc.devRef .tc main_v0)).symm.trans (keep3_v0 W2)).trans f2_v0
  have f3_arg1 : W3 (Proc.devRef .tc main_arg1) = (V (Proc.devRef .tc main_arg1)) :=
    ((congrFun hW3 (Proc.devRef .tc main_arg1)).symm.trans (keep3_arg1 W2)).trans f2_arg1
  have f3_arg2 : W3 (Proc.devRef .tc main_arg2) = (V (Proc.devRef .tc main_arg2)) :=
    ((congrFun hW3 (Proc.devRef .tc main_arg2)).symm.trans (keep3_arg2 W2)).trans f2_arg2
  have f3_arg3 : W3 (Proc.devRef .tc main_arg3) = (V (Proc.devRef .tc main_arg3)) :=
    ((congrFun hW3 (Proc.devRef .tc main_arg3)).symm.trans (keep3_arg3 W2)).trans f2_arg3
  have f3_arg4 : W3 (Proc.devRef .tc main_arg4) = (V (Proc.devRef .tc main_arg4)) :=
    ((congrFun hW3 (Proc.devRef .tc main_arg4)).symm.trans (keep3_arg4 W2)).trans f2_arg4
  have f3_arg5 : W3 (Proc.devRef .tc main_arg5) = (V (Proc.devRef .tc main_arg5)) :=
    ((congrFun hW3 (Proc.devRef .tc main_arg5)).symm.trans (keep3_arg5 W2)).trans f2_arg5
  generalize hW4 : after s4 W3 = W4
  have f4_v13 : W4 (Proc.devRef .tc main_v13) = Cert.ReferenceIdeal.ReadP.val_main_v13 (F := F) (V (Proc.devRef .tc main_arg0)) (V (Proc.devRef .tc main_arg1)) :=
    (congrFun hW4 (Proc.devRef .tc main_v13)).symm.trans (st4_v13 W3 (V (Proc.devRef .tc main_arg0)) (V (Proc.devRef .tc main_arg1)) f3_v9)
  have f4_v0 : W4 (Proc.devRef .tc main_v0) = Cert.ReferenceIdeal.ReadP.val_main_v0 (F := F) (V (Proc.devRef .tc main_arg0)) :=
    ((congrFun hW4 (Proc.devRef .tc main_v0)).symm.trans (keep4_v0 W3)).trans f3_v0
  have f4_arg1 : W4 (Proc.devRef .tc main_arg1) = (V (Proc.devRef .tc main_arg1)) :=
    ((congrFun hW4 (Proc.devRef .tc main_arg1)).symm.trans (keep4_arg1 W3)).trans f3_arg1
  have f4_arg2 : W4 (Proc.devRef .tc main_arg2) = (V (Proc.devRef .tc main_arg2)) :=
    ((congrFun hW4 (Proc.devRef .tc main_arg2)).symm.trans (keep4_arg2 W3)).trans f3_arg2
  have f4_arg3 : W4 (Proc.devRef .tc main_arg3) = (V (Proc.devRef .tc main_arg3)) :=
    ((congrFun hW4 (Proc.devRef .tc main_arg3)).symm.trans (keep4_arg3 W3)).trans f3_arg3
  have f4_arg4 : W4 (Proc.devRef .tc main_arg4) = (V (Proc.devRef .tc main_arg4)) :=
    ((congrFun hW4 (Proc.devRef .tc main_arg4)).symm.trans (keep4_arg4 W3)).trans f3_arg4
  have f4_arg5 : W4 (Proc.devRef .tc main_arg5) = (V (Proc.devRef .tc main_arg5)) :=
    ((congrFun hW4 (Proc.devRef .tc main_arg5)).symm.trans (keep4_arg5 W3)).trans f3_arg5
  generalize hW5 : after s5 W4 = W5
  have f5_v23 : W5 (Proc.devRef .tc main_v23) = Cert.ReferenceIdeal.ReadP.val_main_v23 (F := F) (V (Proc.devRef .tc main_arg0)) (V (Proc.devRef .tc main_arg1)) :=
    (congrFun hW5 (Proc.devRef .tc main_v23)).symm.trans (st5_v23 W4 (V (Proc.devRef .tc main_arg0)) (V (Proc.devRef .tc main_arg1)) f4_v13)
  have f5_v0 : W5 (Proc.devRef .tc main_v0) = Cert.ReferenceIdeal.ReadP.val_main_v0 (F := F) (V (Proc.devRef .tc main_arg0)) :=
    ((congrFun hW5 (Proc.devRef .tc main_v0)).symm.trans (keep5_v0 W4)).trans f4_v0
  have f5_arg1 : W5 (Proc.devRef .tc main_arg1) = (V (Proc.devRef .tc main_arg1)) :=
    ((congrFun hW5 (Proc.devRef .tc main_arg1)).symm.trans (keep5_arg1 W4)).trans f4_arg1
  have f5_arg2 : W5 (Proc.devRef .tc main_arg2) = (V (Proc.devRef .tc main_arg2)) :=
    ((congrFun hW5 (Proc.devRef .tc main_arg2)).symm.trans (keep5_arg2 W4)).trans f4_arg2
  have f5_arg3 : W5 (Proc.devRef .tc main_arg3) = (V (Proc.devRef .tc main_arg3)) :=
    ((congrFun hW5 (Proc.devRef .tc main_arg3)).symm.trans (keep5_arg3 W4)).trans f4_arg3
  have f5_arg4 : W5 (Proc.devRef .tc main_arg4) = (V (Proc.devRef .tc main_arg4)) :=
    ((congrFun hW5 (Proc.devRef .tc main_arg4)).symm.trans (keep5_arg4 W4)).trans f4_arg4
  have f5_arg5 : W5 (Proc.devRef .tc main_arg5) = (V (Proc.devRef .tc main_arg5)) :=
    ((congrFun hW5 (Proc.devRef .tc main_arg5)).symm.trans (keep5_arg5 W4)).trans f4_arg5
  generalize hW6 : after s6 W5 = W6
  have f6_v31 : W6 (Proc.devRef .tc main_v31) = Cert.ReferenceIdeal.ReadP.val_main_v31 (F := F) (V (Proc.devRef .tc main_arg0)) (V (Proc.devRef .tc main_arg1)) :=
    (congrFun hW6 (Proc.devRef .tc main_v31)).symm.trans (st6_v31 W5 (V (Proc.devRef .tc main_arg0)) (V (Proc.devRef .tc main_arg1)) f5_v23 f5_v0)
  have f6_arg1 : W6 (Proc.devRef .tc main_arg1) = (V (Proc.devRef .tc main_arg1)) :=
    ((congrFun hW6 (Proc.devRef .tc main_arg1)).symm.trans (keep6_arg1 W5)).trans f5_arg1
  have f6_arg2 : W6 (Proc.devRef .tc main_arg2) = (V (Proc.devRef .tc main_arg2)) :=
    ((congrFun hW6 (Proc.devRef .tc main_arg2)).symm.trans (keep6_arg2 W5)).trans f5_arg2
  have f6_arg3 : W6 (Proc.devRef .tc main_arg3) = (V (Proc.devRef .tc main_arg3)) :=
    ((congrFun hW6 (Proc.devRef .tc main_arg3)).symm.trans (keep6_arg3 W5)).trans f5_arg3
  have f6_arg4 : W6 (Proc.devRef .tc main_arg4) = (V (Proc.devRef .tc main_arg4)) :=
    ((congrFun hW6 (Proc.devRef .tc main_arg4)).symm.trans (keep6_arg4 W5)).trans f5_arg4
  have f6_arg5 : W6 (Proc.devRef .tc main_arg5) = (V (Proc.devRef .tc main_arg5)) :=
    ((congrFun hW6 (Proc.devRef .tc main_arg5)).symm.trans (keep6_arg5 W5)).trans f5_arg5
  have f6_v0 : W6 (Proc.devRef .tc main_v0) = Cert.ReferenceIdeal.ReadP.val_main_v0 (F := F) (V (Proc.devRef .tc main_arg0)) :=
    ((congrFun hW6 (Proc.devRef .tc main_v0)).symm.trans (keep6_v0 W5)).trans f5_v0
  generalize hW7 : after s7 W6 = W7
  have f7_v48 : W7 (Proc.devRef .tc main_v48) = Cert.ReferenceIdeal.ReadP.val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW7 (Proc.devRef .tc main_v48)).symm.trans (st7_v48 W6 (V (Proc.devRef .tc main_arg0)) (V (Proc.devRef .tc main_arg1)) (V (Proc.devRef .tc main_arg2)) (V (Proc.devRef .tc main_arg3)) (V (Proc.devRef .tc main_arg4)) (V (Proc.devRef .tc main_arg5)) f6_arg1 f6_arg2 f6_arg3 f6_v31 f6_arg4 f6_arg5)
  have f7_arg1 : W7 (Proc.devRef .tc main_arg1) = (V (Proc.devRef .tc main_arg1)) :=
    ((congrFun hW7 (Proc.devRef .tc main_arg1)).symm.trans (keep7_arg1 W6)).trans f6_arg1
  have f7_v31 : W7 (Proc.devRef .tc main_v31) = Cert.ReferenceIdeal.ReadP.val_main_v31 (F := F) (V (Proc.devRef .tc main_arg0)) (V (Proc.devRef .tc main_arg1)) :=
    ((congrFun hW7 (Proc.devRef .tc main_v31)).symm.trans (keep7_v31 W6)).trans f6_v31
  have f7_v0 : W7 (Proc.devRef .tc main_v0) = Cert.ReferenceIdeal.ReadP.val_main_v0 (F := F) (V (Proc.devRef .tc main_arg0)) :=
    ((congrFun hW7 (Proc.devRef .tc main_v0)).symm.trans (keep7_v0 W6)).trans f6_v0
  generalize hW8 : after s8 W7 = W8
  have f8_v53 : W8 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW8 (Proc.devRef .tc main_v53)).symm.trans (st8_v53 W7 (V (Proc.devRef .tc main_arg0)) (V (Proc.devRef .tc main_arg1)) (V (Proc.devRef .tc main_arg2)) (V (Proc.devRef .tc main_arg3)) (V (Proc.devRef .tc main_arg4)) (V (Proc.devRef .tc main_arg5)) f7_v48 f7_arg1 f7_v31)
  have f8_v0 : W8 (Proc.devRef .tc main_v0) = Cert.ReferenceIdeal.ReadP.val_main_v0 (F := F) (V (Proc.devRef .tc main_arg0)) :=
    ((congrFun hW8 (Proc.devRef .tc main_v0)).symm.trans (keep8_v0 W7)).trans f7_v0
  generalize hW9 : after s9 W8 = W9
  have f9_v55 : W9 (Proc.devRef .tc main_v55) = Cert.ReferenceIdeal.ReadP.val_main_v55 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW9 (Proc.devRef .tc main_v55)).symm.trans (st9_v55 W8 (V (Proc.devRef .tc main_arg0)) (V (Proc.devRef .tc main_arg1)) (V (Proc.devRef .tc main_arg2)) (V (Proc.devRef .tc main_arg3)) (V (Proc.devRef .tc main_arg4)) (V (Proc.devRef .tc main_arg5)) f8_v0 f8_v53)
  have f9_v53 : W9 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW9 (Proc.devRef .tc main_v53)).symm.trans (keep9_v53 W8)).trans f8_v53
  have f9_v0 : W9 (Proc.devRef .tc main_v0) = Cert.ReferenceIdeal.ReadP.val_main_v0 (F := F) (V (Proc.devRef .tc main_arg0)) :=
    ((congrFun hW9 (Proc.devRef .tc main_v0)).symm.trans (keep9_v0 W8)).trans f8_v0
  generalize hW10 : after s10 W9 = W10
  have f10_v62 : W10 (Proc.devRef .tc main_v62) = Cert.ReferenceIdeal.ReadP.val_main_v62 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW10 (Proc.devRef .tc main_v62)).symm.trans (st10_v62 W9 (V (Proc.devRef .tc main_arg0)) (V (Proc.devRef .tc main_arg1)) (V (Proc.devRef .tc main_arg2)) (V (Proc.devRef .tc main_arg3)) (V (Proc.devRef .tc main_arg4)) (V (Proc.devRef .tc main_arg5)) f9_v55)
  have f10_v53 : W10 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW10 (Proc.devRef .tc main_v53)).symm.trans (keep10_v53 W9)).trans f9_v53
  have f10_v0 : W10 (Proc.devRef .tc main_v0) = Cert.ReferenceIdeal.ReadP.val_main_v0 (F := F) (V (Proc.devRef .tc main_arg0)) :=
    ((congrFun hW10 (Proc.devRef .tc main_v0)).symm.trans (keep10_v0 W9)).trans f9_v0
  generalize hW11 : after s11 W10 = W11
  have f11_v66 : W11 (Proc.devRef .tc main_v66) = Cert.ReferenceIdeal.ReadP.val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW11 (Proc.devRef .tc main_v66)).symm.trans (st11_v66 W10 (V (Proc.devRef .tc main_arg0)) (V (Proc.devRef .tc main_arg1)) (V (Proc.devRef .tc main_arg2)) (V (Proc.devRef .tc main_arg3)) (V (Proc.devRef .tc main_arg4)) (V (Proc.devRef .tc main_arg5)) f10_v62)
  have f11_v53 : W11 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW11 (Proc.devRef .tc main_v53)).symm.trans (keep11_v53 W10)).trans f10_v53
  have f11_v0 : W11 (Proc.devRef .tc main_v0) = Cert.ReferenceIdeal.ReadP.val_main_v0 (F := F) (V (Proc.devRef .tc main_arg0)) :=
    ((congrFun hW11 (Proc.devRef .tc main_v0)).symm.trans (keep11_v0 W10)).trans f10_v0
  generalize hW12 : after s12 W11 = W12
  have f12_v76 : W12 (Proc.devRef .tc main_v76) = Cert.ReferenceIdeal.ReadP.val_main_v76 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW12 (Proc.devRef .tc main_v76)).symm.trans (st12_v76 W11 (V (Proc.devRef .tc main_arg0)) (V (Proc.devRef .tc main_arg1)) (V (Proc.devRef .tc main_arg2)) (V (Proc.devRef .tc main_arg3)) (V (Proc.devRef .tc main_arg4)) (V (Proc.devRef .tc main_arg5)) f11_v66)
  have f12_v53 : W12 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW12 (Proc.devRef .tc main_v53)).symm.trans (keep12_v53 W11)).trans f11_v53
  have f12_v0 : W12 (Proc.devRef .tc main_v0) = Cert.ReferenceIdeal.ReadP.val_main_v0 (F := F) (V (Proc.devRef .tc main_arg0)) :=
    ((congrFun hW12 (Proc.devRef .tc main_v0)).symm.trans (keep12_v0 W11)).trans f11_v0
  generalize hW13 : after s13 W12 = W13
  have f13_v83 : W13 (Proc.devRef .tc main_v83) = Cert.ReferenceIdeal.ReadP.val_main_v83 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW13 (Proc.devRef .tc main_v83)).symm.trans (st13_v83 W12 (V (Proc.devRef .tc main_arg0)) (V (Proc.devRef .tc main_arg1)) (V (Proc.devRef .tc main_arg2)) (V (Proc.devRef .tc main_arg3)) (V (Proc.devRef .tc main_arg4)) (V (Proc.devRef .tc main_arg5)) f12_v76)
  have f13_v53 : W13 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW13 (Proc.devRef .tc main_v53)).symm.trans (keep13_v53 W12)).trans f12_v53
  have f13_v0 : W13 (Proc.devRef .tc main_v0) = Cert.ReferenceIdeal.ReadP.val_main_v0 (F := F) (V (Proc.devRef .tc main_arg0)) :=
    ((congrFun hW13 (Proc.devRef .tc main_v0)).symm.trans (keep13_v0 W12)).trans f12_v0
  generalize hW14 : after s14 W13 = W14
  have f14_v84 : W14 (Proc.devRef .tc main_v84) = Cert.ReferenceIdeal.ReadP.val_main_v84 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW14 (Proc.devRef .tc main_v84)).symm.trans (st14_v84 W13 (V (Proc.devRef .tc main_arg0)) (V (Proc.devRef .tc main_arg1)) (V (Proc.devRef .tc main_arg2)) (V (Proc.devRef .tc main_arg3)) (V (Proc.devRef .tc main_arg4)) (V (Proc.devRef .tc main_arg5)) f13_v83 f13_v53)
  have f14_v0 : W14 (Proc.devRef .tc main_v0) = Cert.ReferenceIdeal.ReadP.val_main_v0 (F := F) (V (Proc.devRef .tc main_arg0)) :=
    ((congrFun hW14 (Proc.devRef .tc main_v0)).symm.trans (keep14_v0 W13)).trans f13_v0
  have f14_v83 : W14 (Proc.devRef .tc main_v83) = Cert.ReferenceIdeal.ReadP.val_main_v83 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW14 (Proc.devRef .tc main_v83)).symm.trans (keep14_v83 W13)).trans f13_v83
  have f14_v53 : W14 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW14 (Proc.devRef .tc main_v53)).symm.trans (keep14_v53 W13)).trans f13_v53
  generalize hW15 : after s15 W14 = W15
  have f15_v86 : W15 (Proc.devRef .tc main_v86) = Cert.ReferenceIdeal.ReadP.val_main_v86 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW15 (Proc.devRef .tc main_v86)).symm.trans (st15_v86 W14 (V (Proc.devRef .tc main_arg0)) (V (Proc.devRef .tc main_arg1)) (V (Proc.devRef .tc main_arg2)) (V (Proc.devRef .tc main_arg3)) (V (Proc.devRef .tc main_arg4)) (V (Proc.devRef .tc main_arg5)) f14_v0 f14_v84)
  have f15_v87 : W15 (Proc.devRef .tc main_v87) = Cert.ReferenceIdeal.ReadP.val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    (congrFun hW15 (Proc.devRef .tc main_v87)).symm.trans (st15_v87 W14 (V (Proc.devRef .tc main_arg0)) (V (Proc.devRef .tc main_arg1)) (V (Proc.devRef .tc main_arg2)) (V (Proc.devRef .tc main_arg3)) (V (Proc.devRef .tc main_arg4)) (V (Proc.devRef .tc main_arg5)) f14_v83)
  have f15_v53 : W15 (Proc.devRef .tc main_v53) = Cert.ReferenceIdeal.ReadP.val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    ((congrFun hW15 (Proc.devRef .tc main_v53)).symm.trans (keep15_v53 W14)).trans f14_v53
  exact ⟨f15_v86, f15_v87, f15_v53⟩

end Cert.ReferenceIdeal.ValueT

end
-- ==== Proof.RefRunT.lean ====
/-
  Every weakly fair execution of the reference terminates with each result at its stage's value of the arguments.

  The reference's @main is a straight line of 111 host operations. The sequence theorem gives, from any memory with zero
  counters, termination and the final contents of every buffer as the fold of the operation list over the contents at
  launch. The fold's three result buffers hold the stages val_main_v86, val_main_v87 and val_main_v53 of the six arguments
  by the chain of stretches (results); an argument's buffer is written by no operation, so it holds what it held.
-/
import proofs.«171355_j541165879332_2_alg».proof.Proof.RefStretches

noncomputable section

namespace Cert.ReferenceIdeal.ValueT

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- On every device, for any float values, from any memory with zero counters: every weakly fair execution of
    @main terminates with each result at its stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = Cert.ReferenceIdeal.ReadP.val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v87) = Cert.ReferenceIdeal.ReadP.val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v53) = Cert.ReferenceIdeal.ReadP.val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v86).trans (results (launchContents m c)).1,
      (h c main_v87).trans (results (launchContents m c)).2.1,
      (h c main_v53).trans (results (launchContents m c)).2.2,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.ValueT

end
-- ==== Proof.lean ====
/-
  A memory of 256 rows is updated from 65536 query rows and then read by them; the kernel does it in three passes over
  tiles of query rows, the reference in whole-array operations. At the ideal instance (floats are extended reals,
  operations exact, format changes the identity) both compute the same three arrays.

  * The update. The reference takes, for each memory row, the softmax over all 65536 scores, shrinks it, divides by the
    clamped L1 norm and multiplies by the query matrix. The kernel's first pass keeps, per core (two cores, eight tiles
    of 4096 rows each), a running maximum and a running sum of exponentials rescaled whenever the maximum grows; the
    host merges the two cores' pairs; the second pass recomputes the weights from the merged pair, shrinks them and
    accumulates Σ g · q and Σ |g| per core; the host adds the cores' parts and divides. For real scores the running pair
    after a core's tiles is (M, Σ exp(s − M)) for that core's maximum M, the merged pair is (M', Σ_all exp(s − M')), the
    softmax does not depend on which upper bound M' is subtracted, sums over tiles regroup, and dividing a finite
    sum of reals by a positive real is dividing each term: the two additions to the memory agree. The query and
    memory entries are real because the precondition says every input is finite.
  * The gate and the new memory are one and the same chain of operations in both programs, applied to equal additions.
  * The read is, per query row, the same computation in both programs against equal new memories; the kernel does
    2048 rows per grid point and the blocks tile the two output arrays.
  The three frames: the two kernel programs' are generated; the reference's is its run with the results dropped.
  The idealization rewrote no operation, so there is nothing to preserve.
-/
import proofs.«171355_j541165879332_2_alg».proof.Defs
import proofs.«171355_j541165879332_2_alg».proof.Proof.Gen.Kernel
import proofs.«171355_j541165879332_2_alg».proof.Proof.Gen.Kernel.Skeleton
import proofs.«171355_j541165879332_2_alg».proof.Proof.Gen.Kernel.Launch
import proofs.«171355_j541165879332_2_alg».proof.Proof.Gen.Kernel.Points
import proofs.«171355_j541165879332_2_alg».proof.Proof.Gen.Kernel.Frame
import proofs.«171355_j541165879332_2_alg».proof.Proof.Gen.KernelIdeal
import proofs.«171355_j541165879332_2_alg».proof.Proof.Gen.KernelIdeal.Skeleton
import proofs.«171355_j541165879332_2_alg».proof.Proof.Gen.KernelIdeal.Launch
import proofs.«171355_j541165879332_2_alg».proof.Proof.Gen.KernelIdeal.Points
import proofs.«171355_j541165879332_2_alg».proof.Proof.Gen.KernelIdeal.Frame
import proofs.«171355_j541165879332_2_alg».proof.Proof.Gen.ReferenceIdeal
import proofs.«171355_j541165879332_2_alg».proof.Proof.Gen.Pre_finite_inputs
import proofs.«171355_j541165879332_2_alg».proof.Proof.FrameResults
import proofs.«171355_j541165879332_2_alg».proof.Proof.Bridge
import proofs.«171355_j541165879332_2_alg».proof.Proof.RefRunT
import Idealize.ShloMosaic.Adequacy
import Idealize.ShloMosaic.Init

noncomputable section

namespace Cert.Proof

open Idealize.ShloMosaic Idealize.SL.Sem

section Claims
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.ValueT.run (F := Ideal) m ρ)

/-- Both idealized programs end, from memories agreeing on the arguments, with the reference's three last stages of the
    arguments as results: the reference by its run, the kernel by its run and the equality of its final contents with
    those stages. -/
theorem algebraic : Cert.algebraic_KernelIdeal_ReferenceIdeal := by
  intro m ρ m' ρ' hpre hagree
  refine ⟨fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.GenP.frame_results (F := Ideal) m ρ)
    obtain ⟨e56, e57, e54⟩ := Cert.KernelIdeal.Bridge.results_eq m ρ c (hpre c)
    exact ⟨(h c).1.trans e56, (h c).2.1.trans e57, (h c).2.2.1.trans e54, (h c).2.2.2⟩
  · refine (θ_run Cert.ReferenceIdeal.defs _ _).mono (fun r h c => ?_) (Cert.ReferenceIdeal.ValueT.run (F := Ideal) m' ρ')
    obtain ⟨a0, a1, a2, a3, a4, a5⟩ := hagree c
    refine ⟨?_, ?_, ?_, (h c).2.2.2⟩
    · rw [(h c).1, a0, a1, a2, a3, a4, a5]
    · rw [(h c).2.1, a0, a1, a2, a3, a4, a5]
    · rw [(h c).2.2.1, a0, a1, a2, a3, a4, a5]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
